-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_v273) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S8x16384x64 : Shape := ⟨3, ![8, 16384, 64]⟩
abbrev S64x320 : Shape := ⟨2, ![64, 320]⟩
abbrev S320 : Shape := ⟨1, ![320]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S8x16384x64 : S_.BroadcastsInDim S8x16384x64 (![] : Fin 0 → Fin S8x16384x64.rank)
  reducesTo_S8x16384x64_S_d0_1_2 : S8x16384x64.ReducesTo [0, 1, 2] S_
  bcast_S_S64x320 : S_.BroadcastsInDim S64x320 (![] : Fin 0 → Fin S64x320.rank)
  reducesTo_S64x320_S_d0_1 : S64x320.ReducesTo [0, 1] S_
  bcast_S_S320 : S_.BroadcastsInDim S320 (![] : Fin 0 → Fin S320.rank)
  reducesTo_S320_S_d0 : S320.ReducesTo [0] S_

variable [Facts]

def fn_part2 {F : FTy → Type} [FloatOps F] (main_arg7 : FVec F S64x320 .f32) (main_arg8 : FVec F S64x320 .f32) (main_arg9 : FVec F S320 .f32) (main_v33 : IVec S_ 1) : IVec S_ 1 :=
  let main_v34 : FVec F S64x320 .f32 := Host.absf main_arg7
  let main_cst_12 : FVec F S_ .f32 := constant S_ .f32 0x7F800000#32
  let main_v35 : FVec F S64x320 .f32 := broadcastInDim S64x320 ![] bcast_S_S64x320 main_cst_12
  let main_v36 : IVec S64x320 1 := cmpf .olt main_v34 main_v35
  let main_c_13 : IVec S_ 1 := constantI S_ 1 1#1
  let main_v37 : IVec S_ 1 := (fun x v => Host.reduce IntOp.andi x v reducesTo_S64x320_S_d0_1 h_S_) main_v36 main_c_13
  let main_v38 : IVec S_ 1 := andi main_v33 main_v37
  let main_v39 : FVec F S64x320 .f32 := Host.absf main_arg8
  let main_cst_14 : FVec F S_ .f32 := constant S_ .f32 0x7F800000#32
  let main_v40 : FVec F S64x320 .f32 := broadcastInDim S64x320 ![] bcast_S_S64x320 main_cst_14
  let main_v41 : IVec S64x320 1 := cmpf .olt main_v39 main_v40
  let main_c_15 : IVec S_ 1 := constantI S_ 1 1#1
  let main_v42 : IVec S_ 1 := (fun x v => Host.reduce IntOp.andi x v reducesTo_S64x320_S_d0_1 h_S_) main_v41 main_c_15
  let main_v43 : IVec S_ 1 := andi main_v38 main_v42
  let main_v44 : FVec F S320 .f32 := Host.absf main_arg9
  let main_cst_16 : FVec F S_ .f32 := constant S_ .f32 0x7F800000#32
  let main_v45 : FVec F S320 .f32 := broadcastInDim S320 ![] bcast_S_S320 main_cst_16
  let main_v46 : IVec S320 1 := cmpf .olt main_v44 main_v45
  let main_c_17 : IVec S_ 1 := constantI S_ 1 1#1
  let main_v47 : IVec S_ 1 := (fun x v => Host.reduce IntOp.andi x v reducesTo_S320_S_d0 h_S_) main_v46 main_c_17
  let main_v48 : IVec S_ 1 := andi main_v43 main_v47
  main_v48

def fn_part1 {F : FTy → Type} [FloatOps F] (main_arg4 : FVec F S64x320 .f32) (main_arg5 : FVec F S64x320 .f32) (main_arg6 : FVec F S320 .f32) (main_arg7 : FVec F S64x320 .f32) (main_arg8 : FVec F S64x320 .f32) (main_arg9 : FVec F S320 .f32) (main_v13 : IVec S_ 1) (main_v16 : IVec S8x16384x64 1) : IVec S_ 1 :=
  let main_c_5 : IVec S_ 1 := constantI S_ 1 1#1
  let main_v17 : IVec S_ 1 := (fun x v => Host.reduce IntOp.andi x v reducesTo_S8x16384x64_S_d0_1_2 h_S_) main_v16 main_c_5
  let main_v18 : IVec S_ 1 := andi main_v13 main_v17
  let main_v19 : FVec F S64x320 .f32 := Host.absf main_arg4
  let main_cst_6 : FVec F S_ .f32 := constant S_ .f32 0x7F800000#32
  let main_v20 : FVec F S64x320 .f32 := broadcastInDim S64x320 ![] bcast_S_S64x320 main_cst_6
  let main_v21 : IVec S64x320 1 := cmpf .olt main_v19 main_v20
  let main_c_7 : IVec S_ 1 := constantI S_ 1 1#1
  let main_v22 : IVec S_ 1 := (fun x v => Host.reduce IntOp.andi x v reducesTo_S64x320_S_d0_1 h_S_) main_v21 main_c_7
  let main_v23 : IVec S_ 1 := andi main_v18 main_v22
  let main_v24 : FVec F S64x320 .f32 := Host.absf main_arg5
  let main_cst_8 : FVec F S_ .f32 := constant S_ .f32 0x7F800000#32
  let main_v25 : FVec F S64x320 .f32 := broadcastInDim S64x320 ![] bcast_S_S64x320 main_cst_8
  let main_v26 : IVec S64x320 1 := cmpf .olt main_v24 main_v25
  let main_c_9 : IVec S_ 1 := constantI S_ 1 1#1
  let main_v27 : IVec S_ 1 := (fun x v => Host.reduce IntOp.andi x v reducesTo_S64x320_S_d0_1 h_S_) main_v26 main_c_9
  let main_v28 : IVec S_ 1 := andi main_v23 main_v27
  let main_v29 : FVec F S320 .f32 := Host.absf main_arg6
  let main_cst_10 : FVec F S_ .f32 := constant S_ .f32 0x7F800000#32
  let main_v30 : FVec F S320 .f32 := broadcastInDim S320 ![] bcast_S_S320 main_cst_10
  let main_v31 : IVec S320 1 := cmpf .olt main_v29 main_v30
  let main_c_11 : IVec S_ 1 := constantI S_ 1 1#1
  let main_v32 : IVec S_ 1 := (fun x v => Host.reduce IntOp.andi x v reducesTo_S320_S_d0 h_S_) main_v31 main_c_11
  let main_v33 : IVec S_ 1 := andi main_v28 main_v32
  fn_part2 (F := F) main_arg7 main_arg8 main_arg9 main_v33

def fn {F : FTy → Type} [FloatOps F] (main_arg0 : FVec F S16384x64 .f32) (main_arg1 : FVec F S16384x64 .f32) (main_arg2 : FVec F S8x16384x64 .f32) (main_arg3 : FVec F S8x16384x64 .f32) (main_arg4 : FVec F S64x320 .f32) (main_arg5 : FVec F S64x320 .f32) (main_arg6 : FVec F S320 .f32) (main_arg7 : FVec F S64x320 .f32) (main_arg8 : FVec F S64x320 .f32) (main_arg9 : FVec F S320 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S8x16384x64 .f32 := Host.absf main_arg2
  let main_cst_2 : FVec F S_ .f32 := constant S_ .f32 0x7F800000#32
  let main_v10 : FVec F S8x16384x64 .f32 := broadcastInDim S8x16384x64 ![] bcast_S_S8x16384x64 main_cst_2
  let main_v11 : IVec S8x16384x64 1 := cmpf .olt main_v9 main_v10
  let main_c_3 : IVec S_ 1 := constantI S_ 1 1#1
  let main_v12 : IVec S_ 1 := (fun x v => Host.reduce IntOp.andi x v reducesTo_S8x16384x64_S_d0_1_2 h_S_) main_v11 main_c_3
  let main_v13 : IVec S_ 1 := andi main_v8 main_v12
  let main_v14 : FVec F S8x16384x64 .f32 := Host.absf main_arg3
  let main_cst_4 : FVec F S_ .f32 := constant S_ .f32 0x7F800000#32
  let main_v15 : FVec F S8x16384x64 .f32 := broadcastInDim S8x16384x64 ![] bcast_S_S8x16384x64 main_cst_4
  let main_v16 : IVec S8x16384x64 1 := cmpf .olt main_v14 main_v15
  fn_part1 (F := F) main_arg4 main_arg5 main_arg6 main_arg7 main_arg8 main_arg9 main_v13 main_v16
-- ==== Kernel.lean ====
abbrev S16384x64 : Shape := ⟨2, ![16384, 64]⟩
abbrev S8x16384x64 : Shape := ⟨3, ![8, 16384, 64]⟩
abbrev S64x320 : Shape := ⟨2, ![64, 320]⟩
abbrev S320 : Shape := ⟨1, ![320]⟩
abbrev S64x16384 : Shape := ⟨2, ![64, 16384]⟩
abbrev S8x64x16384 : Shape := ⟨3, ![8, 64, 16384]⟩
abbrev S_ : Shape := ⟨0, ![]⟩
abbrev S256 : Shape := ⟨1, ![256]⟩
abbrev S64 : Shape := ⟨1, ![64]⟩
abbrev S128x320 : Shape := ⟨2, ![128, 320]⟩
abbrev S1x320 : Shape := ⟨2, ![1, 320]⟩
abbrev S320x128 : Shape := ⟨2, ![320, 128]⟩
abbrev S320x1 : Shape := ⟨2, ![320, 1]⟩
abbrev S64x2048 : Shape := ⟨2, ![64, 2048]⟩
abbrev S1x64x2048 : Shape := ⟨3, ![1, 64, 2048]⟩
abbrev S128x2048 : Shape := ⟨2, ![128, 2048]⟩
abbrev S320x2048 : Shape := ⟨2, ![320, 2048]⟩

abbrev nBuf : Space → Nat
  | .hbm => 44
  | .vmem => 36
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S8x16384x64, .f32⟩
  | .hbm, ⟨3, _⟩ => ⟨S8x16384x64, .f32⟩
  | .hbm, ⟨4, _⟩ => ⟨S64x320, .f32⟩
  | .hbm, ⟨5, _⟩ => ⟨S64x320, .f32⟩
  | .hbm, ⟨6, _⟩ => ⟨S320, .f32⟩
  | .hbm, ⟨7, _⟩ => ⟨S64x320, .f32⟩
  | .hbm, ⟨8, _⟩ => ⟨S64x320, .f32⟩
  | .hbm, ⟨9, _⟩ => ⟨S320, .f32⟩
  | .hbm, ⟨10, _⟩ => ⟨S64x16384, .f32⟩
  | .hbm, ⟨11, _⟩ => ⟨S64x16384, .f32⟩
  | .hbm, ⟨12, _⟩ => ⟨S8x64x16384, .f32⟩
  | .hbm, ⟨13, _⟩ => ⟨S8x64x16384, .f32⟩
  | .hbm, ⟨14, _⟩ => ⟨S_, .f32⟩
  | .hbm, ⟨15, _⟩ => ⟨S256, .f32⟩
  | .hbm, ⟨16, _⟩ => ⟨S_, .f32⟩
  | .hbm, ⟨17, _⟩ => ⟨S64, .f32⟩
  | .hbm, ⟨18, _⟩ => ⟨S320, .f32⟩
  | .hbm, ⟨19, _⟩ => ⟨S128x320, .f32⟩
  | .hbm, ⟨20, _⟩ => ⟨S1x320, .f32⟩
  | .hbm, ⟨21, _⟩ => ⟨S128x320, .f32⟩
  | .hbm, ⟨22, _⟩ => ⟨S128x320, .f32⟩
  | .hbm, ⟨23, _⟩ => ⟨S320x128, .f32⟩
  | .hbm, ⟨24, _⟩ => ⟨S320x128, .bf16⟩
  | .hbm, ⟨25, _⟩ => ⟨S320, .f32⟩
  | .hbm, ⟨26, _⟩ => ⟨S320x1, .f32⟩
  | .hbm, ⟨27, _⟩ => ⟨S_, .f32⟩
  | .hbm, ⟨28, _⟩ => ⟨S256, .f32⟩
  | .hbm, ⟨29, _⟩ => ⟨S_, .f32⟩
  | .hbm, ⟨30, _⟩ => ⟨S64, .f32⟩
  | .hbm, ⟨31, _⟩ => ⟨S320, .f32⟩
  | .hbm, ⟨32, _⟩ => ⟨S128x320, .f32⟩
  | .hbm, ⟨33, _⟩ => ⟨S1x320, .f32⟩
  | .hbm, ⟨34, _⟩ => ⟨S128x320, .f32⟩
  | .hbm, ⟨35, _⟩ => ⟨S128x320, .f32⟩
  | .hbm, ⟨36, _⟩ => ⟨S320x128, .f32⟩
  | .hbm, ⟨37, _⟩ => ⟨S320x128, .bf16⟩
  | .hbm, ⟨38, _⟩ => ⟨S320, .f32⟩
  | .hbm, ⟨39, _⟩ => ⟨S320x1, .f32⟩
  | .hbm, ⟨40, _⟩ => ⟨S64x16384, .f32⟩
  | .hbm, ⟨41, _⟩ => ⟨S64x16384, .f32⟩
  | .hbm, ⟨42, _⟩ => ⟨S16384x64, .f32⟩
  | .hbm, ⟨43, _⟩ => ⟨S16384x64, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .vmem, ⟨22, _⟩ => ⟨S1x64x2048, .f32⟩
  | .local _ .vmem, ⟨23, _⟩ => ⟨S1x64x2048, .f32⟩
  | .local _ .vmem, ⟨24, _⟩ => ⟨S1x64x2048, .f32⟩
  | .local _ .vmem, ⟨25, _⟩ => ⟨S1x64x2048, .f32⟩
  | .local _ .vmem, ⟨26, _⟩ => ⟨S1x64x2048, .f32⟩
  | .local _ .vmem, ⟨27, _⟩ => ⟨S1x64x2048, .f32⟩
  | .local _ .vmem, ⟨28, _⟩ => ⟨S320x128, .bf16⟩
  | .local _ .vmem, ⟨29, _⟩ => ⟨S320x1, .f32⟩
  | .local _ .vmem, ⟨30, _⟩ => ⟨S320x128, .bf16⟩
  | .local _ .vmem, ⟨31, _⟩ => ⟨S320x1, .f32⟩
  | .local _ .vmem, ⟨32, _⟩ => ⟨S64x2048, .f32⟩
  | .local _ .vmem, ⟨33, _⟩ => ⟨S64x2048, .f32⟩
  | .local _ .vmem, ⟨34, _⟩ => ⟨S64x2048, .f32⟩
  | .local _ .vmem, ⟨35, _⟩ => ⟨S64x2048, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat, arg0.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat, arg0.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_11 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat, arg0.toNat]

def cc0_transform_12 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat, arg0.toNat]

def cc0_transform_13 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S320x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S320x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S320x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S320x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S64x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  transposes_S16384x64_S64x16384_1_0 : S16384x64.Transposes [1, 0] S64x16384
  transposes_S8x16384x64_S8x64x16384_0_2_1 : S8x16384x64.Transposes [0, 2, 1] S8x64x16384
  bcast_S_S256 : S_.BroadcastsInDim S256 (![] : Fin 0 → Fin S256.rank)
  bcast_S_S64 : S_.BroadcastsInDim S64 (![] : Fin 0 → Fin S64.rank)
  concatenates_S256_S64_S320_d0 : Shape.Concatenates [S256, S64] S320 0
  concatenates_S64x320_S64x320_S128x320_d0 : Shape.Concatenates [S64x320, S64x320] S128x320 0
  bcast_S320_S1x320_1 : S320.BroadcastsInDim S1x320 (![1] : Fin 1 → Fin S1x320.rank)
  bcast_S1x320_S128x320_0_1 : S1x320.BroadcastsInDim S128x320 (![0, 1] : Fin 2 → Fin S128x320.rank)
  transposes_S128x320_S320x128_1_0 : S128x320.Transposes [1, 0] S320x128
  bitsLt_bf16_f32 : FTy.bits .bf16 < FTy.bits .f32
  shapeCasts_S320_S320x1 : S320.ShapeCasts S320x1
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  concatenates_S64x2048_S64x2048_S128x2048_d0 : Shape.Concatenates [S64x2048, S64x2048] S128x2048 0
  inb_S320x128_S320x128_0_0 : ∀ a, (![0, 0] : Fin 2 → Nat) a + S320x128.size a ≤ S320x128.size a
  h_S320x128 : 0 < S320x128.numel
  shapeCasts_S320x128_S320x128 : S320x128.ShapeCasts S320x128
  inb_S320x1_S320x1_0_0 : ∀ a, (![0, 0] : Fin 2 → Nat) a + S320x1.size a ≤ S320x1.size a
  h_S320x1 : 0 < S320x1.numel
  shapeCasts_S320x1_S320x1 : S320x1.ShapeCasts S320x1
  broadcasts_S320x1_S320x2048 : S320x1.Broadcasts S320x2048
  slices_S320x2048_o0_0_S64x2048 : S320x2048.Slices ![0, 0] S64x2048
  slices_S320x2048_o64_0_S64x2048 : S320x2048.Slices ![64, 0] S64x2048
  slices_S320x2048_o128_0_S64x2048 : S320x2048.Slices ![128, 0] S64x2048
  slices_S320x2048_o192_0_S64x2048 : S320x2048.Slices ![192, 0] S64x2048
  slices_S320x2048_o256_0_S64x2048 : S320x2048.Slices ![256, 0] S64x2048
  transposes_S64x16384_S16384x64_1_0 : S64x16384.Transposes [1, 0] S16384x64
  dot_S320x128_S128x2048_S320x2048_1_0_0_1_n_n_wf : DotDims.WF S320x128 S128x2048 S320x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x16384.size a
  hwx0_0 : ∀ i : grid0.Coords, EltTy.bits .f32 = 32 ∨ (Rect.block (s := S64x16384) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x16384.size a
  hwx0_1 : ∀ i : grid0.Coords, EltTy.bits .f32 = 32 ∨ (Rect.block (s := S64x16384) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2048.size a ≤ S8x64x16384.size a
  hwx0_2 : ∀ i : grid0.Coords, EltTy.bits .f32 = 32 ∨ (Rect.block (s := S8x64x16384) S1x64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x2048.size a ≤ S8x64x16384.size a
  hwx0_3 : ∀ i : grid0.Coords, EltTy.bits .f32 = 32 ∨ (Rect.block (s := S8x64x16384) S1x64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x2048.size a ≤ S8x64x16384.size a
  hwx0_4 : ∀ i : grid0.Coords, EltTy.bits .f32 = 32 ∨ (Rect.block (s := S8x64x16384) S1x64x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x2048.size a ≤ S8x64x16384.size a
  hwx0_5 : ∀ i : grid0.Coords, EltTy.bits .f32 = 32 ∨ (Rect.block (s := S8x64x16384) S1x64x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x2048.size a ≤ S8x64x16384.size a
  hwx0_6 : ∀ i : grid0.Coords, EltTy.bits .f32 = 32 ∨ (Rect.block (s := S8x64x16384) S1x64x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x2048.size a ≤ S8x64x16384.size a
  hwx0_7 : ∀ i : grid0.Coords, EltTy.bits .f32 = 32 ∨ (Rect.block (s := S8x64x16384) S1x64x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x2048.size a ≤ S8x64x16384.size a
  hwx0_8 : ∀ i : grid0.Coords, EltTy.bits .f32 = 32 ∨ (Rect.block (s := S8x64x16384) S1x64x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x2048.size a ≤ S8x64x16384.size a
  hwx0_9 : ∀ i : grid0.Coords, EltTy.bits .f32 = 32 ∨ (Rect.block (s := S8x64x16384) S1x64x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x2048.size a ≤ S8x64x16384.size a
  hwx0_10 : ∀ i : grid0.Coords, EltTy.bits .f32 = 32 ∨ (Rect.block (s := S8x64x16384) S1x64x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x64x2048.size a ≤ S8x64x16384.size a
  hwx0_11 : ∀ i : grid0.Coords, EltTy.bits .f32 = 32 ∨ (Rect.block (s := S8x64x16384) S1x64x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x64x2048.size a ≤ S8x64x16384.size a
  hwx0_12 : ∀ i : grid0.Coords, EltTy.bits .f32 = 32 ∨ (Rect.block (s := S8x64x16384) S1x64x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x64x2048.size a ≤ S8x64x16384.size a
  hwx0_13 : ∀ i : grid0.Coords, EltTy.bits .f32 = 32 ∨ (Rect.block (s := S8x64x16384) S1x64x2048.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S320x128.size a ≤ S320x128.size a
  hwx0_14 : ∀ i : grid0.Coords, EltTy.bits .bf16 = 32 ∨ (Rect.block (s := S320x128) S320x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S320x1.size a ≤ S320x1.size a
  hwx0_15 : ∀ i : grid0.Coords, EltTy.bits .f32 = 32 ∨ (Rect.block (s := S320x1) S320x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S320x128.size a ≤ S320x128.size a
  hwx0_16 : ∀ i : grid0.Coords, EltTy.bits .bf16 = 32 ∨ (Rect.block (s := S320x128) S320x128.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S320x1.size a ≤ S320x1.size a
  hwx0_17 : ∀ i : grid0.Coords, EltTy.bits .f32 = 32 ∨ (Rect.block (s := S320x1) S320x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S64x2048.size a ≤ S64x16384.size a
  hwx0_18 : ∀ i : grid0.Coords, EltTy.bits .f32 = 32 ∨ (Rect.block (s := S64x16384) S64x2048.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S64x2048.size a ≤ S64x16384.size a
  hwx0_19 : ∀ i : grid0.Coords, EltTy.bits .f32 = 32 ∨ (Rect.block (s := S64x16384) S64x2048.size (cc0_transform_19 i) (hinb0_19 i)).WholeWords (EltTy.packing .f32)

variable [Facts₀]

def dot_S320x128_S128x2048_S320x2048_1_0_0_1_n_n : DotDims S320x128 S128x2048 S320x2048 where
  lhsContracting := [1]
  rhsContracting := [0]
  lhsNonContracting := [0]
  rhsNonContracting := [1]
  lhsBatch := []
  rhsBatch := []
  wf := dot_S320x128_S128x2048_S320x2048_1_0_0_1_n_n_wf

abbrev win0_0 : Pipeline.Window sig grid0 :=
  Pipeline.Window.ofSpec (Memref.whole main_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x64x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x64x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x64x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x64x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x64x2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x64x2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1x64x2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12) S320x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14) S320x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v23) S320x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v25) S320x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v26_0) S64x2048.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v26_1) S64x2048.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S16384x64 : Shape := ⟨2, ![16384, 64]⟩
abbrev S8x16384x64 : Shape := ⟨3, ![8, 16384, 64]⟩
abbrev S64x320 : Shape := ⟨2, ![64, 320]⟩
abbrev S320 : Shape := ⟨1, ![320]⟩
abbrev S1x16384x64 : Shape := ⟨3, ![1, 16384, 64]⟩
abbrev S16384x320 : Shape := ⟨2, ![16384, 320]⟩
abbrev S1x320 : Shape := ⟨2, ![1, 320]⟩
abbrev S_ : Shape := ⟨0, ![]⟩

abbrev nBuf : Space → Nat
  | .hbm => 340
  | .vmem => 0
  | .smem => 0
  | _ => 0

abbrev hbmTy0_0 (i : Nat) : BufTy := match i % 128 with
  | 0 => ⟨S16384x64, .f32⟩
  | 1 => ⟨S16384x64, .f32⟩
  | 2 => ⟨S8x16384x64, .f32⟩
  | 3 => ⟨S8x16384x64, .f32⟩
  | 4 => ⟨S64x320, .f32⟩
  | 5 => ⟨S64x320, .f32⟩
  | 6 => ⟨S320, .f32⟩
  | 7 => ⟨S64x320, .f32⟩
  | 8 => ⟨S64x320, .f32⟩
  | 9 => ⟨S320, .f32⟩
  | 10 => ⟨S1x16384x64, .f32⟩
  | 11 => ⟨S16384x64, .f32⟩
  | 12 => ⟨S1x16384x64, .f32⟩
  | 13 => ⟨S16384x64, .f32⟩
  | 14 => ⟨S1x16384x64, .f32⟩
  | 15 => ⟨S16384x64, .f32⟩
  | 16 => ⟨S1x16384x64, .f32⟩
  | 17 => ⟨S16384x64, .f32⟩
  | 18 => ⟨S1x16384x64, .f32⟩
  | 19 => ⟨S16384x64, .f32⟩
  | 20 => ⟨S1x16384x64, .f32⟩
  | 21 => ⟨S16384x64, .f32⟩
  | 22 => ⟨S1x16384x64, .f32⟩
  | 23 => ⟨S16384x64, .f32⟩
  | 24 => ⟨S1x16384x64, .f32⟩
  | 25 => ⟨S16384x64, .f32⟩
  | 26 => ⟨S1x16384x64, .f32⟩
  | 27 => ⟨S16384x64, .f32⟩
  | 28 => ⟨S1x16384x64, .f32⟩
  | 29 => ⟨S16384x64, .f32⟩
  | 30 => ⟨S1x16384x64, .f32⟩
  | 31 => ⟨S16384x64, .f32⟩
  | 32 => ⟨S1x16384x64, .f32⟩
  | 33 => ⟨S16384x64, .f32⟩
  | 34 => ⟨S16384x320, .f32⟩
  | 35 => ⟨S16384x320, .f32⟩
  | 36 => ⟨S16384x320, .f32⟩
  | 37 => ⟨S1x320, .f32⟩
  | 38 => ⟨S16384x320, .f32⟩
  | 39 => ⟨S16384x320, .f32⟩
  | 40 => ⟨S16384x64, .f32⟩
  | 41 => ⟨S16384x64, .f32⟩
  | 42 => ⟨S16384x64, .f32⟩
  | 43 => ⟨S16384x64, .f32⟩
  | 44 => ⟨S16384x64, .f32⟩
  | 45 => ⟨S16384x64, .f32⟩
  | 46 => ⟨S16384x64, .f32⟩
  | 47 => ⟨S_, .f32⟩
  | 48 => ⟨S16384x64, .f32⟩
  | 49 => ⟨S16384x64, .f32⟩
  | 50 => ⟨S_, .f32⟩
  | 51 => ⟨S16384x64, .f32⟩
  | 52 => ⟨S16384x64, .f32⟩
  | 53 => ⟨S16384x64, .f32⟩
  | 54 => ⟨S16384x64, .f32⟩
  | 55 => ⟨S16384x64, .f32⟩
  | 56 => ⟨S16384x64, .f32⟩
  | 57 => ⟨S_, .f32⟩
  | 58 => ⟨S16384x64, .f32⟩
  | 59 => ⟨S16384x64, .f32⟩
  | 60 => ⟨S_, .f32⟩
  | 61 => ⟨S16384x64, .f32⟩
  | 62 => ⟨S16384x64, .f32⟩
  | 63 => ⟨S16384x64, .f32⟩
  | 64 => ⟨S16384x64, .f32⟩
  | 65 => ⟨S16384x64, .f32⟩
  | 66 => ⟨S16384x64, .f32⟩
  | 67 => ⟨S_, .f32⟩
  | 68 => ⟨S16384x64, .f32⟩
  | 69 => ⟨S16384x64, .f32⟩
  | 70 => ⟨S_, .f32⟩
  | 71 => ⟨S16384x64, .f32⟩
  | 72 => ⟨S16384x64, .f32⟩
  | 73 => ⟨S16384x64, .f32⟩
  | 74 => ⟨S16384x64, .f32⟩
  | 75 => ⟨S16384x64, .f32⟩
  | 76 => ⟨S16384x64, .f32⟩
  | 77 => ⟨S_, .f32⟩
  | 78 => ⟨S16384x64, .f32⟩
  | 79 => ⟨S16384x64, .f32⟩
  | 80 => ⟨S_, .f32⟩
  | 81 => ⟨S16384x64, .f32⟩
  | 82 => ⟨S16384x64, .f32⟩
  | 83 => ⟨S16384x64, .f32⟩
  | 84 => ⟨S16384x64, .f32⟩
  | 85 => ⟨S16384x320, .f32⟩
  | 86 => ⟨S16384x320, .f32⟩
  | 87 => ⟨S16384x320, .f32⟩
  | 88 => ⟨S1x320, .f32⟩
  | 89 => ⟨S16384x320, .f32⟩
  | 90 => ⟨S16384x320, .f32⟩
  | 91 => ⟨S16384x64, .f32⟩
  | 92 => ⟨S16384x64, .f32⟩
  | 93 => ⟨S16384x64, .f32⟩
  | 94 => ⟨S16384x64, .f32⟩
  | 95 => ⟨S16384x64, .f32⟩
  | 96 => ⟨S16384x64, .f32⟩
  | 97 => ⟨S16384x64, .f32⟩
  | 98 => ⟨S_, .f32⟩
  | 99 => ⟨S16384x64, .f32⟩
  | 100 => ⟨S16384x64, .f32⟩
  | 101 => ⟨S_, .f32⟩
  | 102 => ⟨S16384x64, .f32⟩
  | 103 => ⟨S16384x64, .f32⟩
  | 104 => ⟨S16384x64, .f32⟩
  | 105 => ⟨S16384x64, .f32⟩
  | 106 => ⟨S16384x64, .f32⟩
  | 107 => ⟨S16384x64, .f32⟩
  | 108 => ⟨S_, .f32⟩
  | 109 => ⟨S16384x64, .f32⟩
  | 110 => ⟨S16384x64, .f32⟩
  | 111 => ⟨S_, .f32⟩
  | 112 => ⟨S16384x64, .f32⟩
  | 113 => ⟨S16384x64, .f32⟩
  | 114 => ⟨S16384x64, .f32⟩
  | 115 => ⟨S16384x64, .f32⟩
  | 116 => ⟨S16384x64, .f32⟩
  | 117 => ⟨S16384x64, .f32⟩
  | 118 => ⟨S_, .f32⟩
  | 119 => ⟨S16384x64, .f32⟩
  | 120 => ⟨S16384x64, .f32⟩
  | 121 => ⟨S_, .f32⟩
  | 122 => ⟨S16384x64, .f32⟩
  | 123 => ⟨S16384x64, .f32⟩
  | 124 => ⟨S16384x64, .f32⟩
  | 125 => ⟨S16384x64, .f32⟩
  | 126 => ⟨S16384x64, .f32⟩
  | 127 => ⟨S16384x64, .f32⟩
  | _ => ⟨S16384x64, .f32⟩

abbrev hbmTy0_1 (i : Nat) : BufTy := match i % 128 with
  | 0 => ⟨S_, .f32⟩
  | 1 => ⟨S16384x64, .f32⟩
  | 2 => ⟨S16384x64, .f32⟩
  | 3 => ⟨S_, .f32⟩
  | 4 => ⟨S16384x64, .f32⟩
  | 5 => ⟨S16384x64, .f32⟩
  | 6 => ⟨S16384x64, .f32⟩
  | 7 => ⟨S16384x64, .f32⟩
  | 8 => ⟨S16384x320, .f32⟩
  | 9 => ⟨S16384x320, .f32⟩
  | 10 => ⟨S16384x320, .f32⟩
  | 11 => ⟨S1x320, .f32⟩
  | 12 => ⟨S16384x320, .f32⟩
  | 13 => ⟨S16384x320, .f32⟩
  | 14 => ⟨S16384x64, .f32⟩
  | 15 => ⟨S16384x64, .f32⟩
  | 16 => ⟨S16384x64, .f32⟩
  | 17 => ⟨S16384x64, .f32⟩
  | 18 => ⟨S16384x64, .f32⟩
  | 19 => ⟨S16384x64, .f32⟩
  | 20 => ⟨S16384x64, .f32⟩
  | 21 => ⟨S_, .f32⟩
  | 22 => ⟨S16384x64, .f32⟩
  | 23 => ⟨S16384x64, .f32⟩
  | 24 => ⟨S_, .f32⟩
  | 25 => ⟨S16384x64, .f32⟩
  | 26 => ⟨S16384x64, .f32⟩
  | 27 => ⟨S16384x64, .f32⟩
  | 28 => ⟨S16384x64, .f32⟩
  | 29 => ⟨S16384x64, .f32⟩
  | 30 => ⟨S16384x64, .f32⟩
  | 31 => ⟨S_, .f32⟩
  | 32 => ⟨S16384x64, .f32⟩
  | 33 => ⟨S16384x64, .f32⟩
  | 34 => ⟨S_, .f32⟩
  | 35 => ⟨S16384x64, .f32⟩
  | 36 => ⟨S16384x64, .f32⟩
  | 37 => ⟨S16384x64, .f32⟩
  | 38 => ⟨S16384x64, .f32⟩
  | 39 => ⟨S16384x64, .f32⟩
  | 40 => ⟨S16384x64, .f32⟩
  | 41 => ⟨S_, .f32⟩
  | 42 => ⟨S16384x64, .f32⟩
  | 43 => ⟨S16384x64, .f32⟩
  | 44 => ⟨S_, .f32⟩
  | 45 => ⟨S16384x64, .f32⟩
  | 46 => ⟨S16384x64, .f32⟩
  | 47 => ⟨S16384x64, .f32⟩
  | 48 => ⟨S16384x64, .f32⟩
  | 49 => ⟨S16384x64, .f32⟩
  | 50 => ⟨S16384x64, .f32⟩
  | 51 => ⟨S_, .f32⟩
  | 52 => ⟨S16384x64, .f32⟩
  | 53 => ⟨S16384x64, .f32⟩
  | 54 => ⟨S_, .f32⟩
  | 55 => ⟨S16384x64, .f32⟩
  | 56 => ⟨S16384x64, .f32⟩
  | 57 => ⟨S16384x64, .f32⟩
  | 58 => ⟨S16384x64, .f32⟩
  | 59 => ⟨S16384x320, .f32⟩
  | 60 => ⟨S16384x320, .f32⟩
  | 61 => ⟨S16384x320, .f32⟩
  | 62 => ⟨S1x320, .f32⟩
  | 63 => ⟨S16384x320, .f32⟩
  | 64 => ⟨S16384x320, .f32⟩
  | 65 => ⟨S16384x64, .f32⟩
  | 66 => ⟨S16384x64, .f32⟩
  | 67 => ⟨S16384x64, .f32⟩
  | 68 => ⟨S16384x64, .f32⟩
  | 69 => ⟨S16384x64, .f32⟩
  | 70 => ⟨S16384x64, .f32⟩
  | 71 => ⟨S16384x64, .f32⟩
  | 72 => ⟨S_, .f32⟩
  | 73 => ⟨S16384x64, .f32⟩
  | 74 => ⟨S16384x64, .f32⟩
  | 75 => ⟨S_, .f32⟩
  | 76 => ⟨S16384x64, .f32⟩
  | 77 => ⟨S16384x64, .f32⟩
  | 78 => ⟨S16384x64, .f32⟩
  | 79 => ⟨S16384x64, .f32⟩
  | 80 => ⟨S16384x64, .f32⟩
  | 81 => ⟨S16384x64, .f32⟩
  | 82 => ⟨S_, .f32⟩
  | 83 => ⟨S16384x64, .f32⟩
  | 84 => ⟨S16384x64, .f32⟩
  | 85 => ⟨S_, .f32⟩
  | 86 => ⟨S16384x64, .f32⟩
  | 87 => ⟨S16384x64, .f32⟩
  | 88 => ⟨S16384x64, .f32⟩
  | 89 => ⟨S16384x64, .f32⟩
  | 90 => ⟨S16384x64, .f32⟩
  | 91 => ⟨S16384x64, .f32⟩
  | 92 => ⟨S_, .f32⟩
  | 93 => ⟨S16384x64, .f32⟩
  | 94 => ⟨S16384x64, .f32⟩
  | 95 => ⟨S_, .f32⟩
  | 96 => ⟨S16384x64, .f32⟩
  | 97 => ⟨S16384x64, .f32⟩
  | 98 => ⟨S16384x64, .f32⟩
  | 99 => ⟨S16384x64, .f32⟩
  | 100 => ⟨S16384x64, .f32⟩
  | 101 => ⟨S16384x64, .f32⟩
  | 102 => ⟨S_, .f32⟩
  | 103 => ⟨S16384x64, .f32⟩
  | 104 => ⟨S16384x64, .f32⟩
  | 105 => ⟨S_, .f32⟩
  | 106 => ⟨S16384x64, .f32⟩
  | 107 => ⟨S16384x64, .f32⟩
  | 108 => ⟨S16384x64, .f32⟩
  | 109 => ⟨S16384x64, .f32⟩
  | 110 => ⟨S16384x320, .f32⟩
  | 111 => ⟨S16384x320, .f32⟩
  | 112 => ⟨S16384x320, .f32⟩
  | 113 => ⟨S1x320, .f32⟩
  | 114 => ⟨S16384x320, .f32⟩
  | 115 => ⟨S16384x320, .f32⟩
  | 116 => ⟨S16384x64, .f32⟩
  | 117 => ⟨S16384x64, .f32⟩
  | 118 => ⟨S16384x64, .f32⟩
  | 119 => ⟨S16384x64, .f32⟩
  | 120 => ⟨S16384x64, .f32⟩
  | 121 => ⟨S16384x64, .f32⟩
  | 122 => ⟨S16384x64, .f32⟩
  | 123 => ⟨S_, .f32⟩
  | 124 => ⟨S16384x64, .f32⟩
  | 125 => ⟨S16384x64, .f32⟩
  | 126 => ⟨S_, .f32⟩
  | 127 => ⟨S16384x64, .f32⟩
  | _ => ⟨S16384x64, .f32⟩

abbrev hbmTy0_2 (i : Nat) : BufTy := match i % 128 with
  | 0 => ⟨S16384x64, .f32⟩
  | 1 => ⟨S16384x64, .f32⟩
  | 2 => ⟨S16384x64, .f32⟩
  | 3 => ⟨S16384x64, .f32⟩
  | 4 => ⟨S16384x64, .f32⟩
  | 5 => ⟨S_, .f32⟩
  | 6 => ⟨S16384x64, .f32⟩
  | 7 => ⟨S16384x64, .f32⟩
  | 8 => ⟨S_, .f32⟩
  | 9 => ⟨S16384x64, .f32⟩
  | 10 => ⟨S16384x64, .f32⟩
  | 11 => ⟨S16384x64, .f32⟩
  | 12 => ⟨S16384x64, .f32⟩
  | 13 => ⟨S16384x64, .f32⟩
  | 14 => ⟨S16384x64, .f32⟩
  | 15 => ⟨S_, .f32⟩
  | 16 => ⟨S16384x64, .f32⟩
  | 17 => ⟨S16384x64, .f32⟩
  | 18 => ⟨S_, .f32⟩
  | 19 => ⟨S16384x64, .f32⟩
  | 20 => ⟨S16384x64, .f32⟩
  | 21 => ⟨S16384x64, .f32⟩
  | 22 => ⟨S16384x64, .f32⟩
  | 23 => ⟨S16384x64, .f32⟩
  | 24 => ⟨S16384x64, .f32⟩
  | 25 => ⟨S_, .f32⟩
  | 26 => ⟨S16384x64, .f32⟩
  | 27 => ⟨S16384x64, .f32⟩
  | 28 => ⟨S_, .f32⟩
  | 29 => ⟨S16384x64, .f32⟩
  | 30 => ⟨S16384x64, .f32⟩
  | 31 => ⟨S16384x64, .f32⟩
  | 32 => ⟨S16384x64, .f32⟩
  | 33 => ⟨S16384x320, .f32⟩
  | 34 => ⟨S16384x320, .f32⟩
  | 35 => ⟨S16384x320, .f32⟩
  | 36 => ⟨S1x320, .f32⟩
  | 37 => ⟨S16384x320, .f32⟩
  | 38 => ⟨S16384x320, .f32⟩
  | 39 => ⟨S16384x64, .f32⟩
  | 40 => ⟨S16384x64, .f32⟩
  | 41 => ⟨S16384x64, .f32⟩
  | 42 => ⟨S16384x64, .f32⟩
  | 43 => ⟨S16384x64, .f32⟩
  | 44 => ⟨S16384x64, .f32⟩
  | 45 => ⟨S16384x64, .f32⟩
  | 46 => ⟨S_, .f32⟩
  | 47 => ⟨S16384x64, .f32⟩
  | 48 => ⟨S16384x64, .f32⟩
  | 49 => ⟨S_, .f32⟩
  | 50 => ⟨S16384x64, .f32⟩
  | 51 => ⟨S16384x64, .f32⟩
  | 52 => ⟨S16384x64, .f32⟩
  | 53 => ⟨S16384x64, .f32⟩
  | 54 => ⟨S16384x64, .f32⟩
  | 55 => ⟨S16384x64, .f32⟩
  | 56 => ⟨S_, .f32⟩
  | 57 => ⟨S16384x64, .f32⟩
  | 58 => ⟨S16384x64, .f32⟩
  | 59 => ⟨S_, .f32⟩
  | 60 => ⟨S16384x64, .f32⟩
  | 61 => ⟨S16384x64, .f32⟩
  | 62 => ⟨S16384x64, .f32⟩
  | 63 => ⟨S16384x64, .f32⟩
  | 64 => ⟨S16384x64, .f32⟩
  | 65 => ⟨S16384x64, .f32⟩
  | 66 => ⟨S_, .f32⟩
  | 67 => ⟨S16384x64, .f32⟩
  | 68 => ⟨S16384x64, .f32⟩
  | 69 => ⟨S_, .f32⟩
  | 70 => ⟨S16384x64, .f32⟩
  | 71 => ⟨S16384x64, .f32⟩
  | 72 => ⟨S16384x64, .f32⟩
  | 73 => ⟨S16384x64, .f32⟩
  | 74 => ⟨S16384x64, .f32⟩
  | 75 => ⟨S16384x64, .f32⟩
  | 76 => ⟨S_, .f32⟩
  | 77 => ⟨S16384x64, .f32⟩
  | 78 => ⟨S16384x64, .f32⟩
  | 79 => ⟨S_, .f32⟩
  | 80 => ⟨S16384x64, .f32⟩
  | 81 => ⟨S16384x64, .f32⟩
  | 82 => ⟨S16384x64, .f32⟩
  | 83 => ⟨S16384x64, .f32⟩
  | _ => ⟨S16384x64, .f32⟩

abbrev hbmTy (i : Nat) : BufTy := match i / 128 with
  | 0 => hbmTy0_0 i
  | 1 => hbmTy0_1 i
  | 2 => hbmTy0_2 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_v38 : Ref sig .tc := ⟨.hbm, 49, rfl⟩
abbrev main_cst_0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_1 : Ref sig .tc := ⟨.hbm, 57, rfl⟩
abbrev main_v45 : Ref sig .tc := ⟨.hbm, 58, rfl⟩
abbrev main_v46 : Ref sig .tc := ⟨.hbm, 59, rfl⟩
abbrev main_cst_2 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_v54 : Ref sig .tc := ⟨.hbm, 69, rfl⟩
abbrev main_cst_4 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_5 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_7 : Ref sig .tc := ⟨.hbm, 98, rfl⟩
abbrev main_v80 : Ref sig .tc := ⟨.hbm, 99, rfl⟩
abbrev main_v81 : Ref sig .tc := ⟨.hbm, 100, rfl⟩
abbrev main_cst_8 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_9 : Ref sig .tc := ⟨.hbm, 108, rfl⟩
abbrev main_v88 : Ref sig .tc := ⟨.hbm, 109, rfl⟩
abbrev main_v89 : Ref sig .tc := ⟨.hbm, 110, rfl⟩
abbrev main_cst_10 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_11 : Ref sig .tc := ⟨.hbm, 118, rfl⟩
abbrev main_v96 : Ref sig .tc := ⟨.hbm, 119, rfl⟩
abbrev main_v97 : Ref sig .tc := ⟨.hbm, 120, rfl⟩
abbrev main_cst_12 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_13 : Ref sig .tc := ⟨.hbm, 128, rfl⟩
abbrev main_v104 : Ref sig .tc := ⟨.hbm, 129, rfl⟩
abbrev main_v105 : Ref sig .tc := ⟨.hbm, 130, rfl⟩
abbrev main_cst_14 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_15 : Ref sig .tc := ⟨.hbm, 149, rfl⟩
abbrev main_v123 : Ref sig .tc := ⟨.hbm, 150, rfl⟩
abbrev main_v124 : Ref sig .tc := ⟨.hbm, 151, rfl⟩
abbrev main_cst_16 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_17 : Ref sig .tc := ⟨.hbm, 159, rfl⟩
abbrev main_v131 : Ref sig .tc := ⟨.hbm, 160, rfl⟩
abbrev main_v132 : Ref sig .tc := ⟨.hbm, 161, rfl⟩
abbrev main_cst_18 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_19 : Ref sig .tc := ⟨.hbm, 169, rfl⟩
abbrev main_v139 : Ref sig .tc := ⟨.hbm, 170, rfl⟩
abbrev main_v140 : Ref sig .tc := ⟨.hbm, 171, rfl⟩
abbrev main_cst_20 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_21 : Ref sig .tc := ⟨.hbm, 179, rfl⟩
abbrev main_v147 : Ref sig .tc := ⟨.hbm, 180, rfl⟩
abbrev main_v148 : Ref sig .tc := ⟨.hbm, 181, rfl⟩
abbrev main_cst_22 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_cst_23 : Ref sig .tc := ⟨.hbm, 200, rfl⟩
abbrev main_v166 : Ref sig .tc := ⟨.hbm, 201, rfl⟩
abbrev main_v167 : Ref sig .tc := ⟨.hbm, 202, rfl⟩
abbrev main_cst_24 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_cst_25 : Ref sig .tc := ⟨.hbm, 210, rfl⟩
abbrev main_v174 : Ref sig .tc := ⟨.hbm, 211, rfl⟩
abbrev main_v175 : Ref sig .tc := ⟨.hbm, 212, rfl⟩
abbrev main_cst_26 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_cst_27 : Ref sig .tc := ⟨.hbm, 220, rfl⟩
abbrev main_v182 : Ref sig .tc := ⟨.hbm, 221, rfl⟩
abbrev main_v183 : Ref sig .tc := ⟨.hbm, 222, rfl⟩
abbrev main_cst_28 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_cst_29 : Ref sig .tc := ⟨.hbm, 230, rfl⟩
abbrev main_v190 : Ref sig .tc := ⟨.hbm, 231, rfl⟩
abbrev main_v191 : Ref sig .tc := ⟨.hbm, 232, rfl⟩
abbrev main_cst_30 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_cst_31 : Ref sig .tc := ⟨.hbm, 251, rfl⟩
abbrev main_v209 : Ref sig .tc := ⟨.hbm, 252, rfl⟩
abbrev main_v210 : Ref sig .tc := ⟨.hbm, 253, rfl⟩
abbrev main_cst_32 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_cst_33 : Ref sig .tc := ⟨.hbm, 261, rfl⟩
abbrev main_v217 : Ref sig .tc := ⟨.hbm, 262, rfl⟩
abbrev main_v218 : Ref sig .tc := ⟨.hbm, 263, rfl⟩
abbrev main_cst_34 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_cst_35 : Ref sig .tc := ⟨.hbm, 271, rfl⟩
abbrev main_v225 : Ref sig .tc := ⟨.hbm, 272, rfl⟩
abbrev main_v226 : Ref sig .tc := ⟨.hbm, 273, rfl⟩
abbrev main_cst_36 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_cst_37 : Ref sig .tc := ⟨.hbm, 281, rfl⟩
abbrev main_v233 : Ref sig .tc := ⟨.hbm, 282, rfl⟩
abbrev main_v234 : Ref sig .tc := ⟨.hbm, 283, rfl⟩
abbrev main_cst_38 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_cst_39 : Ref sig .tc := ⟨.hbm, 302, rfl⟩
abbrev main_v252 : Ref sig .tc := ⟨.hbm, 303, rfl⟩
abbrev main_v253 : Ref sig .tc := ⟨.hbm, 304, rfl⟩
abbrev main_cst_40 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_cst_41 : Ref sig .tc := ⟨.hbm, 312, rfl⟩
abbrev main_v260 : Ref sig .tc := ⟨.hbm, 313, rfl⟩
abbrev main_v261 : Ref sig .tc := ⟨.hbm, 314, rfl⟩
abbrev main_cst_42 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_cst_43 : Ref sig .tc := ⟨.hbm, 322, rfl⟩
abbrev main_v268 : Ref sig .tc := ⟨.hbm, 323, rfl⟩
abbrev main_v269 : Ref sig .tc := ⟨.hbm, 324, rfl⟩
abbrev main_cst_44 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_cst_45 : Ref sig .tc := ⟨.hbm, 332, rfl⟩
abbrev main_v276 : Ref sig .tc := ⟨.hbm, 333, rfl⟩
abbrev main_v277 : Ref sig .tc := ⟨.hbm, 334, rfl⟩
abbrev main_cst_46 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩

abbrev nD : Nat := 1
abbrev τ : Topo := Topo.v7x

variable {F : FTy → Type} [FloatOps F]

class Facts₀ : Prop where
  slices_S8x16384x64_S1x16384x64_0_0_0 : S8x16384x64.Slices ![0, 0, 0] S1x16384x64
  shapeCasts_S1x16384x64_S16384x64 : S1x16384x64.ShapeCasts S16384x64
  slices_S8x16384x64_S1x16384x64_2_0_0 : S8x16384x64.Slices ![2, 0, 0] S1x16384x64
  slices_S8x16384x64_S1x16384x64_3_0_0 : S8x16384x64.Slices ![3, 0, 0] S1x16384x64
  slices_S8x16384x64_S1x16384x64_5_0_0 : S8x16384x64.Slices ![5, 0, 0] S1x16384x64
  slices_S8x16384x64_S1x16384x64_6_0_0 : S8x16384x64.Slices ![6, 0, 0] S1x16384x64
  slices_S8x16384x64_S1x16384x64_7_0_0 : S8x16384x64.Slices ![7, 0, 0] S1x16384x64
  bcast_S320_S1x320_1 : S320.BroadcastsInDim S1x320 (![1] : Fin 1 → Fin S1x320.rank)
  bcast_S1x320_S16384x320_0_1 : S1x320.BroadcastsInDim S16384x320 (![0, 1] : Fin 2 → Fin S16384x320.rank)
  slices_S16384x320_S16384x64_0_0 : S16384x320.Slices ![0, 0] S16384x64
  slices_S16384x320_S16384x64_0_64 : S16384x320.Slices ![0, 64] S16384x64
  slices_S16384x320_S16384x64_0_128 : S16384x320.Slices ![0, 128] S16384x64
  slices_S16384x320_S16384x64_0_192 : S16384x320.Slices ![0, 192] S16384x64
  slices_S16384x320_S16384x64_0_256 : S16384x320.Slices ![0, 256] S16384x64
  bcast_S_S16384x64 : S_.BroadcastsInDim S16384x64 (![] : Fin 0 → Fin S16384x64.rank)
  dot_S16384x64_S64x320_S16384x320_1_0_0_1_n_n_wf : DotDims.WF S16384x64 S64x320 S16384x320 [1] [0] [0] [1] [] []

variable [Facts₀]

def dot_S16384x64_S64x320_S16384x320_1_0_0_1_n_n : DotDims S16384x64 S64x320 S16384x320 where
  lhsContracting := [1]
  rhsContracting := [0]
  lhsNonContracting := [0]
  rhsNonContracting := [1]
  lhsBatch := []
  rhsBatch := []
  wf := dot_S16384x64_S64x320_S16384x320_1_0_0_1_n_n_wf

class Facts : Prop extends Facts₀ where

variable [Facts]
-- ==== Proof.BodyFnK.lean ====
/-
  The kernel body as two pure functions of the eighteen vectors it loads — the new state's two blocks, six hidden-level
  blocks, six cell-level blocks, the prepared merge weights and bias, the prepared summary weights and bias —: the
  hidden block and the cell block it stores. Each is the composition of the six cells' arithmetic, written over the
  named values of the body, in the body's own order.
-/
import proofs.«129490_g31301721653836_cont_9to1_2280_18_alg».proof.Proof.Gen.Kernel.Skeleton

noncomputable section

namespace Cert.Kernel.Gen

open Idealize.ShloMosaic Idealize.SL.Sem

variable {F : FTy → Type} [FloatOps F]

/-- What the sixth cell needs of the first five: the running cell state, the last level's cell block, the sixth
    cell's 320 × 2048 tanh block and its first three logistic gates. -/
structure Tail (F : FTy → Type) [FloatOps F] where
  v211 : FVec F S64x2048 .f32
  v217 : FVec F S64x2048 .f32
  v227 : FVec F S320x2048 .f32
  v232 : FVec F S64x2048 .f32
  v237 : FVec F S64x2048 .f32
  v242 : FVec F S64x2048 .f32

/-- The values the body has named when it reaches its two stores, from the eighteen loads. -/
def bodyTail (x1 x2 : Vec F S64x2048 .f32) (x3 x4 x5 x6 x7 x8 x9 x10 x11 x12 x13 x14 : Vec F S1x64x2048 .f32)
    (x15 : Vec F S320x128 .bf16) (x16 : Vec F S320x1 .f32) (x17 : Vec F S320x128 .bf16) (x18 : Vec F S320x1 .f32) : Tail F :=
  let cst_20 : F .f32 := Scalar.ofBits .f32 0x3F000000#32
  let cst_76 : F .f32 := Scalar.ofBits .f32 0x3F000000#32
  let v3 := k0_pay3 x9
  let v7 := k0_pay4 x2
  let v17 := k0_pay5 x3 x1 x15 x16
  let v22 := k0_pay6 x3 x1 x15 x16
  let v27 := k0_pay7 x3 x1 x15 x16
  let v32 := k0_pay8 x3 x1 x15 x16
  let v35 := k0_pay9 x3 x1 x15 x16
  let v43 := k0_pay10 v3 v7 v17 v22 v27 v32
  let v49 := k0_pay11 x10
  let v59 := k0_pay12 v3 v7 v17 v22 v27 v32 v35 cst_20 x4 x17 x18
  let v64 := k0_pay13 v3 v7 v17 v22 v27 v32 v35 cst_20 x4 x17 x18
  let v69 := k0_pay14 v3 v7 v17 v22 v27 v32 v35 cst_20 x4 x17 x18
  let v74 := k0_pay15 v3 v7 v17 v22 v27 v32 v35 cst_20 x4 x17 x18
  let v77 := k0_pay16 v3 v7 v17 v22 v27 v32 v35 cst_20 x4 x17 x18
  let v85 := k0_pay17 v43 v49 v59 v64 v69 v74
  let v91 := k0_pay18 x11
  let v101 := k0_pay19 v43 v49 v59 v64 v69 v74 v77 x5 x17 x18
  let v106 := k0_pay20 v43 v49 v59 v64 v69 v74 v77 x5 x17 x18
  let v111 := k0_pay21 v43 v49 v59 v64 v69 v74 v77 x5 x17 x18
  let v116 := k0_pay22 v43 v49 v59 v64 v69 v74 v77 x5 x17 x18
  let v117 := k0_pay23 v43 v49 v59 v64 v69 v74 v77 x5 x17 x18
  let v118 := k0_pay24 (F := F)
  let v127 := k0_pay25 v85 v91 v101 v106 v111 v116
  let v133 := k0_pay26 x12
  let v143 := k0_pay27 v85 v91 v101 v106 v111 v116 v117 v118 x6 x17 x18
  let v148 := k0_pay28 v85 v91 v101 v106 v111 v116 v117 v118 x6 x17 x18
  let v153 := k0_pay29 v85 v91 v101 v106 v111 v116 v117 v118 x6 x17 x18
  let v158 := k0_pay30 v85 v91 v101 v106 v111 v116 v117 v118 x6 x17 x18
  let v159 := k0_pay31 v85 v91 v101 v106 v111 v116 v117 v118 x6 x17 x18
  let v169 := k0_pay32 v127 v133 v143 v148 v153 v158
  let v175 := k0_pay33 x13
  let v185 := k0_pay34 v127 v133 v143 v148 v153 v158 v159 cst_76 x7 x17 x18
  let v190 := k0_pay35 v127 v133 v143 v148 v153 v158 v159 cst_76 x7 x17 x18
  let v195 := k0_pay36 v127 v133 v143 v148 v153 v158 v159 cst_76 x7 x17 x18
  let v200 := k0_pay37 v127 v133 v143 v148 v153 v158 v159 cst_76 x7 x17 x18
  let v201 := k0_pay38 v127 v133 v143 v148 v153 v158 v159 cst_76 x7 x17 x18
  { v211 := k0_pay39 v169 v175 v185 v190 v195 v200
    v217 := k0_pay40 x14
    v227 := k0_pay41 v169 v175 v185 v190 v195 v200 v201 x8 x17 x18
    v232 := k0_pay42 v169 v175 v185 v190 v195 v200 v201 x8 x17 x18
    v237 := k0_pay43 v169 v175 v185 v190 v195 v200 v201 x8 x17 x18
    v242 := k0_pay44 v169 v175 v185 v190 v195 v200 v201 x8 x17 x18 }

/-- The hidden block the body stores (into the first output window's buffer). -/
def bodyH (x1 x2 : Vec F S64x2048 .f32) (x3 x4 x5 x6 x7 x8 x9 x10 x11 x12 x13 x14 : Vec F S1x64x2048 .f32)
    (x15 : Vec F S320x128 .bf16) (x16 : Vec F S320x1 .f32) (x17 : Vec F S320x128 .bf16) (x18 : Vec F S320x1 .f32) : FVec F S64x2048 .f32 :=
  let T := bodyTail x1 x2 x3 x4 x5 x6 x7 x8 x9 x10 x11 x12 x13 x14 x15 x16 x17 x18
  k0_pay2 T.v211 T.v217 T.v227 T.v232 T.v237 T.v242

/-- The cell block the body stores (into the second output window's buffer). -/
def bodyC (x1 x2 : Vec F S64x2048 .f32) (x3 x4 x5 x6 x7 x8 x9 x10 x11 x12 x13 x14 : Vec F S1x64x2048 .f32)
    (x15 : Vec F S320x128 .bf16) (x16 : Vec F S320x1 .f32) (x17 : Vec F S320x128 .bf16) (x18 : Vec F S320x1 .f32) : FVec F S64x2048 .f32 :=
  let T := bodyTail x1 x2 x3 x4 x5 x6 x7 x8 x9 x10 x11 x12 x13 x14 x15 x16 x17 x18
  k0_pay1 T.v211 T.v217 T.v227 T.v232 T.v237 T.v242

end Cert.Kernel.Gen

end
-- ==== Proof.BodyRunK.lean ====
/-
  The kernel body's triple. Run on twenty whole staging buffers — eighteen inputs at known contents, two outputs at
  anything — the body reads every input once or more, never writes one, and overwrites each output buffer whole: the
  first with the hidden block and the second with the cell block that the six cells compute from the loaded
  contents (the pure functions of the body's named values). The inputs are handed back as they were.
-/
import proofs.«129490_g31301721653836_cont_9to1_2280_18_alg».proof.Proof.Gen.Kernel.Launch
import proofs.«129490_g31301721653836_cont_9to1_2280_18_alg».proof.Proof.Gen.Kernel.Skeleton
import proofs.«129490_g31301721653836_cont_9to1_2280_18_alg».proof.Proof.Gen.Kernel.Points
import proofs.«129490_g31301721653836_cont_9to1_2280_18_alg».proof.Proof.BodyFnK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one rectangle the body stores through: the whole 64 × 2048 buffer. -/
abbrev rOut : Rect S64x2048 := Rect.unit (s := S64x2048) ![0, 0] S64x2048.size inb_S64x2048_S64x2048_0_0

theorem zero2 : (![0, 0] : Fin 2 → Nat) = fun _ => 0 := by funext a; match a with | ⟨0, _⟩ => rfl | ⟨1, _⟩ => rfl
theorem zero3 : (![0, 0, 0] : Fin 3 → Nat) = fun _ => 0 := by
  funext a; match a with | ⟨0, _⟩ => rfl | ⟨1, _⟩ => rfl | ⟨2, _⟩ => rfl

/-- One store through the whole buffer covers it. -/
theorem coverOut (p0 : Vec F S64x2048 .f32) (y : S64x2048.Idx) :
    ∃ pc ∈ ([⟨rOut, p0⟩] : List (View.Piece (Elt F) S64x2048 .f32)), y ∈ pc.1.set :=
  View.cover_of_tiled [⟨rOut, p0⟩] S64x2048.size (by rfl) y

set_option maxHeartbeats 4000000 in
theorem sound_kernel0 (c : Dev nD) (E : Set ℕ) (i : grid0.Coords) (arg1 : Memref sig .tc .vmem S64x2048 .f32) (harg1 : arg1.IsWhole) (arg2 : Memref sig .tc .vmem S64x2048 .f32) (harg2 : arg2.IsWhole) (arg3 : Memref sig .tc .vmem S1x64x2048 .f32) (harg3 : arg3.IsWhole) (arg4 : Memref sig .tc .vmem S1x64x2048 .f32) (harg4 : arg4.IsWhole) (arg5 : Memref sig .tc .vmem S1x64x2048 .f32) (harg5 : arg5.IsWhole) (arg6 : Memref sig .tc .vmem S1x64x2048 .f32) (harg6 : arg6.IsWhole) (arg7 : Memref sig .tc .vmem S1x64x2048 .f32) (harg7 : arg7.IsWhole) (arg8 : Memref sig .tc .vmem S1x64x2048 .f32) (harg8 : arg8.IsWhole) (arg9 : Memref sig .tc .vmem S1x64x2048 .f32) (harg9 : arg9.IsWhole) (arg10 : Memref sig .tc .vmem S1x64x2048 .f32) (harg10 : arg10.IsWhole) (arg11 : Memref sig .tc .vmem S1x64x2048 .f32) (harg11 : arg11.IsWhole) (arg12 : Memref sig .tc .vmem S1x64x2048 .f32) (harg12 : arg12.IsWhole) (arg13 : Memref sig .tc .vmem S1x64x2048 .f32) (harg13 : arg13.IsWhole) (arg14 : Memref sig .tc .vmem S1x64x2048 .f32) (harg14 : arg14.IsWhole) (arg15 : Memref sig .tc .vmem S320x128 .bf16) (harg15 : arg15.IsWhole) (arg16 : Memref sig .tc .vmem S320x1 .f32) (harg16 : arg16.IsWhole) (arg17 : Memref sig .tc .vmem S320x128 .bf16) (harg17 : arg17.IsWhole) (arg18 : Memref sig .tc .vmem S320x1 .f32) (harg18 : arg18.IsWhole) (arg19 : Memref sig .tc .vmem S64x2048 .f32) (harg19 : arg19.IsWhole) (arg20 : Memref sig .tc .vmem S64x2048 .f32) (harg20 : arg20.IsWhole)
    (x1 : Vec F S64x2048 .f32) (x2 : Vec F S64x2048 .f32) (x3 : Vec F S1x64x2048 .f32) (x4 : Vec F S1x64x2048 .f32) (x5 : Vec F S1x64x2048 .f32) (x6 : Vec F S1x64x2048 .f32) (x7 : Vec F S1x64x2048 .f32) (x8 : Vec F S1x64x2048 .f32) (x9 : Vec F S1x64x2048 .f32) (x10 : Vec F S1x64x2048 .f32) (x11 : Vec F S1x64x2048 .f32) (x12 : Vec F S1x64x2048 .f32) (x13 : Vec F S1x64x2048 .f32) (x14 : Vec F S1x64x2048 .f32) (x15 : Vec F S320x128 .bf16) (x16 : Vec F S320x1 .f32) (x17 : Vec F S320x128 .bf16) (x18 : Vec F S320x1 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (bodyH x1 x2 x3 x4 x5 x6 x7 x8 x9 x10 x11 x12 x13 x14 x15 x16 x17 x18) ∗ owns (c : Thread nD τ) arg20 fullShare (bodyC x1 x2 x3 x4 x5 x6 x7 x8 x9 x10 x11 x12 x13 x14 x15 x16 x17 x18)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf1; subst hf2; subst hf3; subst hf4; subst hf5; subst hf6; subst hf7; subst hf8; subst hf9; subst hf10; subst hf11; subst hf12; subst hf13; subst hf14; subst hf15; subst hf16; subst hf17; subst hf18
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    rw [View.read_writes_eq_canon _ _ _ (coverOut _), View.canon_unit_zero zero2]
    sl_unfold_run_names
    simp only [View.readAt_eq_ld, View.ld_unit_zero (S := S64x2048) zero2, View.ld_unit_zero (S := S1x64x2048) zero3,
      View.ld_unit_zero (S := S320x128) zero2, View.ld_unit_zero (S := S320x1) zero2]
    rfl
  · iexists _; isplitr
    swap; · iexact H20
    ipureintro
    rw [View.read_writes_eq_canon _ _ _ (coverOut _), View.canon_unit_zero zero2]
    sl_unfold_run_names
    simp only [View.readAt_eq_ld, View.ld_unit_zero (S := S64x2048) zero2, View.ld_unit_zero (S := S1x64x2048) zero3,
      View.ld_unit_zero (S := S320x128) zero2, View.ld_unit_zero (S := S320x1) zero2]
    rfl

end Cert.Kernel.Gen

end
-- ==== Proof.Shares.lean ====
/-
  One buffer held whole at the full share is the same as six holdings of it at six shares that make up the full
  share — the left half, then the left half of what remains, and so on down the right spine — all at the same contents.
  This is how one array read by six windows is dealt among them, and how it is put back together afterwards.
-/
import Idealize.ShloMosaic.Lib.Memref
import Idealize.ShloMosaic.Rules.PointsTo

noncomputable section

namespace Cert.Shares

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Six shares of the full share, down its right spine. -/
def sh6 : Fin 6 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right.left
  | ⟨5, _⟩ => fullShare.right.right.right.right.right

/-- Dealing: the full share into the six. -/
theorem deal6 (ℓ : Loc nD τ sig) (f : ℓ.ty.Contents Val) :
    (ℓ ↦{fullShare} f : sProp 𝕄)
      ⊢ iprop((ℓ ↦{sh6 0} f) ∗ (ℓ ↦{sh6 1} f) ∗ (ℓ ↦{sh6 2} f) ∗ (ℓ ↦{sh6 3} f) ∗ (ℓ ↦{sh6 4} f) ∗ (ℓ ↦{sh6 5} f)) := by
  iintro H
  ihave H' := (pointsTo_share (PosShare.mem_left_op_right fullShare)).1 $$ H
  icases H' with ⟨H0, H⟩
  ihave H' := (pointsTo_share (PosShare.mem_left_op_right fullShare.right)).1 $$ H
  icases H' with ⟨H1, H⟩
  ihave H' := (pointsTo_share (PosShare.mem_left_op_right fullShare.right.right)).1 $$ H
  icases H' with ⟨H2, H⟩
  ihave H' := (pointsTo_share (PosShare.mem_left_op_right fullShare.right.right.right)).1 $$ H
  icases H' with ⟨H3, H⟩
  ihave H' := (pointsTo_share (PosShare.mem_left_op_right fullShare.right.right.right.right)).1 $$ H
  icases H' with ⟨H4, H5⟩
  isplitl [H0]; · iexact H0
  isplitl [H1]; · iexact H1
  isplitl [H2]; · iexact H2
  isplitl [H3]; · iexact H3
  isplitl [H4]; · iexact H4
  iexact H5

/-- Gathering: the six back into the full share. -/
theorem gather6 (ℓ : Loc nD τ sig) (f : ℓ.ty.Contents Val) :
    iprop((ℓ ↦{sh6 0} f) ∗ (ℓ ↦{sh6 1} f) ∗ (ℓ ↦{sh6 2} f) ∗ (ℓ ↦{sh6 3} f) ∗ (ℓ ↦{sh6 4} f) ∗ (ℓ ↦{sh6 5} f))
      ⊢ (ℓ ↦{fullShare} f : sProp 𝕄) := by
  iintro ⟨H0, H1, H2, H3, H4, H5⟩
  iapply (pointsTo_share (PosShare.mem_left_op_right fullShare)).2
  isplitl [H0]; · iexact H0
  iapply (pointsTo_share (PosShare.mem_left_op_right fullShare.right)).2
  isplitl [H1]; · iexact H1
  iapply (pointsTo_share (PosShare.mem_left_op_right fullShare.right.right)).2
  isplitl [H2]; · iexact H2
  iapply (pointsTo_share (PosShare.mem_left_op_right fullShare.right.right.right)).2
  isplitl [H3]; · iexact H3
  iapply (pointsTo_share (PosShare.mem_left_op_right fullShare.right.right.right.right)).2
  isplitl [H4]; · iexact H4
  iexact H5

end Cert.Shares

end
-- ==== Proof.RegionDataK.lean ====
/-
  The pipeline's proof data at a parameter V, the TensorCore's buffer contents when the region is entered. Each of the
  eighteen input windows keeps its block of the array in its staging buffer at every grid point; the two output
  windows end each point holding the hidden and the cell block the body computes from the eighteen input blocks.
  Twelve of the input windows look at two arrays only (six levels of the hidden stack, six of the cell stack): each
  of those two arrays is held in six shares, one per window, and every other array whole.
-/
import proofs.«129490_g31301721653836_cont_9to1_2280_18_alg».proof.Proof.Gen.Kernel.Launch
import proofs.«129490_g31301721653836_cont_9to1_2280_18_alg».proof.Proof.Gen.Kernel.Skeleton
import proofs.«129490_g31301721653836_cont_9to1_2280_18_alg».proof.Proof.Gen.Kernel.Points
import proofs.«129490_g31301721653836_cont_9to1_2280_18_alg».proof.Proof.BodyRunK
import proofs.«129490_g31301721653836_cont_9to1_2280_18_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Shares (sh6)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's staging buffer holds its block at every point, fetched there or not. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's staging buffer holds its block at every point, fetched there or not. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's staging buffer holds its block at every point, fetched there or not. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's staging buffer holds its block at every point, fetched there or not. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's staging buffer holds its block at every point, fetched there or not. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's staging buffer holds its block at every point, fetched there or not. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
/-- Input window 16's staging buffer holds its block at every point, fetched there or not. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
/-- Input window 17's staging buffer holds its block at every point, fetched there or not. -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)

/-- The share each window holds its array at: windows 2–7 share one array, windows 8–13 another. -/
def qshare : Fin 20 → PosShare TreeShare
  | ⟨2, _⟩ => sh6 0 | ⟨3, _⟩ => sh6 1 | ⟨4, _⟩ => sh6 2 | ⟨5, _⟩ => sh6 3 | ⟨6, _⟩ => sh6 4 | ⟨7, _⟩ => sh6 5
  | ⟨8, _⟩ => sh6 0 | ⟨9, _⟩ => sh6 1 | ⟨10, _⟩ => sh6 2 | ⟨11, _⟩ => sh6 3 | ⟨12, _⟩ => sh6 4 | ⟨13, _⟩ => sh6 5
  | _ => fullShare

/-- The proof data of the pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => bodyH (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t)
    | ⟨19, _⟩ => bodyC (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t)
    | ⟨_ + 20, h⟩ => absurd h (Nat.not_lt.2 (Nat.le_add_left _ _))
  Φ _ := Pipeline.ΦA spec0 c
  q w := qshare w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = bodyH (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) := by dsimp only [dat0]
theorem after0_19 (c : Dev nD) (t : Fin cfg0.N) : (dat0 V c).after 19 t = bodyC (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t))

set_option maxHeartbeats 2000000 in
/-- The body at any point: the inputs' buffers hold their blocks, so the body's triple applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel0 c Set.univ (grid0.coords t) _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Gen

end
-- ==== Proof.RegionRunK.lean ====
/-
  The run of the whole program: the host operations that prepare the operands, the pipelined kernel region, the two
  transposes after it. The region is entered holding every unscoped buffer whole; the ten distinct buffers behind its
  twenty windows are dealt to the windows — the two stacked-level arrays in six shares each, one share per window
  that reads them — and gathered back at the exit, where only the two result arrays have changed. Every weakly fair
  execution therefore terminates without a fault, and ends with each unscoped buffer at the contents obtained by
  running the host operations, then replacing the two result arrays by what the write-backs leave, then running the
  two transposes.
-/
import proofs.«129490_g31301721653836_cont_9to1_2280_18_alg».proof.Proof.Gen.Kernel.Launch
import proofs.«129490_g31301721653836_cont_9to1_2280_18_alg».proof.Proof.Gen.Kernel.Skeleton
import proofs.«129490_g31301721653836_cont_9to1_2280_18_alg».proof.Proof.Gen.Kernel.Points
import proofs.«129490_g31301721653836_cont_9to1_2280_18_alg».proof.Proof.RegionDataK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Shares (sh6 deal6 gather6)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The distinct buffers behind the windows -/

theorem image_arr : Finset.univ.image (Pipeline.arrRef spec0) = ([main_v0, main_v1, main_v2, main_v3, main_v12, main_v14, main_v23, main_v25, main_v26_0, main_v26_1] : List (Ref sig .tc)).toFinset := by decide

theorem arr_nodup : ([main_v0, main_v1, main_v2, main_v3, main_v12, main_v14, main_v23, main_v25, main_v26_0, main_v26_1] : List (Ref sig .tc)).Nodup := by decide

/-- The windowed arrays as a product over the windows of whole-buffer holdings, each at the window's share. -/
theorem arrays_whole {c : Dev nD} (V : (c : Dev nD) → (b : Ref sig .tc) → Buf (Elt F) ((c : Thread nD τ).loc b))
    (G : (w : Fin cfg0.W) → Buf (Elt F) ((cfg0.win w).arr.view.loc (c.tc : Thread nD τ))) :
    ((dat0 V c).arrays G : sProp 𝕄)
      = bigSep Finset.univ fun w : Fin cfg0.W => (((c.tc : Thread nD τ).loc (Pipeline.arrRef spec0 w)) ↦{(dat0 V c).share w} G w : sProp 𝕄) := by
  unfold Dat.arrays
  exact bigSep_congr fun w _ => by rw [(arr_whole0 w).set_eq_univ]

/-- The ten distinct buffers behind the windows, whole, one by one. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c.tc : Thread nD τ).loc main_v0) ↦{fullShare} V main_v0) ∗ (((c.tc : Thread nD τ).loc main_v1) ↦{fullShare} V main_v1) ∗ (((c.tc : Thread nD τ).loc main_v2) ↦{fullShare} V main_v2) ∗ (((c.tc : Thread nD τ).loc main_v3) ↦{fullShare} V main_v3) ∗ (((c.tc : Thread nD τ).loc main_v12) ↦{fullShare} V main_v12) ∗ (((c.tc : Thread nD τ).loc main_v14) ↦{fullShare} V main_v14) ∗ (((c.tc : Thread nD τ).loc main_v23) ↦{fullShare} V main_v23) ∗ (((c.tc : Thread nD τ).loc main_v25) ↦{fullShare} V main_v25) ∗ (((c.tc : Thread nD τ).loc main_v26_0) ↦{fullShare} V main_v26_0) ∗ (((c.tc : Thread nD τ).loc main_v26_1) ↦{fullShare} V main_v26_1)) :=
  BI.bigSep_eq_bigSepL_of_eq ([main_v0, main_v1, main_v2, main_v3, main_v12, main_v14, main_v23, main_v25, main_v26_0, main_v26_1] : List (Ref sig .tc)) image_arr arr_nodup _

/-! ## The buffer contents at each boundary -/

/-- Core c's buffers at launch, -/
abbrev W0 : Dev nD → Valuation τ sig (Elt F) := fun c b => (s₀ m ρ).mem ((c : Dev nD), b)
/-- after the preparing host operations (the region's entry), -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the region's exit: the two result arrays at what the write-backs leave, every other buffer as entered, -/
def W2 (c : Dev nD) : Valuation τ sig (Elt F) :=
  Function.update (Function.update (W1 m ρ c) (Proc.devRef .tc main_v26_0) ((dat0 (V1 m ρ) c).arrAt 18 cfg0.N))
    (Proc.devRef .tc main_v26_1) ((dat0 (V1 m ρ) c).arrAt 19 cfg0.N)
abbrev V2 : (c : Dev nD) → (b : Ref sig .tc) → Buf (Elt F) ((c : Thread nD τ).loc b) := fun c b => W2 m ρ c b
/-- and after the two transposes. -/
abbrev W3 : Dev nD → Valuation τ sig (Elt F) := fun c => StableHlo.after hostOps1 (W2 m ρ c)

theorem W2_out1 (c : Dev nD) : W2 m ρ c (Proc.devRef .tc main_v26_1) = (dat0 (V1 m ρ) c).arrAt 19 cfg0.N := by
  unfold W2; exact Function.update_self ..
theorem W2_out0 (c : Dev nD) : W2 m ρ c (Proc.devRef .tc main_v26_0) = (dat0 (V1 m ρ) c).arrAt 18 cfg0.N := by
  unfold W2
  rw [Function.update_of_ne (StableHlo.devRef_ne_of_ne (by decide))]
  exact Function.update_self ..
theorem W2_of_ne (c : Dev nD) (b : Ref sig .tc) (h0 : b ≠ main_v26_0) (h1 : b ≠ main_v26_1) :
    W2 m ρ c (Proc.devRef .tc b) = W1 m ρ c (Proc.devRef .tc b) := by
  unfold W2
  rw [Function.update_of_ne (StableHlo.devRef_ne_of_ne h1), Function.update_of_ne (StableHlo.devRef_ne_of_ne h0)]

/-! ## Dealing the buffers to the windows, and gathering them back -/

set_option maxHeartbeats 2000000 in
/-- ENTRY: the ten buffers behind the windows, whole, make the twenty windows' arrays at the entry contents. -/
theorem arrays_in (c : Dev nD) :
    (Pipeline.arrBufs spec0 c (V1 m ρ c) : sProp 𝕄) ⊢ (dat0 (V1 m ρ) c).arrays ((dat0 (V1 m ρ) c).arrAt · 0) := by
  rw [arrays_whole, bigSep_W0]
  rw [arrBufs_chain]
  iintro ⟨H0, H1, H2, H3, H12, H14, H23, H25, Ha, Hb⟩
  ihave H2' := (deal6 _ _) $$ H2
  icases H2' with ⟨H2a, H2b, H2c, H2d, H2e, H2f⟩
  ihave H3' := (deal6 _ _) $$ H3
  icases H3' with ⟨H3a, H3b, H3c, H3d, H3e, H3f⟩
  isplitl [H0]; · iexact H0
  isplitl [H1]; · iexact H1
  isplitl [H2a]; · iexact H2a
  isplitl [H2b]; · iexact H2b
  isplitl [H2c]; · iexact H2c
  isplitl [H2d]; · iexact H2d
  isplitl [H2e]; · iexact H2e
  isplitl [H2f]; · iexact H2f
  isplitl [H3a]; · iexact H3a
  isplitl [H3b]; · iexact H3b
  isplitl [H3c]; · iexact H3c
  isplitl [H3d]; · iexact H3d
  isplitl [H3e]; · iexact H3e
  isplitl [H3f]; · iexact H3f
  isplitl [H12]; · iexact H12
  isplitl [H14]; · iexact H14
  isplitl [H23]; · iexact H23
  isplitl [H25]; · iexact H25
  isplitl [Ha]; · iexact Ha
  iexact Hb

set_option maxHeartbeats 2000000 in
/-- EXIT: the twenty windows' arrays at their final contents make the ten buffers behind them, whole, at the exit
    contents: an input array ends as it was entered, so the six shares of a stacked-level array hold one contents. -/
theorem arrays_out (c : Dev nD) :
    ((dat0 (V1 m ρ) c).arrays ((dat0 (V1 m ρ) c).arrAt · cfg0.N) : sProp 𝕄) ⊢ Pipeline.arrBufs spec0 c (V2 m ρ c) := by
  rw [arrays_whole, bigSep_W0]
  rw [arrBufs_chain]
  rw [(dat0 (V1 m ρ) c).arrAt_in 0 rfl cfg0.N, (dat0 (V1 m ρ) c).arrAt_in 1 rfl cfg0.N, (dat0 (V1 m ρ) c).arrAt_in 2 rfl cfg0.N, (dat0 (V1 m ρ) c).arrAt_in 3 rfl cfg0.N, (dat0 (V1 m ρ) c).arrAt_in 4 rfl cfg0.N, (dat0 (V1 m ρ) c).arrAt_in 5 rfl cfg0.N, (dat0 (V1 m ρ) c).arrAt_in 6 rfl cfg0.N, (dat0 (V1 m ρ) c).arrAt_in 7 rfl cfg0.N, (dat0 (V1 m ρ) c).arrAt_in 8 rfl cfg0.N, (dat0 (V1 m ρ) c).arrAt_in 9 rfl cfg0.N, (dat0 (V1 m ρ) c).arrAt_in 10 rfl cfg0.N, (dat0 (V1 m ρ) c).arrAt_in 11 rfl cfg0.N, (dat0 (V1 m ρ) c).arrAt_in 12 rfl cfg0.N, (dat0 (V1 m ρ) c).arrAt_in 13 rfl cfg0.N, (dat0 (V1 m ρ) c).arrAt_in 14 rfl cfg0.N, (dat0 (V1 m ρ) c).arrAt_in 15 rfl cfg0.N, (dat0 (V1 m ρ) c).arrAt_in 16 rfl cfg0.N, (dat0 (V1 m ρ) c).arrAt_in 17 rfl cfg0.N]
  rw [show V2 m ρ c main_v0 = V1 m ρ c main_v0 from W2_of_ne m ρ c main_v0 (by decide) (by decide),
    show V2 m ρ c main_v1 = V1 m ρ c main_v1 from W2_of_ne m ρ c main_v1 (by decide) (by decide),
    show V2 m ρ c main_v2 = V1 m ρ c main_v2 from W2_of_ne m ρ c main_v2 (by decide) (by decide),
    show V2 m ρ c main_v3 = V1 m ρ c main_v3 from W2_of_ne m ρ c main_v3 (by decide) (by decide),
    show V2 m ρ c main_v12 = V1 m ρ c main_v12 from W2_of_ne m ρ c main_v12 (by decide) (by decide),
    show V2 m ρ c main_v14 = V1 m ρ c main_v14 from W2_of_ne m ρ c main_v14 (by decide) (by decide),
    show V2 m ρ c main_v23 = V1 m ρ c main_v23 from W2_of_ne m ρ c main_v23 (by decide) (by decide),
    show V2 m ρ c main_v25 = V1 m ρ c main_v25 from W2_of_ne m ρ c main_v25 (by decide) (by decide),
    show V2 m ρ c main_v26_0 = (dat0 (V1 m ρ) c).arrAt 18 cfg0.N from W2_out0 m ρ c,
    show V2 m ρ c main_v26_1 = (dat0 (V1 m ρ) c).arrAt 19 cfg0.N from W2_out1 m ρ c]
  iintro ⟨H0, H1, H2a, H2b, H2c, H2d, H2e, H2f, H3a, H3b, H3c, H3d, H3e, H3f, H12, H14, H23, H25, Ha, Hb⟩
  isplitl [H0]; · iexact H0
  isplitl [H1]; · iexact H1
  isplitl [H2a H2b H2c H2d H2e H2f]
  · iapply (gather6 _ _)
    isplitl [H2a]; · iexact H2a
    isplitl [H2b]; · iexact H2b
    isplitl [H2c]; · iexact H2c
    isplitl [H2d]; · iexact H2d
    isplitl [H2e]; · iexact H2e
    iexact H2f
  isplitl [H3a H3b H3c H3d H3e H3f]
  · iapply (gather6 _ _)
    isplitl [H3a]; · iexact H3a
    isplitl [H3b]; · iexact H3b
    isplitl [H3c]; · iexact H3c
    isplitl [H3d]; · iexact H3d
    isplitl [H3e]; · iexact H3e
    iexact H3f
  isplitl [H12]; · iexact H12
  isplitl [H14]; · iexact H14
  isplitl [H23]; · iexact H23
  isplitl [H25]; · iexact H25
  isplitl [Ha]; · iexact Ha
  iexact Hb

/-- Outside the windows' arrays the exit contents are the entry contents. -/
theorem rest_out (c : Dev nD) :
    (Pipeline.unscopedRest (Ix := Unit) (Name := ℕ) (U := UR sig nD τ) (Lvl := ℕ) spec0 c (V1 m ρ c) : sProp 𝕄)
      = Pipeline.unscopedRest spec0 c (V2 m ρ c) := by
  unfold Pipeline.unscopedRest
  refine bigSep_congr fun b hb => ?_
  have hb' := (Finset.mem_sdiff.mp hb).2
  rw [show V2 m ρ c b = V1 m ρ c b from W2_of_ne m ρ c b
    (fun e => hb' (e ▸ Finset.mem_image.mpr ⟨18, Finset.mem_univ _, rfl⟩))
    (fun e => hb' (e ▸ Finset.mem_image.mpr ⟨19, Finset.mem_univ _, rfl⟩))]

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
  | ⟨_ + 1, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays_in m ρ c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs (Ix := Unit) (Name := ℕ) (U := UR sig nD τ) (Lvl := ℕ) c (V2 m ρ c) : sProp 𝕄) := by
      rw [Pipeline.unscopedBufs_split₀ cfgs 0 winFacts₀0.arr_unscoped c (V2 m ρ c), ← rest_out m ρ c]
      exact sep_mono (arrays_out m ρ c) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: every weakly fair execution terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Gen

end
-- ==== Proof.CellSpec.lean ====
/-
  The mathematics both programs compute, stated once, with no program in sight.

  One batch row carries a state (h, c), two vectors of 64 extended reals. A TREE CELL joins a left state (hl, cl) and a
  right state (hr, cr) under weights Ul, Ur (64 × 320) and a bias b (320): the 320 gate pre-activations are
      g j = (Σ_k hl k · Ul k j + Σ_k hr k · Ur k j) + b j,
  cut into five blocks of 64 (input, forget-left, forget-right, output, update), and
      c d = (σ(g_i d) · tanh(g_u d) + σ(g_fl d) · cl d) + σ(g_fr d) · cr d,      h d = σ(g_o d) · tanh(c d),
  σ the logistic function. This is the cell in the reference's arrangement (`cell`).

  The kernel's arrangement (`kcell`) stacks the two 64-vectors into one of 128, contracts once over 128 against
  weights whose first four gate blocks were halved beforehand (the bias likewise), takes ONE tanh over all 320
  pre-activations, and rebuilds each logistic gate as 1/2 + 1/2 · tanh(g/2).

  The whole computation is a chain of six cells over the levels 0, 2, 3, 5, 6, 7 of a stack of eight states: the first
  joins level 0 (left) with the new state (right) under the merge weights, each later one joins the running state (left)
  with the next level (right) under the summary weights.
-/
import Idealize.ShloMosaic.PureOps.Ideal
import Mathlib.Algebra.BigOperators.Fin

noncomputable section

namespace Cert.TreeCell

open Idealize.ShloMosaic

/-- A state of one batch row: (h, c). -/
abbrev St : Type := (Fin 64 → EReal) × (Fin 64 → EReal)

/-- Column `64·g + d` of the 320 gate columns: entry `d` of gate block `g`. -/
def col (g : Fin 5) (d : Fin 64) : Fin 320 := ⟨64 * g.val + d.val, by omega⟩

/-! ## The reference's arrangement -/

/-- Gate pre-activation `j`: the two 64-term contractions added, then the bias. -/
def gate (hl hr : Fin 64 → EReal) (Ul Ur : Fin 64 → Fin 320 → EReal) (b : Fin 320 → EReal) (j : Fin 320) : EReal :=
  ((∑ k : Fin 64, hl k * Ul k j) + ∑ k : Fin 64, hr k * Ur k j) + b j

/-- The new cell state. -/
def cellC (l r : St) (Ul Ur : Fin 64 → Fin 320 → EReal) (b : Fin 320 → EReal) (d : Fin 64) : EReal :=
  (Ideal.logistic (gate l.1 r.1 Ul Ur b (col 0 d)) * Ideal.tanh (gate l.1 r.1 Ul Ur b (col 4 d))
      + Ideal.logistic (gate l.1 r.1 Ul Ur b (col 1 d)) * l.2 d)
    + Ideal.logistic (gate l.1 r.1 Ul Ur b (col 2 d)) * r.2 d

/-- The new hidden state. -/
def cellH (l r : St) (Ul Ur : Fin 64 → Fin 320 → EReal) (b : Fin 320 → EReal) (d : Fin 64) : EReal :=
  Ideal.logistic (gate l.1 r.1 Ul Ur b (col 3 d)) * Ideal.tanh (cellC l r Ul Ur b d)

/-- One tree cell: left state, right state ↦ joined state. -/
def cell (l r : St) (Ul Ur : Fin 64 → Fin 320 → EReal) (b : Fin 320 → EReal) : St :=
  (cellH l r Ul Ur b, cellC l r Ul Ur b)

/-- The chain of six cells over levels 0, 2, 3, 5, 6, 7. `hL p`, `cL p` are level `p`'s state at this row. -/
def chain (new : St) (lev : Fin 8 → St) (mUl mUr : Fin 64 → Fin 320 → EReal) (mb : Fin 320 → EReal)
    (sUl sUr : Fin 64 → Fin 320 → EReal) (sb : Fin 320 → EReal) : St :=
  cell (cell (cell (cell (cell (cell (lev 0) new mUl mUr mb) (lev 2) sUl sUr sb) (lev 3) sUl sUr sb) (lev 5) sUl sUr sb)
    (lev 6) sUl sUr sb) (lev 7) sUl sUr sb

/-! ## The kernel's arrangement -/

/-- The float word of one half, and of one. -/
def half : EReal := Ideal.ofBits .f32 0x3F000000#32
def unit : EReal := Ideal.ofBits .f32 0x3F800000#32

/-- The scale of gate column `j`: one half on the four logistic blocks, one on the update block. -/
def scale (j : Fin 320) : EReal := if j.val < 256 then half else unit

/-- The two weight matrices stacked along the contraction (rows 0–63 the left one, 64–127 the right one). -/
def stackW (Ul Ur : Fin 64 → Fin 320 → EReal) (k : Fin 128) (j : Fin 320) : EReal :=
  if h : k.val < 64 then Ul ⟨k.val, h⟩ j else Ur ⟨k.val - 64, by omega⟩ j

/-- The two hidden vectors stacked likewise. -/
def stackV (lh rh : Fin 64 → EReal) (k : Fin 128) : EReal :=
  if h : k.val < 64 then lh ⟨k.val, h⟩ else rh ⟨k.val - 64, by omega⟩

/-- The kernel's pre-activation `j` over ANY prepared weights `Wt` (320 × 128, gate column first) and bias `bt`: one
    contraction over 128 against the stacked hidden vectors, plus the bias. -/
def wgate (Wt : Fin 320 → Fin 128 → EReal) (bt : Fin 320 → EReal) (lh rh : Fin 64 → EReal) (j : Fin 320) : EReal :=
  (∑ k : Fin 128, Wt j k * stackV lh rh k) + bt j

/-- A logistic gate rebuilt from the tanh of the (halved) pre-activation: 1/2 + 1/2 · tanh. -/
def wsig (Wt : Fin 320 → Fin 128 → EReal) (bt : Fin 320 → EReal) (lh rh : Fin 64 → EReal) (j : Fin 320) : EReal :=
  half + half * Ideal.tanh (wgate Wt bt lh rh j)

def wcellC (Wt : Fin 320 → Fin 128 → EReal) (bt : Fin 320 → EReal) (l r : St) (d : Fin 64) : EReal :=
  (wsig Wt bt l.1 r.1 (col 0 d) * Ideal.tanh (wgate Wt bt l.1 r.1 (col 4 d))
      + wsig Wt bt l.1 r.1 (col 1 d) * l.2 d)
    + wsig Wt bt l.1 r.1 (col 2 d) * r.2 d

def wcellH (Wt : Fin 320 → Fin 128 → EReal) (bt : Fin 320 → EReal) (l r : St) (d : Fin 64) : EReal :=
  wsig Wt bt l.1 r.1 (col 3 d) * Ideal.tanh (wcellC Wt bt l r d)

/-- One cell in the kernel's arrangement over prepared weights. -/
def wcell (Wt : Fin 320 → Fin 128 → EReal) (bt : Fin 320 → EReal) (l r : St) : St :=
  (wcellH Wt bt l r, wcellC Wt bt l r)

/-- The chain of six over prepared merge weights (mWt, mbt) and summary weights (sWt, sbt). -/
def wchain (mWt : Fin 320 → Fin 128 → EReal) (mbt : Fin 320 → EReal) (sWt : Fin 320 → Fin 128 → EReal) (sbt : Fin 320 → EReal)
    (new : St) (lev : Fin 8 → St) : St :=
  wcell sWt sbt (wcell sWt sbt (wcell sWt sbt (wcell sWt sbt (wcell sWt sbt (wcell mWt mbt (lev 0) new) (lev 2)) (lev 3)) (lev 5))
    (lev 6)) (lev 7)

/-- The weights as the kernel's host code prepares them: stacked, scaled column by column, transposed. -/
def prepW (Ul Ur : Fin 64 → Fin 320 → EReal) (j : Fin 320) (k : Fin 128) : EReal := stackW Ul Ur k j * scale j
/-- The bias as prepared: scaled entry by entry. -/
def prepB (b : Fin 320 → EReal) (j : Fin 320) : EReal := b j * scale j

/-- One cell, and the chain, in the kernel's arrangement from the ORIGINAL weights. -/
def kcell (l r : St) (Ul Ur : Fin 64 → Fin 320 → EReal) (b : Fin 320 → EReal) : St := wcell (prepW Ul Ur) (prepB b) l r

def kchain (new : St) (lev : Fin 8 → St) (mUl mUr : Fin 64 → Fin 320 → EReal) (mb : Fin 320 → EReal)
    (sUl sUr : Fin 64 → Fin 320 → EReal) (sb : Fin 320 → EReal) : St :=
  wchain (prepW mUl mUr) (prepB mb) (prepW sUl sUr) (prepB sb) new lev

end Cert.TreeCell

end
-- ==== Proof.ArraySpec.lean ====
/-
  The result arrays as whole-array functions of the ten argument arrays: at batch row n and entry d, the hidden
  (resp. cell) result is entry d of the six-cell chain run on row n of the new state, row n of each of the eight
  levels, and the two weight sets. Arrays are functions of their index; indices are built from coordinates.
-/
import Idealize.ShloMosaic.Lib.ValueIdx
import proofs.«129490_g31301721653836_cont_9to1_2280_18_alg».proof.Proof.CellSpec

noncomputable section

namespace Cert.TreeCell

open Idealize.ShloMosaic Idealize.ShloMosaic.ValueIdx

/-- f32[16384, 64], f32[8, 16384, 64], f32[64, 320], f32[320] as functions of their index into the extended reals. -/
abbrev ArrBD : Type := (⟨2, ![16384, 64]⟩ : Shape).Idx → EReal
abbrev ArrLBD : Type := (⟨3, ![8, 16384, 64]⟩ : Shape).Idx → EReal
abbrev ArrW : Type := (⟨2, ![64, 320]⟩ : Shape).Idx → EReal
abbrev ArrG : Type := (⟨1, ![320]⟩ : Shape).Idx → EReal

/-- Row n of the new state. -/
def newSt (hn cn : ArrBD) (n : Fin 16384) : St := (fun d => hn (ix2 n d), fun d => cn (ix2 n d))
/-- Row n of level p. -/
def levSt (hL cL : ArrLBD) (n : Fin 16384) (p : Fin 8) : St := (fun d => hL (ix3 p n d), fun d => cL (ix3 p n d))
/-- A weight matrix and a bias by coordinates. -/
def mat (U : ArrW) (k : Fin 64) (j : Fin 320) : EReal := U (ix2 k j)
def vec (b : ArrG) (j : Fin 320) : EReal := b (ix1 j)

/-- Row n's final state, in the reference's arrangement. -/
def rowSt (hn cn : ArrBD) (hL cL : ArrLBD) (mUl mUr : ArrW) (mb : ArrG) (sUl sUr : ArrW) (sb : ArrG) (n : Fin 16384) : St :=
  chain (newSt hn cn n) (levSt hL cL n) (mat mUl) (mat mUr) (vec mb) (mat sUl) (mat sUr) (vec sb)

/-- The same in the kernel's arrangement. -/
def krowSt (hn cn : ArrBD) (hL cL : ArrLBD) (mUl mUr : ArrW) (mb : ArrG) (sUl sUr : ArrW) (sb : ArrG) (n : Fin 16384) : St :=
  kchain (newSt hn cn n) (levSt hL cL n) (mat mUl) (mat mUr) (vec mb) (mat sUl) (mat sUr) (vec sb)

/-- The hidden result array f32[16384, 64] and the cell result array. -/
def outH (hn cn : ArrBD) (hL cL : ArrLBD) (mUl mUr : ArrW) (mb : ArrG) (sUl sUr : ArrW) (sb : ArrG) : ArrBD :=
  fun i => (rowSt hn cn hL cL mUl mUr mb sUl sUr sb (i 0)).1 (i 1)
def outC (hn cn : ArrBD) (hL cL : ArrLBD) (mUl mUr : ArrW) (mb : ArrG) (sUl sUr : ArrW) (sb : ArrG) : ArrBD :=
  fun i => (rowSt hn cn hL cL mUl mUr mb sUl sUr sb (i 0)).2 (i 1)
def koutH (hn cn : ArrBD) (hL cL : ArrLBD) (mUl mUr : ArrW) (mb : ArrG) (sUl sUr : ArrW) (sb : ArrG) : ArrBD :=
  fun i => (krowSt hn cn hL cL mUl mUr mb sUl sUr sb (i 0)).1 (i 1)
def koutC (hn cn : ArrBD) (hL cL : ArrLBD) (mUl mUr : ArrW) (mb : ArrG) (sUl sUr : ArrW) (sb : ArrG) : ArrBD :=
  fun i => (krowSt hn cn hL cL mUl mUr mb sUl sUr sb (i 0)).2 (i 1)

end Cert.TreeCell

end
-- ==== Proof.HostArgsK.lean ====
/-
  What the host operations leave alone: every operation before the region writes one of thirty intermediate arrays and
  every operation after it one of two result arrays, so each of the ten argument arrays, and each array outside those
  lists, holds after the operations what it held before them.
-/
import proofs.«129490_g31301721653836_cont_9to1_2280_18_alg».proof.Proof.Gen.Kernel.Launch
import proofs.«129490_g31301721653836_cont_9to1_2280_18_alg».proof.Proof.ArraySpec
import Idealize.ShloMosaic.Lib.StableHlo.Run
import Idealize.ShloMosaic.Lib.ValueIdx
import Idealize.ShloMosaic.Lib.ValueLayout
import Idealize.ShloMosaic.Lib.Pipeline.Value

noncomputable section

namespace Cert.Kernel.HostValue

open Idealize.ShloMosaic Idealize.ShloMosaic.ValueIdx Idealize.ShloMosaic.StableHlo
open Cert.Kernel Cert.Kernel.Gen

variable {F : FTy → Type} [FloatOps F]

/-- The arrays the thirty operations before the region write, one each. -/
abbrev hostOps0_W : List (Ref sig .tc) := [main_v0, main_v1, main_v2, main_v3, main_cst, main_v4, main_cst_0, main_v5, main_v6, main_v7, main_v8, main_v9, main_v10, main_v11, main_v12, main_v13, main_v14, main_cst_1, main_v15, main_cst_2, main_v16, main_v17, main_v18, main_v19, main_v20, main_v21, main_v22, main_v23, main_v24, main_v25]

theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- An array none of the thirty operations writes is unchanged by them. -/
theorem after0_of (V0 : Valuation τ sig (Elt F)) (r : Ref sig .tc) (h : r ∉ hostOps0_W) :
    StableHlo.after (hostOps0 (F := F)) V0 (Proc.devRef .tc r) = V0 (Proc.devRef .tc r) :=
  StableHlo.after_of_writes_sub hostOps0 _ hostOps0_writes h

/-- The arrays the two operations after the region write. -/
abbrev hostOps1_W : List (Ref sig .tc) := [main_v27, main_v28]

theorem hostOps1_writes : (hostOps1 : List (HloOp τ sig (Elt F))).Forall fun op => op.writes ⊆ (hostOps1_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- An array neither of the two closing operations writes is unchanged by them. -/
theorem after1_of (V2 : Valuation τ sig (Elt F)) (r : Ref sig .tc) (h : r ∉ hostOps1_W) :
    StableHlo.after (hostOps1 (F := F)) V2 (Proc.devRef .tc r) = V2 (Proc.devRef .tc r) :=
  StableHlo.after_of_writes_sub hostOps1 _ hostOps1_writes h

/-! ## The arguments through the thirty operations -/

theorem after0_main_arg0 (V0 : Valuation τ sig (Elt F)) :
    StableHlo.after (hostOps0 (F := F)) V0 (Proc.devRef .tc main_arg0) = V0 (Proc.devRef .tc main_arg0) :=
  after0_of V0 main_arg0 (by decide)

theorem after0_main_arg1 (V0 : Valuation τ sig (Elt F)) :
    StableHlo.after (hostOps0 (F := F)) V0 (Proc.devRef .tc main_arg1) = V0 (Proc.devRef .tc main_arg1) :=
  after0_of V0 main_arg1 (by decide)

theorem after0_main_arg2 (V0 : Valuation τ sig (Elt F)) :
    StableHlo.after (hostOps0 (F := F)) V0 (Proc.devRef .tc main_arg2) = V0 (Proc.devRef .tc main_arg2) :=
  after0_of V0 main_arg2 (by decide)

theorem after0_main_arg3 (V0 : Valuation τ sig (Elt F)) :
    StableHlo.after (hostOps0 (F := F)) V0 (Proc.devRef .tc main_arg3) = V0 (Proc.devRef .tc main_arg3) :=
  after0_of V0 main_arg3 (by decide)

theorem after0_main_arg4 (V0 : Valuation τ sig (Elt F)) :
    StableHlo.after (hostOps0 (F := F)) V0 (Proc.devRef .tc main_arg4) = V0 (Proc.devRef .tc main_arg4) :=
  after0_of V0 main_arg4 (by decide)

theorem after0_main_arg5 (V0 : Valuation τ sig (Elt F)) :
    StableHlo.after (hostOps0 (F := F)) V0 (Proc.devRef .tc main_arg5) = V0 (Proc.devRef .tc main_arg5) :=
  after0_of V0 main_arg5 (by decide)

theorem after0_main_arg6 (V0 : Valuation τ sig (Elt F)) :
    StableHlo.after (hostOps0 (F := F)) V0 (Proc.devRef .tc main_arg6) = V0 (Proc.devRef .tc main_arg6) :=
  after0_of V0 main_arg6 (by decide)

theorem after0_main_arg7 (V0 : Valuation τ sig (Elt F)) :
    StableHlo.after (hostOps0 (F := F)) V0 (Proc.devRef .tc main_arg7) = V0 (Proc.devRef .tc main_arg7) :=
  after0_of V0 main_arg7 (by decide)

theorem after0_main_arg8 (V0 : Valuation τ sig (Elt F)) :
    StableHlo.after (hostOps0 (F := F)) V0 (Proc.devRef .tc main_arg8) = V0 (Proc.devRef .tc main_arg8) :=
  after0_of V0 main_arg8 (by decide)

theorem after0_main_arg9 (V0 : Valuation τ sig (Elt F)) :
    StableHlo.after (hostOps0 (F := F)) V0 (Proc.devRef .tc main_arg9) = V0 (Proc.devRef .tc main_arg9) :=
  after0_of V0 main_arg9 (by decide)

/-! ## The arguments and the region's two results through the two closing operations -/

theorem after1_main_arg0 (V2 : Valuation τ sig (Elt F)) :
    StableHlo.after (hostOps1 (F := F)) V2 (Proc.devRef .tc main_arg0) = V2 (Proc.devRef .tc main_arg0) :=
  after1_of V2 main_arg0 (by decide)

theorem after1_main_arg1 (V2 : Valuation τ sig (Elt F)) :
    StableHlo.after (hostOps1 (F := F)) V2 (Proc.devRef .tc main_arg1) = V2 (Proc.devRef .tc main_arg1) :=
  after1_of V2 main_arg1 (by decide)

theorem after1_main_arg2 (V2 : Valuation τ sig (Elt F)) :
    StableHlo.after (hostOps1 (F := F)) V2 (Proc.devRef .tc main_arg2) = V2 (Proc.devRef .tc main_arg2) :=
  after1_of V2 main_arg2 (by decide)

theorem after1_main_arg3 (V2 : Valuation τ sig (Elt F)) :
    StableHlo.after (hostOps1 (F := F)) V2 (Proc.devRef .tc main_arg3) = V2 (Proc.devRef .tc main_arg3) :=
  after1_of V2 main_arg3 (by decide)

theorem after1_main_arg4 (V2 : Valuation τ sig (Elt F)) :
    StableHlo.after (hostOps1 (F := F)) V2 (Proc.devRef .tc main_arg4) = V2 (Proc.devRef .tc main_arg4) :=
  after1_of V2 main_arg4 (by decide)

theorem after1_main_arg5 (V2 : Valuation τ sig (Elt F)) :
    StableHlo.after (hostOps1 (F := F)) V2 (Proc.devRef .tc main_arg5) = V2 (Proc.devRef .tc main_arg5) :=
  after1_of V2 main_arg5 (by decide)

theorem after1_main_arg6 (V2 : Valuation τ sig (Elt F)) :
    StableHlo.after (hostOps1 (F := F)) V2 (Proc.devRef .tc main_arg6) = V2 (Proc.devRef .tc main_arg6) :=
  after1_of V2 main_arg6 (by decide)

theorem after1_main_arg7 (V2 : Valuation τ sig (Elt F)) :
    StableHlo.after (hostOps1 (F := F)) V2 (Proc.devRef .tc main_arg7) = V2 (Proc.devRef .tc main_arg7) :=
  after1_of V2 main_arg7 (by decide)

theorem after1_main_arg8 (V2 : Valuation τ sig (Elt F)) :
    StableHlo.after (hostOps1 (F := F)) V2 (Proc.devRef .tc main_arg8) = V2 (Proc.devRef .tc main_arg8) :=
  after1_of V2 main_arg8 (by decide)

theorem after1_main_arg9 (V2 : Valuation τ sig (Elt F)) :
    StableHlo.after (hostOps1 (F := F)) V2 (Proc.devRef .tc main_arg9) = V2 (Proc.devRef .tc main_arg9) :=
  after1_of V2 main_arg9 (by decide)

theorem after1_main_v26_0 (V2 : Valuation τ sig (Elt F)) :
    StableHlo.after (hostOps1 (F := F)) V2 (Proc.devRef .tc main_v26_0) = V2 (Proc.devRef .tc main_v26_0) :=
  after1_of V2 main_v26_0 (by decide)

theorem after1_main_v26_1 (V2 : Valuation τ sig (Elt F)) :
    StableHlo.after (hostOps1 (F := F)) V2 (Proc.devRef .tc main_v26_1) = V2 (Proc.devRef .tc main_v26_1) :=
  after1_of V2 main_v26_1 (by decide)

end Cert.Kernel.HostValue
end
-- ==== Proof.FramesK.lean ====
/-
  The frame. The run ends with every unscoped buffer at the last boundary's contents; an argument array is written by
  none of the preparing host operations, is not one of the two arrays the region changes, and is written by neither of
  the two transposes after it, so at an argument the last boundary's contents are the launch contents.
-/
import proofs.«129490_g31301721653836_cont_9to1_2280_18_alg».proof.Proof.Gen.Kernel.Launch
import proofs.«129490_g31301721653836_cont_9to1_2280_18_alg».proof.Proof.Gen.Kernel.Skeleton
import proofs.«129490_g31301721653836_cont_9to1_2280_18_alg».proof.Proof.Gen.Kernel.Points
import proofs.«129490_g31301721653836_cont_9to1_2280_18_alg».proof.Proof.RegionRunK
import proofs.«129490_g31301721653836_cont_9to1_2280_18_alg».proof.Proof.HostArgsK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no host operation writes and the region does not change ends as launched. -/
theorem W3_keep (c : Dev nD) (b : Ref sig .tc) (h0 : b ∉ Cert.Kernel.HostValue.hostOps0_W) (h1 : b ∉ Cert.Kernel.HostValue.hostOps1_W)
    (hne0 : b ≠ main_v26_0) (hne1 : b ≠ main_v26_1) : W3 m ρ c (Proc.devRef .tc b) = m ((c : Thread nD τ).loc b) :=
  ((Cert.Kernel.HostValue.after1_of (W2 m ρ c) b h1).trans (W2_of_ne m ρ c b hne0 hne1)).trans
    (Cert.Kernel.HostValue.after0_of (W0 m ρ c) b h0)

/-- Every weakly fair execution terminates, nothing faulting, with the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_keep m ρ c main_arg0 (by decide) (by decide) (by decide) (by decide)),
      (h c _ (mem_uc main_arg1 (by decide))).trans (W3_keep m ρ c main_arg1 (by decide) (by decide) (by decide) (by decide)),
      (h c _ (mem_uc main_arg2 (by decide))).trans (W3_keep m ρ c main_arg2 (by decide) (by decide) (by decide) (by decide)),
      (h c _ (mem_uc main_arg3 (by decide))).trans (W3_keep m ρ c main_arg3 (by decide) (by decide) (by decide) (by decide)),
      (h c _ (mem_uc main_arg4 (by decide))).trans (W3_keep m ρ c main_arg4 (by decide) (by decide) (by decide) (by decide)),
      (h c _ (mem_uc main_arg5 (by decide))).trans (W3_keep m ρ c main_arg5 (by decide) (by decide) (by decide) (by decide)),
      (h c _ (mem_uc main_arg6 (by decide))).trans (W3_keep m ρ c main_arg6 (by decide) (by decide) (by decide) (by decide)),
      (h c _ (mem_uc main_arg7 (by decide))).trans (W3_keep m ρ c main_arg7 (by decide) (by decide) (by decide) (by decide)),
      (h c _ (mem_uc main_arg8 (by decide))).trans (W3_keep m ρ c main_arg8 (by decide) (by decide) (by decide) (by decide)),
      (h c _ (mem_uc main_arg9 (by decide))).trans (W3_keep m ρ c main_arg9 (by decide) (by decide) (by decide) (by decide))⟩) (run_all m ρ)

end Cert.Kernel.Gen

end
-- ==== Proof.BodyFn.lean ====
/-
  The kernel body as two pure functions of the eighteen vectors it loads — the new state's two blocks, six hidden-level
  blocks, six cell-level blocks, the prepared merge weights and bias, the prepared summary weights and bias —: the
  hidden block and the cell block it stores. Each is the composition of the six cells' arithmetic, written over the
  named values of the body, in the body's own order.
-/
import proofs.«129490_g31301721653836_cont_9to1_2280_18_alg».proof.Proof.Gen.KernelIdeal.Skeleton

noncomputable section

namespace Cert.KernelIdeal.Gen

open Idealize.ShloMosaic Idealize.SL.Sem

variable {F : FTy → Type} [FloatOps F]

/-- What the sixth cell needs of the first five: the running cell state, the last level's cell block, the sixth
    cell's 320 × 2048 tanh block and its first three logistic gates. -/
structure Tail (F : FTy → Type) [FloatOps F] where
  v211 : FVec F S64x2048 .f32
  v217 : FVec F S64x2048 .f32
  v227 : FVec F S320x2048 .f32
  v232 : FVec F S64x2048 .f32
  v237 : FVec F S64x2048 .f32
  v242 : FVec F S64x2048 .f32

/-- The values the body has named when it reaches its two stores, from the eighteen loads. -/
def bodyTail (x1 x2 : Vec F S64x2048 .f32) (x3 x4 x5 x6 x7 x8 x9 x10 x11 x12 x13 x14 : Vec F S1x64x2048 .f32)
    (x15 : Vec F S320x128 .bf16) (x16 : Vec F S320x1 .f32) (x17 : Vec F S320x128 .bf16) (x18 : Vec F S320x1 .f32) : Tail F :=
  let cst_20 : F .f32 := Scalar.ofBits .f32 0x3F000000#32
  let cst_76 : F .f32 := Scalar.ofBits .f32 0x3F000000#32
  let v3 := k0_pay3 x9
  let v7 := k0_pay4 x2
  let v17 := k0_pay5 x3 x1 x15 x16
  let v22 := k0_pay6 x3 x1 x15 x16
  let v27 := k0_pay7 x3 x1 x15 x16
  let v32 := k0_pay8 x3 x1 x15 x16
  let v35 := k0_pay9 x3 x1 x15 x16
  let v43 := k0_pay10 v3 v7 v17 v22 v27 v32
  let v49 := k0_pay11 x10
  let v59 := k0_pay12 v3 v7 v17 v22 v27 v32 v35 cst_20 x4 x17 x18
  let v64 := k0_pay13 v3 v7 v17 v22 v27 v32 v35 cst_20 x4 x17 x18
  let v69 := k0_pay14 v3 v7 v17 v22 v27 v32 v35 cst_20 x4 x17 x18
  let v74 := k0_pay15 v3 v7 v17 v22 v27 v32 v35 cst_20 x4 x17 x18
  let v77 := k0_pay16 v3 v7 v17 v22 v27 v32 v35 cst_20 x4 x17 x18
  let v85 := k0_pay17 v43 v49 v59 v64 v69 v74
  let v91 := k0_pay18 x11
  let v101 := k0_pay19 v43 v49 v59 v64 v69 v74 v77 x5 x17 x18
  let v106 := k0_pay20 v43 v49 v59 v64 v69 v74 v77 x5 x17 x18
  let v111 := k0_pay21 v43 v49 v59 v64 v69 v74 v77 x5 x17 x18
  let v116 := k0_pay22 v43 v49 v59 v64 v69 v74 v77 x5 x17 x18
  let v117 := k0_pay23 v43 v49 v59 v64 v69 v74 v77 x5 x17 x18
  let v118 := k0_pay24 (F := F)
  let v127 := k0_pay25 v85 v91 v101 v106 v111 v116
  let v133 := k0_pay26 x12
  let v143 := k0_pay27 v85 v91 v101 v106 v111 v116 v117 v118 x6 x17 x18
  let v148 := k0_pay28 v85 v91 v101 v106 v111 v116 v117 v118 x6 x17 x18
  let v153 := k0_pay29 v85 v91 v101 v106 v111 v116 v117 v118 x6 x17 x18
  let v158 := k0_pay30 v85 v91 v101 v106 v111 v116 v117 v118 x6 x17 x18
  let v159 := k0_pay31 v85 v91 v101 v106 v111 v116 v117 v118 x6 x17 x18
  let v169 := k0_pay32 v127 v133 v143 v148 v153 v158
  let v175 := k0_pay33 x13
  let v185 := k0_pay34 v127 v133 v143 v148 v153 v158 v159 cst_76 x7 x17 x18
  let v190 := k0_pay35 v127 v133 v143 v148 v153 v158 v159 cst_76 x7 x17 x18
  let v195 := k0_pay36 v127 v133 v143 v148 v153 v158 v159 cst_76 x7 x17 x18
  let v200 := k0_pay37 v127 v133 v143 v148 v153 v158 v159 cst_76 x7 x17 x18
  let v201 := k0_pay38 v127 v133 v143 v148 v153 v158 v159 cst_76 x7 x17 x18
  { v211 := k0_pay39 v169 v175 v185 v190 v195 v200
    v217 := k0_pay40 x14
    v227 := k0_pay41 v169 v175 v185 v190 v195 v200 v201 x8 x17 x18
    v232 := k0_pay42 v169 v175 v185 v190 v195 v200 v201 x8 x17 x18
    v237 := k0_pay43 v169 v175 v185 v190 v195 v200 v201 x8 x17 x18
    v242 := k0_pay44 v169 v175 v185 v190 v195 v200 v201 x8 x17 x18 }

/-- The hidden block the body stores (into the first output window's buffer). -/
def bodyH (x1 x2 : Vec F S64x2048 .f32) (x3 x4 x5 x6 x7 x8 x9 x10 x11 x12 x13 x14 : Vec F S1x64x2048 .f32)
    (x15 : Vec F S320x128 .bf16) (x16 : Vec F S320x1 .f32) (x17 : Vec F S320x128 .bf16) (x18 : Vec F S320x1 .f32) : FVec F S64x2048 .f32 :=
  let T := bodyTail x1 x2 x3 x4 x5 x6 x7 x8 x9 x10 x11 x12 x13 x14 x15 x16 x17 x18
  k0_pay2 T.v211 T.v217 T.v227 T.v232 T.v237 T.v242

/-- The cell block the body stores (into the second output window's buffer). -/
def bodyC (x1 x2 : Vec F S64x2048 .f32) (x3 x4 x5 x6 x7 x8 x9 x10 x11 x12 x13 x14 : Vec F S1x64x2048 .f32)
    (x15 : Vec F S320x128 .bf16) (x16 : Vec F S320x1 .f32) (x17 : Vec F S320x128 .bf16) (x18 : Vec F S320x1 .f32) : FVec F S64x2048 .f32 :=
  let T := bodyTail x1 x2 x3 x4 x5 x6 x7 x8 x9 x10 x11 x12 x13 x14 x15 x16 x17 x18
  k0_pay1 T.v211 T.v217 T.v227 T.v232 T.v237 T.v242

end Cert.KernelIdeal.Gen

end
-- ==== Proof.BodyRun.lean ====
/-
  The kernel body's triple. Run on twenty whole staging buffers — eighteen inputs at known contents, two outputs at
  anything — the body reads every input once or more, never writes one, and overwrites each output buffer whole: the
  first with the hidden block and the second with the cell block that the six cells compute from the loaded
  contents (the pure functions of the body's named values). The inputs are handed back as they were.
-/
import proofs.«129490_g31301721653836_cont_9to1_2280_18_alg».proof.Proof.Gen.KernelIdeal.Launch
import proofs.«129490_g31301721653836_cont_9to1_2280_18_alg».proof.Proof.Gen.KernelIdeal.Skeleton
import proofs.«129490_g31301721653836_cont_9to1_2280_18_alg».proof.Proof.Gen.KernelIdeal.Points
import proofs.«129490_g31301721653836_cont_9to1_2280_18_alg».proof.Proof.BodyFn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one rectangle the body stores through: the whole 64 × 2048 buffer. -/
abbrev rOut : Rect S64x2048 := Rect.unit (s := S64x2048) ![0, 0] S64x2048.size inb_S64x2048_S64x2048_0_0

theorem zero2 : (![0, 0] : Fin 2 → Nat) = fun _ => 0 := by funext a; match a with | ⟨0, _⟩ => rfl | ⟨1, _⟩ => rfl
theorem zero3 : (![0, 0, 0] : Fin 3 → Nat) = fun _ => 0 := by
  funext a; match a with | ⟨0, _⟩ => rfl | ⟨1, _⟩ => rfl | ⟨2, _⟩ => rfl

/-- One store through the whole buffer covers it. -/
theorem coverOut (p0 : Vec F S64x2048 .f32) (y : S64x2048.Idx) :
    ∃ pc ∈ ([⟨rOut, p0⟩] : List (View.Piece (Elt F) S64x2048 .f32)), y ∈ pc.1.set :=
  View.cover_of_tiled [⟨rOut, p0⟩] S64x2048.size (by rfl) y

set_option maxHeartbeats 4000000 in
theorem sound_kernel0 (c : Dev nD) (E : Set ℕ) (i : grid0.Coords) (arg1 : Memref sig .tc .vmem S64x2048 .f32) (harg1 : arg1.IsWhole) (arg2 : Memref sig .tc .vmem S64x2048 .f32) (harg2 : arg2.IsWhole) (arg3 : Memref sig .tc .vmem S1x64x2048 .f32) (harg3 : arg3.IsWhole) (arg4 : Memref sig .tc .vmem S1x64x2048 .f32) (harg4 : arg4.IsWhole) (arg5 : Memref sig .tc .vmem S1x64x2048 .f32) (harg5 : arg5.IsWhole) (arg6 : Memref sig .tc .vmem S1x64x2048 .f32) (harg6 : arg6.IsWhole) (arg7 : Memref sig .tc .vmem S1x64x2048 .f32) (harg7 : arg7.IsWhole) (arg8 : Memref sig .tc .vmem S1x64x2048 .f32) (harg8 : arg8.IsWhole) (arg9 : Memref sig .tc .vmem S1x64x2048 .f32) (harg9 : arg9.IsWhole) (arg10 : Memref sig .tc .vmem S1x64x2048 .f32) (harg10 : arg10.IsWhole) (arg11 : Memref sig .tc .vmem S1x64x2048 .f32) (harg11 : arg11.IsWhole) (arg12 : Memref sig .tc .vmem S1x64x2048 .f32) (harg12 : arg12.IsWhole) (arg13 : Memref sig .tc .vmem S1x64x2048 .f32) (harg13 : arg13.IsWhole) (arg14 : Memref sig .tc .vmem S1x64x2048 .f32) (harg14 : arg14.IsWhole) (arg15 : Memref sig .tc .vmem S320x128 .bf16) (harg15 : arg15.IsWhole) (arg16 : Memref sig .tc .vmem S320x1 .f32) (harg16 : arg16.IsWhole) (arg17 : Memref sig .tc .vmem S320x128 .bf16) (harg17 : arg17.IsWhole) (arg18 : Memref sig .tc .vmem S320x1 .f32) (harg18 : arg18.IsWhole) (arg19 : Memref sig .tc .vmem S64x2048 .f32) (harg19 : arg19.IsWhole) (arg20 : Memref sig .tc .vmem S64x2048 .f32) (harg20 : arg20.IsWhole)
    (x1 : Vec F S64x2048 .f32) (x2 : Vec F S64x2048 .f32) (x3 : Vec F S1x64x2048 .f32) (x4 : Vec F S1x64x2048 .f32) (x5 : Vec F S1x64x2048 .f32) (x6 : Vec F S1x64x2048 .f32) (x7 : Vec F S1x64x2048 .f32) (x8 : Vec F S1x64x2048 .f32) (x9 : Vec F S1x64x2048 .f32) (x10 : Vec F S1x64x2048 .f32) (x11 : Vec F S1x64x2048 .f32) (x12 : Vec F S1x64x2048 .f32) (x13 : Vec F S1x64x2048 .f32) (x14 : Vec F S1x64x2048 .f32) (x15 : Vec F S320x128 .bf16) (x16 : Vec F S320x1 .f32) (x17 : Vec F S320x128 .bf16) (x18 : Vec F S320x1 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (bodyH x1 x2 x3 x4 x5 x6 x7 x8 x9 x10 x11 x12 x13 x14 x15 x16 x17 x18) ∗ owns (c : Thread nD τ) arg20 fullShare (bodyC x1 x2 x3 x4 x5 x6 x7 x8 x9 x10 x11 x12 x13 x14 x15 x16 x17 x18)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf1; subst hf2; subst hf3; subst hf4; subst hf5; subst hf6; subst hf7; subst hf8; subst hf9; subst hf10; subst hf11; subst hf12; subst hf13; subst hf14; subst hf15; subst hf16; subst hf17; subst hf18
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    rw [View.read_writes_eq_canon _ _ _ (coverOut _), View.canon_unit_zero zero2]
    sl_unfold_run_names
    simp only [View.readAt_eq_ld, View.ld_unit_zero (S := S64x2048) zero2, View.ld_unit_zero (S := S1x64x2048) zero3,
      View.ld_unit_zero (S := S320x128) zero2, View.ld_unit_zero (S := S320x1) zero2]
    rfl
  · iexists _; isplitr
    swap; · iexact H20
    ipureintro
    rw [View.read_writes_eq_canon _ _ _ (coverOut _), View.canon_unit_zero zero2]
    sl_unfold_run_names
    simp only [View.readAt_eq_ld, View.ld_unit_zero (S := S64x2048) zero2, View.ld_unit_zero (S := S1x64x2048) zero3,
      View.ld_unit_zero (S := S320x128) zero2, View.ld_unit_zero (S := S320x1) zero2]
    rfl

end Cert.KernelIdeal.Gen

end
-- ==== Proof.RegionData.lean ====
/-
  The pipeline's proof data at a parameter V, the TensorCore's buffer contents when the region is entered. Each of the
  eighteen input windows keeps its block of the array in its staging buffer at every grid point; the two output
  windows end each point holding the hidden and the cell block the body computes from the eighteen input blocks.
  Twelve of the input windows look at two arrays only (six levels of the hidden stack, six of the cell stack): each
  of those two arrays is held in six shares, one per window, and every other array whole.
-/
import proofs.«129490_g31301721653836_cont_9to1_2280_18_alg».proof.Proof.Gen.KernelIdeal.Launch
import proofs.«129490_g31301721653836_cont_9to1_2280_18_alg».proof.Proof.Gen.KernelIdeal.Skeleton
import proofs.«129490_g31301721653836_cont_9to1_2280_18_alg».proof.Proof.Gen.KernelIdeal.Points
import proofs.«129490_g31301721653836_cont_9to1_2280_18_alg».proof.Proof.BodyRun
import proofs.«129490_g31301721653836_cont_9to1_2280_18_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Shares (sh6)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's staging buffer holds its block at every point, fetched there or not. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's staging buffer holds its block at every point, fetched there or not. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's staging buffer holds its block at every point, fetched there or not. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's staging buffer holds its block at every point, fetched there or not. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's staging buffer holds its block at every point, fetched there or not. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's staging buffer holds its block at every point, fetched there or not. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
/-- Input window 16's staging buffer holds its block at every point, fetched there or not. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
/-- Input window 17's staging buffer holds its block at every point, fetched there or not. -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)

/-- The share each window holds its array at: windows 2–7 share one array, windows 8–13 another. -/
def qshare : Fin 20 → PosShare TreeShare
  | ⟨2, _⟩ => sh6 0 | ⟨3, _⟩ => sh6 1 | ⟨4, _⟩ => sh6 2 | ⟨5, _⟩ => sh6 3 | ⟨6, _⟩ => sh6 4 | ⟨7, _⟩ => sh6 5
  | ⟨8, _⟩ => sh6 0 | ⟨9, _⟩ => sh6 1 | ⟨10, _⟩ => sh6 2 | ⟨11, _⟩ => sh6 3 | ⟨12, _⟩ => sh6 4 | ⟨13, _⟩ => sh6 5
  | _ => fullShare

/-- The proof data of the pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => bodyH (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t)
    | ⟨19, _⟩ => bodyC (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t)
    | ⟨_ + 20, h⟩ => absurd h (Nat.not_lt.2 (Nat.le_add_left _ _))
  Φ _ := Pipeline.ΦA spec0 c
  q w := qshare w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = bodyH (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) := by dsimp only [dat0]
theorem after0_19 (c : Dev nD) (t : Fin cfg0.N) : (dat0 V c).after 19 t = bodyC (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t))

set_option maxHeartbeats 2000000 in
/-- The body at any point: the inputs' buffers hold their blocks, so the body's triple applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel0 c Set.univ (grid0.coords t) _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Gen

end
-- ==== Proof.RegionRun.lean ====
/-
  The run of the whole program: the host operations that prepare the operands, the pipelined kernel region, the two
  transposes after it. The region is entered holding every unscoped buffer whole; the ten distinct buffers behind its
  twenty windows are dealt to the windows — the two stacked-level arrays in six shares each, one share per window
  that reads them — and gathered back at the exit, where only the two result arrays have changed. Every weakly fair
  execution therefore terminates without a fault, and ends with each unscoped buffer at the contents obtained by
  running the host operations, then replacing the two result arrays by what the write-backs leave, then running the
  two transposes.
-/
import proofs.«129490_g31301721653836_cont_9to1_2280_18_alg».proof.Proof.Gen.KernelIdeal.Launch
import proofs.«129490_g31301721653836_cont_9to1_2280_18_alg».proof.Proof.Gen.KernelIdeal.Skeleton
import proofs.«129490_g31301721653836_cont_9to1_2280_18_alg».proof.Proof.Gen.KernelIdeal.Points
import proofs.«129490_g31301721653836_cont_9to1_2280_18_alg».proof.Proof.RegionData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Shares (sh6 deal6 gather6)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The distinct buffers behind the windows -/

theorem image_arr : Finset.univ.image (Pipeline.arrRef spec0) = ([main_v0, main_v1, main_v2, main_v3, main_v12, main_v14, main_v23, main_v25, main_v26_0, main_v26_1] : List (Ref sig .tc)).toFinset := by decide

theorem arr_nodup : ([main_v0, main_v1, main_v2, main_v3, main_v12, main_v14, main_v23, main_v25, main_v26_0, main_v26_1] : List (Ref sig .tc)).Nodup := by decide

/-- The windowed arrays as a product over the windows of whole-buffer holdings, each at the window's share. -/
theorem arrays_whole {c : Dev nD} (V : (c : Dev nD) → (b : Ref sig .tc) → Buf (Elt F) ((c : Thread nD τ).loc b))
    (G : (w : Fin cfg0.W) → Buf (Elt F) ((cfg0.win w).arr.view.loc (c.tc : Thread nD τ))) :
    ((dat0 V c).arrays G : sProp 𝕄)
      = bigSep Finset.univ fun w : Fin cfg0.W => (((c.tc : Thread nD τ).loc (Pipeline.arrRef spec0 w)) ↦{(dat0 V c).share w} G w : sProp 𝕄) := by
  unfold Dat.arrays
  exact bigSep_congr fun w _ => by rw [(arr_whole0 w).set_eq_univ]

/-- The ten distinct buffers behind the windows, whole, one by one. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c.tc : Thread nD τ).loc main_v0) ↦{fullShare} V main_v0) ∗ (((c.tc : Thread nD τ).loc main_v1) ↦{fullShare} V main_v1) ∗ (((c.tc : Thread nD τ).loc main_v2) ↦{fullShare} V main_v2) ∗ (((c.tc : Thread nD τ).loc main_v3) ↦{fullShare} V main_v3) ∗ (((c.tc : Thread nD τ).loc main_v12) ↦{fullShare} V main_v12) ∗ (((c.tc : Thread nD τ).loc main_v14) ↦{fullShare} V main_v14) ∗ (((c.tc : Thread nD τ).loc main_v23) ↦{fullShare} V main_v23) ∗ (((c.tc : Thread nD τ).loc main_v25) ↦{fullShare} V main_v25) ∗ (((c.tc : Thread nD τ).loc main_v26_0) ↦{fullShare} V main_v26_0) ∗ (((c.tc : Thread nD τ).loc main_v26_1) ↦{fullShare} V main_v26_1)) :=
  BI.bigSep_eq_bigSepL_of_eq ([main_v0, main_v1, main_v2, main_v3, main_v12, main_v14, main_v23, main_v25, main_v26_0, main_v26_1] : List (Ref sig .tc)) image_arr arr_nodup _

/-! ## The buffer contents at each boundary -/

/-- Core c's buffers at launch, -/
abbrev W0 : Dev nD → Valuation τ sig (Elt F) := fun c b => (s₀ m ρ).mem ((c : Dev nD), b)
/-- after the preparing host operations (the region's entry), -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the region's exit: the two result arrays at what the write-backs leave, every other buffer as entered, -/
def W2 (c : Dev nD) : Valuation τ sig (Elt F) :=
  Function.update (Function.update (W1 m ρ c) (Proc.devRef .tc main_v26_0) ((dat0 (V1 m ρ) c).arrAt 18 cfg0.N))
    (Proc.devRef .tc main_v26_1) ((dat0 (V1 m ρ) c).arrAt 19 cfg0.N)
abbrev V2 : (c : Dev nD) → (b : Ref sig .tc) → Buf (Elt F) ((c : Thread nD τ).loc b) := fun c b => W2 m ρ c b
/-- and after the two transposes. -/
abbrev W3 : Dev nD → Valuation τ sig (Elt F) := fun c => StableHlo.after hostOps1 (W2 m ρ c)

theorem W2_out1 (c : Dev nD) : W2 m ρ c (Proc.devRef .tc main_v26_1) = (dat0 (V1 m ρ) c).arrAt 19 cfg0.N := by
  unfold W2; exact Function.update_self ..
theorem W2_out0 (c : Dev nD) : W2 m ρ c (Proc.devRef .tc main_v26_0) = (dat0 (V1 m ρ) c).arrAt 18 cfg0.N := by
  unfold W2
  rw [Function.update_of_ne (StableHlo.devRef_ne_of_ne (by decide))]
  exact Function.update_self ..
theorem W2_of_ne (c : Dev nD) (b : Ref sig .tc) (h0 : b ≠ main_v26_0) (h1 : b ≠ main_v26_1) :
    W2 m ρ c (Proc.devRef .tc b) = W1 m ρ c (Proc.devRef .tc b) := by
  unfold W2
  rw [Function.update_of_ne (StableHlo.devRef_ne_of_ne h1), Function.update_of_ne (StableHlo.devRef_ne_of_ne h0)]

/-! ## Dealing the buffers to the windows, and gathering them back -/

set_option maxHeartbeats 2000000 in
/-- ENTRY: the ten buffers behind the windows, whole, make the twenty windows' arrays at the entry contents. -/
theorem arrays_in (c : Dev nD) :
    (Pipeline.arrBufs spec0 c (V1 m ρ c) : sProp 𝕄) ⊢ (dat0 (V1 m ρ) c).arrays ((dat0 (V1 m ρ) c).arrAt · 0) := by
  rw [arrays_whole, bigSep_W0]
  rw [arrBufs_chain]
  iintro ⟨H0, H1, H2, H3, H12, H14, H23, H25, Ha, Hb⟩
  ihave H2' := (deal6 _ _) $$ H2
  icases H2' with ⟨H2a, H2b, H2c, H2d, H2e, H2f⟩
  ihave H3' := (deal6 _ _) $$ H3
  icases H3' with ⟨H3a, H3b, H3c, H3d, H3e, H3f⟩
  isplitl [H0]; · iexact H0
  isplitl [H1]; · iexact H1
  isplitl [H2a]; · iexact H2a
  isplitl [H2b]; · iexact H2b
  isplitl [H2c]; · iexact H2c
  isplitl [H2d]; · iexact H2d
  isplitl [H2e]; · iexact H2e
  isplitl [H2f]; · iexact H2f
  isplitl [H3a]; · iexact H3a
  isplitl [H3b]; · iexact H3b
  isplitl [H3c]; · iexact H3c
  isplitl [H3d]; · iexact H3d
  isplitl [H3e]; · iexact H3e
  isplitl [H3f]; · iexact H3f
  isplitl [H12]; · iexact H12
  isplitl [H14]; · iexact H14
  isplitl [H23]; · iexact H23
  isplitl [H25]; · iexact H25
  isplitl [Ha]; · iexact Ha
  iexact Hb

set_option maxHeartbeats 2000000 in
/-- EXIT: the twenty windows' arrays at their final contents make the ten buffers behind them, whole, at the exit
    contents: an input array ends as it was entered, so the six shares of a stacked-level array hold one contents. -/
theorem arrays_out (c : Dev nD) :
    ((dat0 (V1 m ρ) c).arrays ((dat0 (V1 m ρ) c).arrAt · cfg0.N) : sProp 𝕄) ⊢ Pipeline.arrBufs spec0 c (V2 m ρ c) := by
  rw [arrays_whole, bigSep_W0]
  rw [arrBufs_chain]
  rw [(dat0 (V1 m ρ) c).arrAt_in 0 rfl cfg0.N, (dat0 (V1 m ρ) c).arrAt_in 1 rfl cfg0.N, (dat0 (V1 m ρ) c).arrAt_in 2 rfl cfg0.N, (dat0 (V1 m ρ) c).arrAt_in 3 rfl cfg0.N, (dat0 (V1 m ρ) c).arrAt_in 4 rfl cfg0.N, (dat0 (V1 m ρ) c).arrAt_in 5 rfl cfg0.N, (dat0 (V1 m ρ) c).arrAt_in 6 rfl cfg0.N, (dat0 (V1 m ρ) c).arrAt_in 7 rfl cfg0.N, (dat0 (V1 m ρ) c).arrAt_in 8 rfl cfg0.N, (dat0 (V1 m ρ) c).arrAt_in 9 rfl cfg0.N, (dat0 (V1 m ρ) c).arrAt_in 10 rfl cfg0.N, (dat0 (V1 m ρ) c).arrAt_in 11 rfl cfg0.N, (dat0 (V1 m ρ) c).arrAt_in 12 rfl cfg0.N, (dat0 (V1 m ρ) c).arrAt_in 13 rfl cfg0.N, (dat0 (V1 m ρ) c).arrAt_in 14 rfl cfg0.N, (dat0 (V1 m ρ) c).arrAt_in 15 rfl cfg0.N, (dat0 (V1 m ρ) c).arrAt_in 16 rfl cfg0.N, (dat0 (V1 m ρ) c).arrAt_in 17 rfl cfg0.N]
  rw [show V2 m ρ c main_v0 = V1 m ρ c main_v0 from W2_of_ne m ρ c main_v0 (by decide) (by decide),
    show V2 m ρ c main_v1 = V1 m ρ c main_v1 from W2_of_ne m ρ c main_v1 (by decide) (by decide),
    show V2 m ρ c main_v2 = V1 m ρ c main_v2 from W2_of_ne m ρ c main_v2 (by decide) (by decide),
    show V2 m ρ c main_v3 = V1 m ρ c main_v3 from W2_of_ne m ρ c main_v3 (by decide) (by decide),
    show V2 m ρ c main_v12 = V1 m ρ c main_v12 from W2_of_ne m ρ c main_v12 (by decide) (by decide),
    show V2 m ρ c main_v14 = V1 m ρ c main_v14 from W2_of_ne m ρ c main_v14 (by decide) (by decide),
    show V2 m ρ c main_v23 = V1 m ρ c main_v23 from W2_of_ne m ρ c main_v23 (by decide) (by decide),
    show V2 m ρ c main_v25 = V1 m ρ c main_v25 from W2_of_ne m ρ c main_v25 (by decide) (by decide),
    show V2 m ρ c main_v26_0 = (dat0 (V1 m ρ) c).arrAt 18 cfg0.N from W2_out0 m ρ c,
    show V2 m ρ c main_v26_1 = (dat0 (V1 m ρ) c).arrAt 19 cfg0.N from W2_out1 m ρ c]
  iintro ⟨H0, H1, H2a, H2b, H2c, H2d, H2e, H2f, H3a, H3b, H3c, H3d, H3e, H3f, H12, H14, H23, H25, Ha, Hb⟩
  isplitl [H0]; · iexact H0
  isplitl [H1]; · iexact H1
  isplitl [H2a H2b H2c H2d H2e H2f]
  · iapply (gather6 _ _)
    isplitl [H2a]; · iexact H2a
    isplitl [H2b]; · iexact H2b
    isplitl [H2c]; · iexact H2c
    isplitl [H2d]; · iexact H2d
    isplitl [H2e]; · iexact H2e
    iexact H2f
  isplitl [H3a H3b H3c H3d H3e H3f]
  · iapply (gather6 _ _)
    isplitl [H3a]; · iexact H3a
    isplitl [H3b]; · iexact H3b
    isplitl [H3c]; · iexact H3c
    isplitl [H3d]; · iexact H3d
    isplitl [H3e]; · iexact H3e
    iexact H3f
  isplitl [H12]; · iexact H12
  isplitl [H14]; · iexact H14
  isplitl [H23]; · iexact H23
  isplitl [H25]; · iexact H25
  isplitl [Ha]; · iexact Ha
  iexact Hb

/-- Outside the windows' arrays the exit contents are the entry contents. -/
theorem rest_out (c : Dev nD) :
    (Pipeline.unscopedRest (Ix := Unit) (Name := ℕ) (U := UR sig nD τ) (Lvl := ℕ) spec0 c (V1 m ρ c) : sProp 𝕄)
      = Pipeline.unscopedRest spec0 c (V2 m ρ c) := by
  unfold Pipeline.unscopedRest
  refine bigSep_congr fun b hb => ?_
  have hb' := (Finset.mem_sdiff.mp hb).2
  rw [show V2 m ρ c b = V1 m ρ c b from W2_of_ne m ρ c b
    (fun e => hb' (e ▸ Finset.mem_image.mpr ⟨18, Finset.mem_univ _, rfl⟩))
    (fun e => hb' (e ▸ Finset.mem_image.mpr ⟨19, Finset.mem_univ _, rfl⟩))]

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
  | ⟨_ + 1, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays_in m ρ c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs (Ix := Unit) (Name := ℕ) (U := UR sig nD τ) (Lvl := ℕ) c (V2 m ρ c) : sProp 𝕄) := by
      rw [Pipeline.unscopedBufs_split₀ cfgs 0 winFacts₀0.arr_unscoped c (V2 m ρ c), ← rest_out m ρ c]
      exact sep_mono (arrays_out m ρ c) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: every weakly fair execution terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Gen

end
-- ==== Proof.HostArgs.lean ====
/-
  What the host operations leave alone: every operation before the region writes one of thirty intermediate arrays and
  every operation after it one of two result arrays, so each of the ten argument arrays, and each array outside those
  lists, holds after the operations what it held before them.
-/
import proofs.«129490_g31301721653836_cont_9to1_2280_18_alg».proof.Proof.Gen.KernelIdeal.Launch
import proofs.«129490_g31301721653836_cont_9to1_2280_18_alg».proof.Proof.ArraySpec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Idealize.ShloMosaic Idealize.ShloMosaic.ValueIdx Idealize.ShloMosaic.StableHlo
open Cert.KernelIdeal Cert.KernelIdeal.Gen

variable {F : FTy → Type} [FloatOps F]

/-- The arrays the thirty operations before the region write, one each. -/
abbrev hostOps0_W : List (Ref sig .tc) := [main_v0, main_v1, main_v2, main_v3, main_cst, main_v4, main_cst_0, main_v5, main_v6, main_v7, main_v8, main_v9, main_v10, main_v11, main_v12, main_v13, main_v14, main_cst_1, main_v15, main_cst_2, main_v16, main_v17, main_v18, main_v19, main_v20, main_v21, main_v22, main_v23, main_v24, main_v25]

theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- An array none of the thirty operations writes is unchanged by them. -/
theorem after0_of (V0 : Valuation τ sig (Elt F)) (r : Ref sig .tc) (h : r ∉ hostOps0_W) :
    StableHlo.after (hostOps0 (F := F)) V0 (Proc.devRef .tc r) = V0 (Proc.devRef .tc r) :=
  StableHlo.after_of_writes_sub hostOps0 _ hostOps0_writes h

/-- The arrays the two operations after the region write. -/
abbrev hostOps1_W : List (Ref sig .tc) := [main_v27, main_v28]

theorem hostOps1_writes : (hostOps1 : List (HloOp τ sig (Elt F))).Forall fun op => op.writes ⊆ (hostOps1_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- An array neither of the two closing operations writes is unchanged by them. -/
theorem after1_of (V2 : Valuation τ sig (Elt F)) (r : Ref sig .tc) (h : r ∉ hostOps1_W) :
    StableHlo.after (hostOps1 (F := F)) V2 (Proc.devRef .tc r) = V2 (Proc.devRef .tc r) :=
  StableHlo.after_of_writes_sub hostOps1 _ hostOps1_writes h

/-! ## The arguments through the thirty operations -/

theorem after0_main_arg0 (V0 : Valuation τ sig (Elt F)) :
    StableHlo.after (hostOps0 (F := F)) V0 (Proc.devRef .tc main_arg0) = V0 (Proc.devRef .tc main_arg0) :=
  after0_of V0 main_arg0 (by decide)

theorem after0_main_arg1 (V0 : Valuation τ sig (Elt F)) :
    StableHlo.after (hostOps0 (F := F)) V0 (Proc.devRef .tc main_arg1) = V0 (Proc.devRef .tc main_arg1) :=
  after0_of V0 main_arg1 (by decide)

theorem after0_main_arg2 (V0 : Valuation τ sig (Elt F)) :
    StableHlo.after (hostOps0 (F := F)) V0 (Proc.devRef .tc main_arg2) = V0 (Proc.devRef .tc main_arg2) :=
  after0_of V0 main_arg2 (by decide)

theorem after0_main_arg3 (V0 : Valuation τ sig (Elt F)) :
    StableHlo.after (hostOps0 (F := F)) V0 (Proc.devRef .tc main_arg3) = V0 (Proc.devRef .tc main_arg3) :=
  after0_of V0 main_arg3 (by decide)

theorem after0_main_arg4 (V0 : Valuation τ sig (Elt F)) :
    StableHlo.after (hostOps0 (F := F)) V0 (Proc.devRef .tc main_arg4) = V0 (Proc.devRef .tc main_arg4) :=
  after0_of V0 main_arg4 (by decide)

theorem after0_main_arg5 (V0 : Valuation τ sig (Elt F)) :
    StableHlo.after (hostOps0 (F := F)) V0 (Proc.devRef .tc main_arg5) = V0 (Proc.devRef .tc main_arg5) :=
  after0_of V0 main_arg5 (by decide)

theorem after0_main_arg6 (V0 : Valuation τ sig (Elt F)) :
    StableHlo.after (hostOps0 (F := F)) V0 (Proc.devRef .tc main_arg6) = V0 (Proc.devRef .tc main_arg6) :=
  after0_of V0 main_arg6 (by decide)

theorem after0_main_arg7 (V0 : Valuation τ sig (Elt F)) :
    StableHlo.after (hostOps0 (F := F)) V0 (Proc.devRef .tc main_arg7) = V0 (Proc.devRef .tc main_arg7) :=
  after0_of V0 main_arg7 (by decide)

theorem after0_main_arg8 (V0 : Valuation τ sig (Elt F)) :
    StableHlo.after (hostOps0 (F := F)) V0 (Proc.devRef .tc main_arg8) = V0 (Proc.devRef .tc main_arg8) :=
  after0_of V0 main_arg8 (by decide)

theorem after0_main_arg9 (V0 : Valuation τ sig (Elt F)) :
    StableHlo.after (hostOps0 (F := F)) V0 (Proc.devRef .tc main_arg9) = V0 (Proc.devRef .tc main_arg9) :=
  after0_of V0 main_arg9 (by decide)

/-! ## The arguments and the region's two results through the two closing operations -/

theorem after1_main_arg0 (V2 : Valuation τ sig (Elt F)) :
    StableHlo.after (hostOps1 (F := F)) V2 (Proc.devRef .tc main_arg0) = V2 (Proc.devRef .tc main_arg0) :=
  after1_of V2 main_arg0 (by decide)

theorem after1_main_arg1 (V2 : Valuation τ sig (Elt F)) :
    StableHlo.after (hostOps1 (F := F)) V2 (Proc.devRef .tc main_arg1) = V2 (Proc.devRef .tc main_arg1) :=
  after1_of V2 main_arg1 (by decide)

theorem after1_main_arg2 (V2 : Valuation τ sig (Elt F)) :
    StableHlo.after (hostOps1 (F := F)) V2 (Proc.devRef .tc main_arg2) = V2 (Proc.devRef .tc main_arg2) :=
  after1_of V2 main_arg2 (by decide)

theorem after1_main_arg3 (V2 : Valuation τ sig (Elt F)) :
    StableHlo.after (hostOps1 (F := F)) V2 (Proc.devRef .tc main_arg3) = V2 (Proc.devRef .tc main_arg3) :=
  after1_of V2 main_arg3 (by decide)

theorem after1_main_arg4 (V2 : Valuation τ sig (Elt F)) :
    StableHlo.after (hostOps1 (F := F)) V2 (Proc.devRef .tc main_arg4) = V2 (Proc.devRef .tc main_arg4) :=
  after1_of V2 main_arg4 (by decide)

theorem after1_main_arg5 (V2 : Valuation τ sig (Elt F)) :
    StableHlo.after (hostOps1 (F := F)) V2 (Proc.devRef .tc main_arg5) = V2 (Proc.devRef .tc main_arg5) :=
  after1_of V2 main_arg5 (by decide)

theorem after1_main_arg6 (V2 : Valuation τ sig (Elt F)) :
    StableHlo.after (hostOps1 (F := F)) V2 (Proc.devRef .tc main_arg6) = V2 (Proc.devRef .tc main_arg6) :=
  after1_of V2 main_arg6 (by decide)

theorem after1_main_arg7 (V2 : Valuation τ sig (Elt F)) :
    StableHlo.after (hostOps1 (F := F)) V2 (Proc.devRef .tc main_arg7) = V2 (Proc.devRef .tc main_arg7) :=
  after1_of V2 main_arg7 (by decide)

theorem after1_main_arg8 (V2 : Valuation τ sig (Elt F)) :
    StableHlo.after (hostOps1 (F := F)) V2 (Proc.devRef .tc main_arg8) = V2 (Proc.devRef .tc main_arg8) :=
  after1_of V2 main_arg8 (by decide)

theorem after1_main_arg9 (V2 : Valuation τ sig (Elt F)) :
    StableHlo.after (hostOps1 (F := F)) V2 (Proc.devRef .tc main_arg9) = V2 (Proc.devRef .tc main_arg9) :=
  after1_of V2 main_arg9 (by decide)

theorem after1_main_v26_0 (V2 : Valuation τ sig (Elt F)) :
    StableHlo.after (hostOps1 (F := F)) V2 (Proc.devRef .tc main_v26_0) = V2 (Proc.devRef .tc main_v26_0) :=
  after1_of V2 main_v26_0 (by decide)

theorem after1_main_v26_1 (V2 : Valuation τ sig (Elt F)) :
    StableHlo.after (hostOps1 (F := F)) V2 (Proc.devRef .tc main_v26_1) = V2 (Proc.devRef .tc main_v26_1) :=
  after1_of V2 main_v26_1 (by decide)

end Cert.KernelIdeal.HostValue
end
-- ==== Proof.Frames.lean ====
/-
  The frame. The run ends with every unscoped buffer at the last boundary's contents; an argument array is written by
  none of the preparing host operations, is not one of the two arrays the region changes, and is written by neither of
  the two transposes after it, so at an argument the last boundary's contents are the launch contents.
-/
import proofs.«129490_g31301721653836_cont_9to1_2280_18_alg».proof.Proof.Gen.KernelIdeal.Launch
import proofs.«129490_g31301721653836_cont_9to1_2280_18_alg».proof.Proof.Gen.KernelIdeal.Skeleton
import proofs.«129490_g31301721653836_cont_9to1_2280_18_alg».proof.Proof.Gen.KernelIdeal.Points
import proofs.«129490_g31301721653836_cont_9to1_2280_18_alg».proof.Proof.RegionRun
import proofs.«129490_g31301721653836_cont_9to1_2280_18_alg».proof.Proof.HostArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no host operation writes and the region does not change ends as launched. -/
theorem W3_keep (c : Dev nD) (b : Ref sig .tc) (h0 : b ∉ Cert.KernelIdeal.HostValue.hostOps0_W) (h1 : b ∉ Cert.KernelIdeal.HostValue.hostOps1_W)
    (hne0 : b ≠ main_v26_0) (hne1 : b ≠ main_v26_1) : W3 m ρ c (Proc.devRef .tc b) = m ((c : Thread nD τ).loc b) :=
  ((Cert.KernelIdeal.HostValue.after1_of (W2 m ρ c) b h1).trans (W2_of_ne m ρ c b hne0 hne1)).trans
    (Cert.KernelIdeal.HostValue.after0_of (W0 m ρ c) b h0)

/-- Every weakly fair execution terminates, nothing faulting, with the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_keep m ρ c main_arg0 (by decide) (by decide) (by decide) (by decide)),
      (h c _ (mem_uc main_arg1 (by decide))).trans (W3_keep m ρ c main_arg1 (by decide) (by decide) (by decide) (by decide)),
      (h c _ (mem_uc main_arg2 (by decide))).trans (W3_keep m ρ c main_arg2 (by decide) (by decide) (by decide) (by decide)),
      (h c _ (mem_uc main_arg3 (by decide))).trans (W3_keep m ρ c main_arg3 (by decide) (by decide) (by decide) (by decide)),
      (h c _ (mem_uc main_arg4 (by decide))).trans (W3_keep m ρ c main_arg4 (by decide) (by decide) (by decide) (by decide)),
      (h c _ (mem_uc main_arg5 (by decide))).trans (W3_keep m ρ c main_arg5 (by decide) (by decide) (by decide) (by decide)),
      (h c _ (mem_uc main_arg6 (by decide))).trans (W3_keep m ρ c main_arg6 (by decide) (by decide) (by decide) (by decide)),
      (h c _ (mem_uc main_arg7 (by decide))).trans (W3_keep m ρ c main_arg7 (by decide) (by decide) (by decide) (by decide)),
      (h c _ (mem_uc main_arg8 (by decide))).trans (W3_keep m ρ c main_arg8 (by decide) (by decide) (by decide) (by decide)),
      (h c _ (mem_uc main_arg9 (by decide))).trans (W3_keep m ρ c main_arg9 (by decide) (by decide) (by decide) (by decide))⟩) (run_all m ρ)

end Cert.KernelIdeal.Gen

end
-- ==== Proof.KBlocks.lean ====
/-
  The blocks the pipeline's windows hold at a grid point, read at a coordinate, as entries of the arrays they look at.

  The grid is one axis of eight points. At point t the two new-state windows and the two result windows hold block
  (0, t) of their 64 × 16384 arrays, in blocks of 64 × 2048: entry (d, q) of the block is entry (d, 2048·t + q) of the
  array. Each of the twelve level windows holds block (p, 0, t) of an 8 × 64 × 16384 stack, in blocks of 1 × 64 × 2048,
  for its own level p among 0, 2, 3, 5, 6, 7: entry (0, d, q) of the block is entry (p, d, 2048·t + q) of the stack. The
  four weight and bias windows hold their whole array at block index (0, 0). A block's coordinate in the array is,
  on every axis, the block index times the block's size plus the coordinate inside the block.
-/
import proofs.«129490_g31301721653836_cont_9to1_2280_18_alg».proof.Proof.RegionData
import Idealize.ShloMosaic.Lib.Pipeline.Value
import Idealize.ShloMosaic.Lib.ValueIdx

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

/-! ## The index maps, decided over the eight points -/

/-- Window 0's block index at point t is (0, t). -/
theorem idx0 : ∀ t : Fin cfg0.N, win0_0.index t (0 : Fin 2) = 0 ∧ win0_0.index t (1 : Fin 2) = t.val :=
  (by decide +kernel : ∀ t : Fin grid0.N, _)
/-- Window 1's block index at point t is (0, t). -/
theorem idx1 : ∀ t : Fin cfg0.N, win0_1.index t (0 : Fin 2) = 0 ∧ win0_1.index t (1 : Fin 2) = t.val :=
  (by decide +kernel : ∀ t : Fin grid0.N, _)
/-- Window 2's block index at point t is (0, 0, t). -/
theorem idx2 : ∀ t : Fin cfg0.N, win0_2.index t (0 : Fin 3) = 0 ∧ win0_2.index t (1 : Fin 3) = 0 ∧ win0_2.index t (2 : Fin 3) = t.val :=
  (by decide +kernel : ∀ t : Fin grid0.N, _)
/-- Window 3's block index at point t is (2, 0, t). -/
theorem idx3 : ∀ t : Fin cfg0.N, win0_3.index t (0 : Fin 3) = 2 ∧ win0_3.index t (1 : Fin 3) = 0 ∧ win0_3.index t (2 : Fin 3) = t.val :=
  (by decide +kernel : ∀ t : Fin grid0.N, _)
/-- Window 4's block index at point t is (3, 0, t). -/
theorem idx4 : ∀ t : Fin cfg0.N, win0_4.index t (0 : Fin 3) = 3 ∧ win0_4.index t (1 : Fin 3) = 0 ∧ win0_4.index t (2 : Fin 3) = t.val :=
  (by decide +kernel : ∀ t : Fin grid0.N, _)
/-- Window 5's block index at point t is (5, 0, t). -/
theorem idx5 : ∀ t : Fin cfg0.N, win0_5.index t (0 : Fin 3) = 5 ∧ win0_5.index t (1 : Fin 3) = 0 ∧ win0_5.index t (2 : Fin 3) = t.val :=
  (by decide +kernel : ∀ t : Fin grid0.N, _)
/-- Window 6's block index at point t is (6, 0, t). -/
theorem idx6 : ∀ t : Fin cfg0.N, win0_6.index t (0 : Fin 3) = 6 ∧ win0_6.index t (1 : Fin 3) = 0 ∧ win0_6.index t (2 : Fin 3) = t.val :=
  (by decide +kernel : ∀ t : Fin grid0.N, _)
/-- Window 7's block index at point t is (7, 0, t). -/
theorem idx7 : ∀ t : Fin cfg0.N, win0_7.index t (0 : Fin 3) = 7 ∧ win0_7.index t (1 : Fin 3) = 0 ∧ win0_7.index t (2 : Fin 3) = t.val :=
  (by decide +kernel : ∀ t : Fin grid0.N, _)
/-- Window 8's block index at point t is (0, 0, t). -/
theorem idx8 : ∀ t : Fin cfg0.N, win0_8.index t (0 : Fin 3) = 0 ∧ win0_8.index t (1 : Fin 3) = 0 ∧ win0_8.index t (2 : Fin 3) = t.val :=
  (by decide +kernel : ∀ t : Fin grid0.N, _)
/-- Window 9's block index at point t is (2, 0, t). -/
theorem idx9 : ∀ t : Fin cfg0.N, win0_9.index t (0 : Fin 3) = 2 ∧ win0_9.index t (1 : Fin 3) = 0 ∧ win0_9.index t (2 : Fin 3) = t.val :=
  (by decide +kernel : ∀ t : Fin grid0.N, _)
/-- Window 10's block index at point t is (3, 0, t). -/
theorem idx10 : ∀ t : Fin cfg0.N, win0_10.index t (0 : Fin 3) = 3 ∧ win0_10.index t (1 : Fin 3) = 0 ∧ win0_10.index t (2 : Fin 3) = t.val :=
  (by decide +kernel : ∀ t : Fin grid0.N, _)
/-- Window 11's block index at point t is (5, 0, t). -/
theorem idx11 : ∀ t : Fin cfg0.N, win0_11.index t (0 : Fin 3) = 5 ∧ win0_11.index t (1 : Fin 3) = 0 ∧ win0_11.index t (2 : Fin 3) = t.val :=
  (by decide +kernel : ∀ t : Fin grid0.N, _)
/-- Window 12's block index at point t is (6, 0, t). -/
theorem idx12 : ∀ t : Fin cfg0.N, win0_12.index t (0 : Fin 3) = 6 ∧ win0_12.index t (1 : Fin 3) = 0 ∧ win0_12.index t (2 : Fin 3) = t.val :=
  (by decide +kernel : ∀ t : Fin grid0.N, _)
/-- Window 13's block index at point t is (7, 0, t). -/
theorem idx13 : ∀ t : Fin cfg0.N, win0_13.index t (0 : Fin 3) = 7 ∧ win0_13.index t (1 : Fin 3) = 0 ∧ win0_13.index t (2 : Fin 3) = t.val :=
  (by decide +kernel : ∀ t : Fin grid0.N, _)
/-- Window 14's block index at every point is (0, 0). -/
theorem idx14 : ∀ t : Fin cfg0.N, win0_14.index t (0 : Fin 2) = 0 ∧ win0_14.index t (1 : Fin 2) = 0 :=
  (by decide +kernel : ∀ t : Fin grid0.N, _)
/-- Window 15's block index at every point is (0, 0). -/
theorem idx15 : ∀ t : Fin cfg0.N, win0_15.index t (0 : Fin 2) = 0 ∧ win0_15.index t (1 : Fin 2) = 0 :=
  (by decide +kernel : ∀ t : Fin grid0.N, _)
/-- Window 16's block index at every point is (0, 0). -/
theorem idx16 : ∀ t : Fin cfg0.N, win0_16.index t (0 : Fin 2) = 0 ∧ win0_16.index t (1 : Fin 2) = 0 :=
  (by decide +kernel : ∀ t : Fin grid0.N, _)
/-- Window 17's block index at every point is (0, 0). -/
theorem idx17 : ∀ t : Fin cfg0.N, win0_17.index t (0 : Fin 2) = 0 ∧ win0_17.index t (1 : Fin 2) = 0 :=
  (by decide +kernel : ∀ t : Fin grid0.N, _)
/-- Window 18's block index at point t is (0, t). -/
theorem idx18 : ∀ t : Fin cfg0.N, win0_18.index t (0 : Fin 2) = 0 ∧ win0_18.index t (1 : Fin 2) = t.val :=
  (by decide +kernel : ∀ t : Fin grid0.N, _)
/-- Window 19's block index at point t is (0, t). -/
theorem idx19 : ∀ t : Fin cfg0.N, win0_19.index t (0 : Fin 2) = 0 ∧ win0_19.index t (1 : Fin 2) = t.val :=
  (by decide +kernel : ∀ t : Fin grid0.N, _)

/-! ## The input blocks, read at a coordinate -/

section Reads
variable (V : (c : Dev nD) → (b : Ref sig .tc) → Buf (Elt F) ((c : Thread nD τ).loc b))

/-- Entry (d, q) of window 0's block at point t is entry (d, 2048·t + q) of its array. -/
theorem blk0_apply (c : Dev nD) (t : Fin cfg0.N) (d : Fin 64) (q : Fin 2048) (n : Fin 16384) (hn : n.val = t.val * 2048 + q.val) :
    (iblk0 V c 0 t : Vec F S64x2048 .f32) (ix2 d q) = (V c main_v0 : S64x16384.Idx → Elt F .f32) (ix2 d n) := by
  obtain ⟨e0, e1⟩ := idx0 t
  unfold iblk0
  rw [View.read_apply]
  show V c main_v0 _ = V c main_v0 _
  congr 1
  funext a
  apply Fin.ext
  match a with
  | ⟨0, _⟩ => show win0_0.index t (0 : Fin 2) * 64 + 1 * d.val = d.val; omega
  | ⟨1, _⟩ => show win0_0.index t (1 : Fin 2) * 2048 + 1 * q.val = n.val; omega

/-- Entry (d, q) of window 1's block at point t is entry (d, 2048·t + q) of its array. -/
theorem blk1_apply (c : Dev nD) (t : Fin cfg0.N) (d : Fin 64) (q : Fin 2048) (n : Fin 16384) (hn : n.val = t.val * 2048 + q.val) :
    (iblk0 V c 1 t : Vec F S64x2048 .f32) (ix2 d q) = (V c main_v1 : S64x16384.Idx → Elt F .f32) (ix2 d n) := by
  obtain ⟨e0, e1⟩ := idx1 t
  unfold iblk0
  rw [View.read_apply]
  show V c main_v1 _ = V c main_v1 _
  congr 1
  funext a
  apply Fin.ext
  match a with
  | ⟨0, _⟩ => show win0_1.index t (0 : Fin 2) * 64 + 1 * d.val = d.val; omega
  | ⟨1, _⟩ => show win0_1.index t (1 : Fin 2) * 2048 + 1 * q.val = n.val; omega

/-- Entry (0, d, q) of window 2's block at point t is entry (0, d, 2048·t + q) of its stack. -/
theorem blk2_apply (c : Dev nD) (t : Fin cfg0.N) (d : Fin 64) (q : Fin 2048) (n : Fin 16384) (hn : n.val = t.val * 2048 + q.val) :
    (iblk0 V c 2 t : Vec F S1x64x2048 .f32) (ix3 (0 : Fin 1) d q) = (V c main_v2 : S8x64x16384.Idx → Elt F .f32) (ix3 (0 : Fin 8) d n) := by
  obtain ⟨e0, e1, e2⟩ := idx2 t
  unfold iblk0
  rw [View.read_apply]
  show V c main_v2 _ = V c main_v2 _
  congr 1
  funext a
  apply Fin.ext
  match a with
  | ⟨0, _⟩ => show win0_2.index t (0 : Fin 3) * 1 + 1 * 0 = 0; omega
  | ⟨1, _⟩ => show win0_2.index t (1 : Fin 3) * 64 + 1 * d.val = d.val; omega
  | ⟨2, _⟩ => show win0_2.index t (2 : Fin 3) * 2048 + 1 * q.val = n.val; omega

/-- Entry (0, d, q) of window 3's block at point t is entry (2, d, 2048·t + q) of its stack. -/
theorem blk3_apply (c : Dev nD) (t : Fin cfg0.N) (d : Fin 64) (q : Fin 2048) (n : Fin 16384) (hn : n.val = t.val * 2048 + q.val) :
    (iblk0 V c 3 t : Vec F S1x64x2048 .f32) (ix3 (0 : Fin 1) d q) = (V c main_v2 : S8x64x16384.Idx → Elt F .f32) (ix3 (2 : Fin 8) d n) := by
  obtain ⟨e0, e1, e2⟩ := idx3 t
  unfold iblk0
  rw [View.read_apply]
  show V c main_v2 _ = V c main_v2 _
  congr 1
  funext a
  apply Fin.ext
  match a with
  | ⟨0, _⟩ => show win0_3.index t (0 : Fin 3) * 1 + 1 * 0 = 2; omega
  | ⟨1, _⟩ => show win0_3.index t (1 : Fin 3) * 64 + 1 * d.val = d.val; omega
  | ⟨2, _⟩ => show win0_3.index t (2 : Fin 3) * 2048 + 1 * q.val = n.val; omega

/-- Entry (0, d, q) of window 4's block at point t is entry (3, d, 2048·t + q) of its stack. -/
theorem blk4_apply (c : Dev nD) (t : Fin cfg0.N) (d : Fin 64) (q : Fin 2048) (n : Fin 16384) (hn : n.val = t.val * 2048 + q.val) :
    (iblk0 V c 4 t : Vec F S1x64x2048 .f32) (ix3 (0 : Fin 1) d q) = (V c main_v2 : S8x64x16384.Idx → Elt F .f32) (ix3 (3 : Fin 8) d n) := by
  obtain ⟨e0, e1, e2⟩ := idx4 t
  unfold iblk0
  rw [View.read_apply]
  show V c main_v2 _ = V c main_v2 _
  congr 1
  funext a
  apply Fin.ext
  match a with
  | ⟨0, _⟩ => show win0_4.index t (0 : Fin 3) * 1 + 1 * 0 = 3; omega
  | ⟨1, _⟩ => show win0_4.index t (1 : Fin 3) * 64 + 1 * d.val = d.val; omega
  | ⟨2, _⟩ => show win0_4.index t (2 : Fin 3) * 2048 + 1 * q.val = n.val; omega

/-- Entry (0, d, q) of window 5's block at point t is entry (5, d, 2048·t + q) of its stack. -/
theorem blk5_apply (c : Dev nD) (t : Fin cfg0.N) (d : Fin 64) (q : Fin 2048) (n : Fin 16384) (hn : n.val = t.val * 2048 + q.val) :
    (iblk0 V c 5 t : Vec F S1x64x2048 .f32) (ix3 (0 : Fin 1) d q) = (V c main_v2 : S8x64x16384.Idx → Elt F .f32) (ix3 (5 : Fin 8) d n) := by
  obtain ⟨e0, e1, e2⟩ := idx5 t
  unfold iblk0
  rw [View.read_apply]
  show V c main_v2 _ = V c main_v2 _
  congr 1
  funext a
  apply Fin.ext
  match a with
  | ⟨0, _⟩ => show win0_5.index t (0 : Fin 3) * 1 + 1 * 0 = 5; omega
  | ⟨1, _⟩ => show win0_5.index t (1 : Fin 3) * 64 + 1 * d.val = d.val; omega
  | ⟨2, _⟩ => show win0_5.index t (2 : Fin 3) * 2048 + 1 * q.val = n.val; omega

/-- Entry (0, d, q) of window 6's block at point t is entry (6, d, 2048·t + q) of its stack. -/
theorem blk6_apply (c : Dev nD) (t : Fin cfg0.N) (d : Fin 64) (q : Fin 2048) (n : Fin 16384) (hn : n.val = t.val * 2048 + q.val) :
    (iblk0 V c 6 t : Vec F S1x64x2048 .f32) (ix3 (0 : Fin 1) d q) = (V c main_v2 : S8x64x16384.Idx → Elt F .f32) (ix3 (6 : Fin 8) d n) := by
  obtain ⟨e0, e1, e2⟩ := idx6 t
  unfold iblk0
  rw [View.read_apply]
  show V c main_v2 _ = V c main_v2 _
  congr 1
  funext a
  apply Fin.ext
  match a with
  | ⟨0, _⟩ => show win0_6.index t (0 : Fin 3) * 1 + 1 * 0 = 6; omega
  | ⟨1, _⟩ => show win0_6.index t (1 : Fin 3) * 64 + 1 * d.val = d.val; omega
  | ⟨2, _⟩ => show win0_6.index t (2 : Fin 3) * 2048 + 1 * q.val = n.val; omega

/-- Entry (0, d, q) of window 7's block at point t is entry (7, d, 2048·t + q) of its stack. -/
theorem blk7_apply (c : Dev nD) (t : Fin cfg0.N) (d : Fin 64) (q : Fin 2048) (n : Fin 16384) (hn : n.val = t.val * 2048 + q.val) :
    (iblk0 V c 7 t : Vec F S1x64x2048 .f32) (ix3 (0 : Fin 1) d q) = (V c main_v2 : S8x64x16384.Idx → Elt F .f32) (ix3 (7 : Fin 8) d n) := by
  obtain ⟨e0, e1, e2⟩ := idx7 t
  unfold iblk0
  rw [View.read_apply]
  show V c main_v2 _ = V c main_v2 _
  congr 1
  funext a
  apply Fin.ext
  match a with
  | ⟨0, _⟩ => show win0_7.index t (0 : Fin 3) * 1 + 1 * 0 = 7; omega
  | ⟨1, _⟩ => show win0_7.index t (1 : Fin 3) * 64 + 1 * d.val = d.val; omega
  | ⟨2, _⟩ => show win0_7.index t (2 : Fin 3) * 2048 + 1 * q.val = n.val; omega

/-- Entry (0, d, q) of window 8's block at point t is entry (0, d, 2048·t + q) of its stack. -/
theorem blk8_apply (c : Dev nD) (t : Fin cfg0.N) (d : Fin 64) (q : Fin 2048) (n : Fin 16384) (hn : n.val = t.val * 2048 + q.val) :
    (iblk0 V c 8 t : Vec F S1x64x2048 .f32) (ix3 (0 : Fin 1) d q) = (V c main_v3 : S8x64x16384.Idx → Elt F .f32) (ix3 (0 : Fin 8) d n) := by
  obtain ⟨e0, e1, e2⟩ := idx8 t
  unfold iblk0
  rw [View.read_apply]
  show V c main_v3 _ = V c main_v3 _
  congr 1
  funext a
  apply Fin.ext
  match a with
  | ⟨0, _⟩ => show win0_8.index t (0 : Fin 3) * 1 + 1 * 0 = 0; omega
  | ⟨1, _⟩ => show win0_8.index t (1 : Fin 3) * 64 + 1 * d.val = d.val; omega
  | ⟨2, _⟩ => show win0_8.index t (2 : Fin 3) * 2048 + 1 * q.val = n.val; omega

/-- Entry (0, d, q) of window 9's block at point t is entry (2, d, 2048·t + q) of its stack. -/
theorem blk9_apply (c : Dev nD) (t : Fin cfg0.N) (d : Fin 64) (q : Fin 2048) (n : Fin 16384) (hn : n.val = t.val * 2048 + q.val) :
    (iblk0 V c 9 t : Vec F S1x64x2048 .f32) (ix3 (0 : Fin 1) d q) = (V c main_v3 : S8x64x16384.Idx → Elt F .f32) (ix3 (2 : Fin 8) d n) := by
  obtain ⟨e0, e1, e2⟩ := idx9 t
  unfold iblk0
  rw [View.read_apply]
  show V c main_v3 _ = V c main_v3 _
  congr 1
  funext a
  apply Fin.ext
  match a with
  | ⟨0, _⟩ => show win0_9.index t (0 : Fin 3) * 1 + 1 * 0 = 2; omega
  | ⟨1, _⟩ => show win0_9.index t (1 : Fin 3) * 64 + 1 * d.val = d.val; omega
  | ⟨2, _⟩ => show win0_9.index t (2 : Fin 3) * 2048 + 1 * q.val = n.val; omega

/-- Entry (0, d, q) of window 10's block at point t is entry (3, d, 2048·t + q) of its stack. -/
theorem blk10_apply (c : Dev nD) (t : Fin cfg0.N) (d : Fin 64) (q : Fin 2048) (n : Fin 16384) (hn : n.val = t.val * 2048 + q.val) :
    (iblk0 V c 10 t : Vec F S1x64x2048 .f32) (ix3 (0 : Fin 1) d q) = (V c main_v3 : S8x64x16384.Idx → Elt F .f32) (ix3 (3 : Fin 8) d n) := by
  obtain ⟨e0, e1, e2⟩ := idx10 t
  unfold iblk0
  rw [View.read_apply]
  show V c main_v3 _ = V c main_v3 _
  congr 1
  funext a
  apply Fin.ext
  match a with
  | ⟨0, _⟩ => show win0_10.index t (0 : Fin 3) * 1 + 1 * 0 = 3; omega
  | ⟨1, _⟩ => show win0_10.index t (1 : Fin 3) * 64 + 1 * d.val = d.val; omega
  | ⟨2, _⟩ => show win0_10.index t (2 : Fin 3) * 2048 + 1 * q.val = n.val; omega

/-- Entry (0, d, q) of window 11's block at point t is entry (5, d, 2048·t + q) of its stack. -/
theorem blk11_apply (c : Dev nD) (t : Fin cfg0.N) (d : Fin 64) (q : Fin 2048) (n : Fin 16384) (hn : n.val = t.val * 2048 + q.val) :
    (iblk0 V c 11 t : Vec F S1x64x2048 .f32) (ix3 (0 : Fin 1) d q) = (V c main_v3 : S8x64x16384.Idx → Elt F .f32) (ix3 (5 : Fin 8) d n) := by
  obtain ⟨e0, e1, e2⟩ := idx11 t
  unfold iblk0
  rw [View.read_apply]
  show V c main_v3 _ = V c main_v3 _
  congr 1
  funext a
  apply Fin.ext
  match a with
  | ⟨0, _⟩ => show win0_11.index t (0 : Fin 3) * 1 + 1 * 0 = 5; omega
  | ⟨1, _⟩ => show win0_11.index t (1 : Fin 3) * 64 + 1 * d.val = d.val; omega
  | ⟨2, _⟩ => show win0_11.index t (2 : Fin 3) * 2048 + 1 * q.val = n.val; omega

/-- Entry (0, d, q) of window 12's block at point t is entry (6, d, 2048·t + q) of its stack. -/
theorem blk12_apply (c : Dev nD) (t : Fin cfg0.N) (d : Fin 64) (q : Fin 2048) (n : Fin 16384) (hn : n.val = t.val * 2048 + q.val) :
    (iblk0 V c 12 t : Vec F S1x64x2048 .f32) (ix3 (0 : Fin 1) d q) = (V c main_v3 : S8x64x16384.Idx → Elt F .f32) (ix3 (6 : Fin 8) d n) := by
  obtain ⟨e0, e1, e2⟩ := idx12 t
  unfold iblk0
  rw [View.read_apply]
  show V c main_v3 _ = V c main_v3 _
  congr 1
  funext a
  apply Fin.ext
  match a with
  | ⟨0, _⟩ => show win0_12.index t (0 : Fin 3) * 1 + 1 * 0 = 6; omega
  | ⟨1, _⟩ => show win0_12.index t (1 : Fin 3) * 64 + 1 * d.val = d.val; omega
  | ⟨2, _⟩ => show win0_12.index t (2 : Fin 3) * 2048 + 1 * q.val = n.val; omega

/-- Entry (0, d, q) of window 13's block at point t is entry (7, d, 2048·t + q) of its stack. -/
theorem blk13_apply (c : Dev nD) (t : Fin cfg0.N) (d : Fin 64) (q : Fin 2048) (n : Fin 16384) (hn : n.val = t.val * 2048 + q.val) :
    (iblk0 V c 13 t : Vec F S1x64x2048 .f32) (ix3 (0 : Fin 1) d q) = (V c main_v3 : S8x64x16384.Idx → Elt F .f32) (ix3 (7 : Fin 8) d n) := by
  obtain ⟨e0, e1, e2⟩ := idx13 t
  unfold iblk0
  rw [View.read_apply]
  show V c main_v3 _ = V c main_v3 _
  congr 1
  funext a
  apply Fin.ext
  match a with
  | ⟨0, _⟩ => show win0_13.index t (0 : Fin 3) * 1 + 1 * 0 = 7; omega
  | ⟨1, _⟩ => show win0_13.index t (1 : Fin 3) * 64 + 1 * d.val = d.val; omega
  | ⟨2, _⟩ => show win0_13.index t (2 : Fin 3) * 2048 + 1 * q.val = n.val; omega

/-- Window 14's block at any point is its whole 320 × 128 array. -/
theorem blk14_apply (c : Dev nD) (t : Fin cfg0.N) (j : Fin 320) (k : Fin 128) :
    (iblk0 V c 14 t : Vec F S320x128 .bf16) (ix2 j k) = (V c main_v12 : S320x128.Idx → Elt F .bf16) (ix2 j k) := by
  obtain ⟨e0, e1⟩ := idx14 t
  unfold iblk0
  rw [View.read_apply]
  show V c main_v12 _ = V c main_v12 _
  congr 1
  funext a
  apply Fin.ext
  match a with
  | ⟨0, _⟩ => show win0_14.index t (0 : Fin 2) * 320 + 1 * j.val = j.val; omega
  | ⟨1, _⟩ => show win0_14.index t (1 : Fin 2) * 128 + 1 * k.val = k.val; omega

/-- Window 15's block at any point is its whole 320 × 1 array. -/
theorem blk15_apply (c : Dev nD) (t : Fin cfg0.N) (j : Fin 320) (u : Fin 1) :
    (iblk0 V c 15 t : Vec F S320x1 .f32) (ix2 j u) = (V c main_v14 : S320x1.Idx → Elt F .f32) (ix2 j u) := by
  obtain ⟨e0, e1⟩ := idx15 t
  unfold iblk0
  rw [View.read_apply]
  show V c main_v14 _ = V c main_v14 _
  congr 1
  funext a
  apply Fin.ext
  match a with
  | ⟨0, _⟩ => show win0_15.index t (0 : Fin 2) * 320 + 1 * j.val = j.val; omega
  | ⟨1, _⟩ => show win0_15.index t (1 : Fin 2) * 1 + 1 * u.val = u.val; omega

/-- Window 16's block at any point is its whole 320 × 128 array. -/
theorem blk16_apply (c : Dev nD) (t : Fin cfg0.N) (j : Fin 320) (k : Fin 128) :
    (iblk0 V c 16 t : Vec F S320x128 .bf16) (ix2 j k) = (V c main_v23 : S320x128.Idx → Elt F .bf16) (ix2 j k) := by
  obtain ⟨e0, e1⟩ := idx16 t
  unfold iblk0
  rw [View.read_apply]
  show V c main_v23 _ = V c main_v23 _
  congr 1
  funext a
  apply Fin.ext
  match a with
  | ⟨0, _⟩ => show win0_16.index t (0 : Fin 2) * 320 + 1 * j.val = j.val; omega
  | ⟨1, _⟩ => show win0_16.index t (1 : Fin 2) * 128 + 1 * k.val = k.val; omega

/-- Window 17's block at any point is its whole 320 × 1 array. -/
theorem blk17_apply (c : Dev nD) (t : Fin cfg0.N) (j : Fin 320) (u : Fin 1) :
    (iblk0 V c 17 t : Vec F S320x1 .f32) (ix2 j u) = (V c main_v25 : S320x1.Idx → Elt F .f32) (ix2 j u) := by
  obtain ⟨e0, e1⟩ := idx17 t
  unfold iblk0
  rw [View.read_apply]
  show V c main_v25 _ = V c main_v25 _
  congr 1
  funext a
  apply Fin.ext
  match a with
  | ⟨0, _⟩ => show win0_17.index t (0 : Fin 2) * 320 + 1 * j.val = j.val; omega
  | ⟨1, _⟩ => show win0_17.index t (1 : Fin 2) * 1 + 1 * u.val = u.val; omega

end Reads

end Cert.KernelIdeal.KValue

end
-- ==== Proof.BodyCell.lean ====
/-
  One cell of the kernel body, read at one index.

  A cell takes a left hidden block and a right hidden block (64 × 2048 each), stacks them to 128 × 2048, multiplies
  the prepared weights (320 × 128) into them from a zero accumulator, adds the bias column along the 2048 lanes and takes
  one tanh over the 320 × 2048 result. Read at row `j` and lane `q` that block is the tanh of the kernel-arrangement
  pre-activation `wgate` of the two blocks' columns `q`. A logistic gate is one half plus one half times a row slice of
  the tanh block; the new cell block and hidden block are the gate combinations of the columns.
-/
import proofs.«129490_g31301721653836_cont_9to1_2280_18_alg».proof.Proof.BodyFn
import proofs.«129490_g31301721653836_cont_9to1_2280_18_alg».proof.Proof.CellSpec
import Idealize.ShloMosaic.Lib.ValueLayout
import Idealize.ShloMosaic.PureOps.Ideal.Laws

noncomputable section

namespace Cert.KernelIdeal.BodyValue

open Idealize.ShloMosaic Idealize.SL.Sem Idealize.ShloMosaic.ValueIdx
open Cert.KernelIdeal.Gen
open Cert.TreeCell (St col half stackV wgate wsig wcellC wcellH wcell wchain)
open scoped BigOperators

/-! ## Columns of blocks, and the prepared weights as functions -/

/-- Column `q` of a 64 × 2048 block. -/
def colv (x : FVec Ideal S64x2048 .f32) (q : Fin 2048) : Fin 64 → EReal := fun d => x (ix2 d q)
/-- Column `q` of a 1 × 64 × 2048 block. -/
def colv3 (x : Vec Ideal S1x64x2048 .f32) (q : Fin 2048) : Fin 64 → EReal := fun d => x (ix3 (0 : Fin 1) d q)
/-- Prepared weights (320 × 128) as a function of the gate column and the contraction position. -/
def wOf (W : Vec Ideal S320x128 .bf16) : Fin 320 → Fin 128 → EReal := fun j k => W (ix2 j k)
/-- A prepared bias column (320 × 1) as a function of the gate column. -/
def bOf (b : Vec Ideal S320x1 .f32) : Fin 320 → EReal := fun j => b (ix2 j (0 : Fin 1))

/-! ## The three non-pointwise operations of a cell at an index -/

/-- The 320 × 128 by 128 × 2048 product into a zero accumulator, at `(j, q)`: the sum over the 128 positions. -/
theorem matmul_ix (W : FVec Ideal S320x128 .bf16) (X : FVec Ideal S128x2048 .bf16) (j : Fin 320) (q : Fin 2048) :
    matmul dot_S320x128_S128x2048_S320x2048_1_0_0_1_n_n none W X (constant (F := Ideal) S320x2048 .f32 0x00000000#32) (ix2 j q)
      = ∑ k : Fin 128, W (ix2 j k) * X (ix2 k q) := by
  show FloatOps.matmul dot_S320x128_S128x2048_S320x2048_1_0_0_1_n_n none W X
      (constant (F := Ideal) S320x2048 .f32 0x00000000#32) (ix2 j q) = _
  rw [Ideal.matmul_constant_zero_apply,
    ← Equiv.sum_comp (contrEquiv1 dot_S320x128_S128x2048_S320x2048_1_0_0_1_n_n 128 rfl rfl).symm]
  refine Finset.sum_congr rfl fun c _ => ?_
  have c2 := contrEquiv1_symm_val dot_S320x128_S128x2048_S320x2048_1_0_0_1_n_n 128 rfl rfl c
  have l2 : dot_S320x128_S128x2048_S320x2048_1_0_0_1_n_n.lhsIdx (ix2 j q) ((contrEquiv1 _ 128 rfl rfl).symm c) = ix2 j c := by
    funext ax; apply Fin.ext
    match ax with
    | ⟨0, _⟩ => simp [DotDims.lhsIdx, dot_S320x128_S128x2048_S320x2048_1_0_0_1_n_n]; rfl
    | ⟨1, _⟩ => simp [DotDims.lhsIdx, dot_S320x128_S128x2048_S320x2048_1_0_0_1_n_n]; exact c2
  have r2 : dot_S320x128_S128x2048_S320x2048_1_0_0_1_n_n.rhsIdx (ix2 j q) ((contrEquiv1 _ 128 rfl rfl).symm c) = ix2 c q := by
    funext ax; apply Fin.ext
    match ax with
    | ⟨0, _⟩ => simp [DotDims.rhsIdx, dot_S320x128_S128x2048_S320x2048_1_0_0_1_n_n]; exact c2
    | ⟨1, _⟩ => simp [DotDims.rhsIdx, dot_S320x128_S128x2048_S320x2048_1_0_0_1_n_n]; rfl
  rw [l2, r2]

/-- The two hidden blocks stacked along the rows, at `(k, q)`: the stacked columns at `k`. -/
theorem stack_ix (lh rh : FVec Ideal S64x2048 .f32) (k : Fin 128) (q : Fin 2048) :
    concatenate S128x2048 0 [⟨S64x2048, lh⟩, ⟨S64x2048, rh⟩] concatenates_S64x2048_S64x2048_S128x2048_d0 (ix2 k q)
      = stackV (colv lh q) (colv rh q) k := by
  unfold stackV
  split
  · next h =>
    exact concatenate_pair_apply_left 0 lh rh _ (ix2 k q) rfl (ix2 ⟨k.val, h⟩ q)
      (fun b => by match b with | ⟨0, _⟩ => rfl | ⟨1, _⟩ => rfl)
  · next h =>
    exact concatenate_pair_apply_right 0 lh rh _ (ix2 k q) rfl rfl (ix2 ⟨k.val - 64, by omega⟩ q)
      (fun b hb => by match b with | ⟨0, _⟩ => exact absurd rfl hb | ⟨1, _⟩ => rfl)
      (by show (k.val - 64) + 64 = k.val; omega)

/-- The bias column broadcast along the lanes, at `(j, q)`: the column's entry `j`. -/
theorem bias_ix (b : FVec Ideal S320x1 .f32) (j : Fin 320) (q : Fin 2048) :
    broadcastTo S320x2048 b broadcasts_S320x1_S320x2048 (ix2 j q) = bOf b j := by
  refine broadcastTo_apply b _ (ix2 j q) (ix2 j (0 : Fin 1)) fun ax => ?_
  match ax with
  | ⟨0, _⟩ => rfl
  | ⟨1, _⟩ => rfl

/-- A block of 64 rows cut from the 320 × 2048 block at row offset `o = 64 · g`, at `(d, q)`: row `col g d`. -/
theorem slice_ix (o : Nat) (g : Fin 5) (ho : o = 64 * g.val) (X : FVec Ideal S320x2048 .f32)
    (h : S320x2048.Slices ![o, 0] S64x2048) (d : Fin 64) (q : Fin 2048) :
    extractStridedSlice S64x2048 ![o, 0] X h (ix2 d q) = X (ix2 (col g d) q) :=
  slice2_axis0_apply o X h d q (col g d) (by subst ho; rfl)

end Cert.KernelIdeal.BodyValue

end
-- ==== Proof.BodyGates.lean ====
/-
  One cell of the kernel body read at an index, and the body's named values identified with a cell's pieces.

  The tanh block of a cell with left hidden block `lh`, right hidden block `rh`, weights `W` and bias column `b`,
  read at `(j, q)`, is the tanh of the kernel-arrangement pre-activation `wgate` of the columns `q` of `lh` and `rh`.
  A logistic gate is one half plus one half times a 64-row slice of the tanh block; the new cell block is
  `(si · tu + sfl · lc) + sfr · rc` and the new hidden block `so · tanh c`. Every statement is about one lane `q`: a
  cell's values on lane `q` are functions of its inputs' values on lane `q`.
-/
import proofs.«129490_g31301721653836_cont_9to1_2280_18_alg».proof.Proof.BodyCell

noncomputable section

namespace Cert.KernelIdeal.BodyValue

open Idealize.ShloMosaic Idealize.SL.Sem Idealize.ShloMosaic.ValueIdx
open Cert.KernelIdeal.Gen
open Cert.TreeCell (St col half stackV wgate wsig wcellC wcellH wcell wchain)
open scoped BigOperators

/-! ## The tanh block of one cell -/

/-- The 320 × 2048 tanh block of a cell: stack, contract against the weights from zero, add the bias column, tanh. -/
def cellT (lh rh : FVec Ideal S64x2048 .f32) (W : Vec Ideal S320x128 .bf16) (b : Vec Ideal S320x1 .f32) :
    FVec Ideal S320x2048 .f32 :=
  tanh (addf
    (matmul dot_S320x128_S128x2048_S320x2048_1_0_0_1_n_n none (shapeCast S320x128 W shapeCasts_S320x128_S320x128 : FVec Ideal S320x128 .bf16)
      (truncf .bf16 (concatenate S128x2048 0 [⟨S64x2048, lh⟩, ⟨S64x2048, rh⟩] concatenates_S64x2048_S64x2048_S128x2048_d0 :
        FVec Ideal S128x2048 .f32) bitsLt_bf16_f32 : FVec Ideal S128x2048 .bf16)
      (constant S320x2048 .f32 0x00000000#32))
    (broadcastTo S320x2048 (shapeCast S320x1 b shapeCasts_S320x1_S320x1 : FVec Ideal S320x1 .f32) broadcasts_S320x1_S320x2048))

/-- The tanh block at `(j, q)`, from the two hidden blocks' columns `q`. -/
theorem cellT_spec (lh rh : FVec Ideal S64x2048 .f32) (W : Vec Ideal S320x128 .bf16) (b : Vec Ideal S320x1 .f32)
    (q : Fin 2048) (lhv rhv : Fin 64 → EReal) (hl : ∀ d, lh (ix2 d q) = lhv d) (hr : ∀ d, rh (ix2 d q) = rhv d)
    (j : Fin 320) : cellT lh rh W b (ix2 j q) = Ideal.tanh (wgate (wOf W) (bOf b) lhv rhv j) := by
  have hl' : colv lh q = lhv := funext hl
  have hr' : colv rh q = rhv := funext hr
  subst hl' hr'
  unfold cellT
  rw [shapeCast_self, shapeCast_self]
  show Ideal.tanh (matmul dot_S320x128_S128x2048_S320x2048_1_0_0_1_n_n none W _
      (constant (F := Ideal) S320x2048 .f32 0x00000000#32) (ix2 j q) + broadcastTo S320x2048 b _ (ix2 j q)) = _
  rw [matmul_ix, bias_ix]
  unfold wgate
  refine congrArg Ideal.tanh (congrArg (· + bOf b j) (Finset.sum_congr rfl fun k _ => ?_))
  exact congrArg (W (ix2 j k) * ·) (stack_ix lh rh k q)

/-! ## Gates and states from the tanh block -/

section Pieces
variable (q : Fin 2048) (Wt : Fin 320 → Fin 128 → EReal) (bt : Fin 320 → EReal) (l r : St)
  (X : FVec Ideal S320x2048 .f32) (hX : ∀ j, X (ix2 j q) = Ideal.tanh (wgate Wt bt l.1 r.1 j))
include hX

/-- A 64-row slice of the tanh block at row offset `64 · g`. -/
theorem tslice_spec (o : Nat) (g : Fin 5) (ho : o = 64 * g.val) (h : S320x2048.Slices ![o, 0] S64x2048) (d : Fin 64) :
    extractStridedSlice S64x2048 ![o, 0] X h (ix2 d q) = Ideal.tanh (wgate Wt bt l.1 r.1 (col g d)) := by
  rw [slice_ix o g ho, hX]

/-- One half times such a slice. -/
theorem hslice_spec (o : Nat) (g : Fin 5) (ho : o = 64 * g.val) (h : S320x2048.Slices ![o, 0] S64x2048) (d : Fin 64) :
    mulf (broadcast S64x2048 (Scalar.ofBits (F := Ideal) .f32 0x3F000000#32)) (extractStridedSlice S64x2048 ![o, 0] X h) (ix2 d q)
      = half * Ideal.tanh (wgate Wt bt l.1 r.1 (col g d)) := by
  show half * extractStridedSlice S64x2048 ![o, 0] X h (ix2 d q) = _
  rw [tslice_spec q Wt bt l r X hX o g ho h d]

/-- A logistic gate: one half plus one half times such a slice. -/
theorem gate_spec (o : Nat) (g : Fin 5) (ho : o = 64 * g.val) (h : S320x2048.Slices ![o, 0] S64x2048) (d : Fin 64) :
    addf (broadcast S64x2048 (Scalar.ofBits (F := Ideal) .f32 0x3F000000#32))
        (mulf (broadcast S64x2048 (Scalar.ofBits (F := Ideal) .f32 0x3F000000#32)) (extractStridedSlice S64x2048 ![o, 0] X h)) (ix2 d q)
      = wsig Wt bt l.1 r.1 (col g d) := by
  show half + half * extractStridedSlice S64x2048 ![o, 0] X h (ix2 d q) = _
  rw [tslice_spec q Wt bt l r X hX o g ho h d]; rfl

/-- The new cell block: `(si · tu + sfl · lc) + sfr · rc`. -/
theorem cellC_spec (vlc vrc vsi vsfl vsfr : FVec Ideal S64x2048 .f32) (h256 : S320x2048.Slices ![256, 0] S64x2048)
    (hlc : ∀ d, vlc (ix2 d q) = l.2 d) (hrc : ∀ d, vrc (ix2 d q) = r.2 d)
    (hsi : ∀ d, vsi (ix2 d q) = wsig Wt bt l.1 r.1 (col 0 d)) (hsfl : ∀ d, vsfl (ix2 d q) = wsig Wt bt l.1 r.1 (col 1 d))
    (hsfr : ∀ d, vsfr (ix2 d q) = wsig Wt bt l.1 r.1 (col 2 d)) (d : Fin 64) :
    addf (addf (mulf vsi (extractStridedSlice S64x2048 ![256, 0] X h256)) (mulf vsfl vlc)) (mulf vsfr vrc) (ix2 d q)
      = wcellC Wt bt l r d := by
  show (vsi (ix2 d q) * extractStridedSlice S64x2048 ![256, 0] X h256 (ix2 d q) + vsfl (ix2 d q) * vlc (ix2 d q))
      + vsfr (ix2 d q) * vrc (ix2 d q) = _
  rw [tslice_spec q Wt bt l r X hX 256 4 rfl h256 d, hlc, hrc, hsi, hsfl, hsfr]; rfl

omit hX in
/-- The new hidden block: the output gate times the tanh of the new cell block. -/
theorem cellH_spec (G C : FVec Ideal S64x2048 .f32) (hG : ∀ d, G (ix2 d q) = wsig Wt bt l.1 r.1 (col 3 d))
    (hC : ∀ d, C (ix2 d q) = wcellC Wt bt l r d) (d : Fin 64) :
    mulf G (tanh C) (ix2 d q) = wcellH Wt bt l r d := by
  show G (ix2 d q) * Ideal.tanh (C (ix2 d q)) = _
  rw [hG, hC]; rfl

end Pieces

end Cert.KernelIdeal.BodyValue

end
-- ==== Proof.BodyParts.lean ====
/-
  The body's named values, one lane at a time.

  Each named value of the body is a piece of one cell: a shape cast of a loaded block, a cell's tanh block, one of its
  logistic gates, a slice of the tanh block (or one half times it) kept for the output gate, or the new cell block.
  Stated over variables for the values a piece is computed from, with what is known of those values on lane `q` as
  hypotheses: the left state `l` and right state `r` of the cell are the columns `q`, and the piece on lane `q` is
  the kernel-arrangement cell's value.
-/
import proofs.«129490_g31301721653836_cont_9to1_2280_18_alg».proof.Proof.BodyGates

noncomputable section

namespace Cert.KernelIdeal.BodyValue

open Idealize.ShloMosaic Idealize.SL.Sem Idealize.ShloMosaic.ValueIdx
open Cert.KernelIdeal.Gen
open Cert.TreeCell (St col half stackV wgate wsig wcellC wcellH wcell wchain)
open scoped BigOperators

variable (q : Fin 2048) (Wt : Fin 320 → Fin 128 → EReal) (bt : Fin 320 → EReal) (l r : St)

/-! ## Shape casts of loaded blocks -/

/-- A loaded 1 × 64 × 2048 block cast to 64 × 2048: its column. -/
theorem cast3_spec (v : Vec Ideal S1x64x2048 .f32) (d : Fin 64) :
    (shapeCast S64x2048 v shapeCasts_S1x64x2048_S64x2048 : FVec Ideal S64x2048 .f32) (ix2 d q) = colv3 v q d :=
  shapeCast_1ab_ab_apply v _ d q
/-- A loaded 64 × 2048 block cast to its own shape. -/
theorem cast2_spec (v : Vec Ideal S64x2048 .f32) (d : Fin 64) :
    (shapeCast S64x2048 v shapeCasts_S64x2048_S64x2048 : FVec Ideal S64x2048 .f32) (ix2 d q) = v (ix2 d q) :=
  congrFun (shapeCast_self v _) (ix2 d q)

theorem pay3_spec (v : Vec Ideal S1x64x2048 .f32) (d : Fin 64) : k0_pay3 v (ix2 d q) = colv3 v q d := cast3_spec q v d
theorem pay11_spec (v : Vec Ideal S1x64x2048 .f32) (d : Fin 64) : k0_pay11 v (ix2 d q) = colv3 v q d := cast3_spec q v d
theorem pay18_spec (v : Vec Ideal S1x64x2048 .f32) (d : Fin 64) : k0_pay18 v (ix2 d q) = colv3 v q d := cast3_spec q v d
theorem pay26_spec (v : Vec Ideal S1x64x2048 .f32) (d : Fin 64) : k0_pay26 v (ix2 d q) = colv3 v q d := cast3_spec q v d
theorem pay33_spec (v : Vec Ideal S1x64x2048 .f32) (d : Fin 64) : k0_pay33 v (ix2 d q) = colv3 v q d := cast3_spec q v d
theorem pay40_spec (v : Vec Ideal S1x64x2048 .f32) (d : Fin 64) : k0_pay40 v (ix2 d q) = colv3 v q d := cast3_spec q v d
theorem pay4_spec (v : Vec Ideal S64x2048 .f32) (d : Fin 64) : k0_pay4 v (ix2 d q) = v (ix2 d q) := cast2_spec q v d
theorem pay24_spec (d : Fin 64) : k0_pay24 (F := Ideal) (ix2 d q) = half := rfl

/-! ## The first cell: level 0 on the left, the new state on the right -/

section Part1
variable (v0 : Vec Ideal S1x64x2048 .f32) (v4 : Vec Ideal S64x2048 .f32) (v10 : Vec Ideal S320x128 .bf16) (v13 : Vec Ideal S320x1 .f32)

theorem pay5_spec (j : Fin 320) :
    k0_pay5 v0 v4 v10 v13 (ix2 j q) = Ideal.tanh (wgate (wOf v10) (bOf v13) (colv3 v0 q) (colv v4 q) j) :=
  cellT_spec (shapeCast S64x2048 v0 shapeCasts_S1x64x2048_S64x2048 : FVec Ideal S64x2048 .f32)
    (shapeCast S64x2048 v4 shapeCasts_S64x2048_S64x2048 : FVec Ideal S64x2048 .f32) v10 v13 q _ _
    (fun d => cast3_spec q v0 d) (fun d => cast2_spec q v4 d) j

variable (hX : ∀ j, k0_pay5 v0 v4 v10 v13 (ix2 j q) = Ideal.tanh (wgate Wt bt l.1 r.1 j))
include hX
theorem pay6_spec (d : Fin 64) : k0_pay6 v0 v4 v10 v13 (ix2 d q) = wsig Wt bt l.1 r.1 (col 0 d) :=
  gate_spec q Wt bt l r _ hX 0 0 rfl slices_S320x2048_o0_0_S64x2048 d
theorem pay7_spec (d : Fin 64) : k0_pay7 v0 v4 v10 v13 (ix2 d q) = wsig Wt bt l.1 r.1 (col 1 d) :=
  gate_spec q Wt bt l r _ hX 64 1 rfl slices_S320x2048_o64_0_S64x2048 d
theorem pay8_spec (d : Fin 64) : k0_pay8 v0 v4 v10 v13 (ix2 d q) = wsig Wt bt l.1 r.1 (col 2 d) :=
  gate_spec q Wt bt l r _ hX 128 2 rfl slices_S320x2048_o128_0_S64x2048 d
theorem pay9_spec (d : Fin 64) : k0_pay9 v0 v4 v10 v13 (ix2 d q) = half * Ideal.tanh (wgate Wt bt l.1 r.1 (col 3 d)) :=
  hslice_spec q Wt bt l r _ hX 192 3 rfl slices_S320x2048_o192_0_S64x2048 d
end Part1

/-! ## Part 2: the cell block of cell 1, and cell 2 (left: cell 1's state; right: the next level) -/

section Part2
variable (vlc vrc : FVec Ideal S64x2048 .f32) (X : FVec Ideal S320x2048 .f32) (vsi vsfl vsfr : FVec Ideal S64x2048 .f32)
  (e : FVec Ideal S64x2048 .f32) (cst : Ideal .f32) (vR : Vec Ideal S1x64x2048 .f32) (W : Vec Ideal S320x128 .bf16) (b : Vec Ideal S320x1 .f32)

section
variable (hX : ∀ j, X (ix2 j q) = Ideal.tanh (wgate Wt bt l.1 r.1 j))
  (hlc : ∀ d, vlc (ix2 d q) = l.2 d) (hrc : ∀ d, vrc (ix2 d q) = r.2 d)
  (hsi : ∀ d, vsi (ix2 d q) = wsig Wt bt l.1 r.1 (col 0 d)) (hsfl : ∀ d, vsfl (ix2 d q) = wsig Wt bt l.1 r.1 (col 1 d))
  (hsfr : ∀ d, vsfr (ix2 d q) = wsig Wt bt l.1 r.1 (col 2 d))
include hX hlc hrc hsi hsfl hsfr

/-- Cell 1's new cell block. -/
theorem pay10_spec (d : Fin 64) : k0_pay10 vlc vrc X vsi vsfl vsfr (ix2 d q) = wcellC Wt bt l r d :=
  cellC_spec q Wt bt l r X hX vlc vrc vsi vsfl vsfr _ hlc hrc hsi hsfl hsfr d

/-- Cell 2's tanh block: its left hidden block is cell 1's new hidden block. -/
theorem pay12_spec (hcst : cst = half) (hso : ∀ d, e (ix2 d q) = half * Ideal.tanh (wgate Wt bt l.1 r.1 (col 3 d))) (j : Fin 320) :
    k0_pay12 vlc vrc X vsi vsfl vsfr e cst vR W b (ix2 j q) = Ideal.tanh (wgate (wOf W) (bOf b) (wcellH Wt bt l r) (colv3 vR q) j) :=
  cellT_spec (mulf (addf (broadcast S64x2048 cst) e) (tanh (k0_pay10 vlc vrc X vsi vsfl vsfr)) : FVec Ideal S64x2048 .f32)
    (shapeCast S64x2048 vR shapeCasts_S1x64x2048_S64x2048 : FVec Ideal S64x2048 .f32) W b q _ _
    (fun d => cellH_spec q Wt bt l r _ _
      (fun d => by show cst + e (ix2 d q) = _; rw [hcst, hso]; rfl)
      (pay10_spec q Wt bt l r vlc vrc X vsi vsfl vsfr hX hlc hrc hsi hsfl hsfr) d)
    (fun d => cast3_spec q vR d) j
end

/-! Cell 2's gates, from its tanh block (over any weights and states the block is known for). -/
section
variable (Wt' : Fin 320 → Fin 128 → EReal) (bt' : Fin 320 → EReal) (l' r' : St)
  (hX' : ∀ j, k0_pay12 vlc vrc X vsi vsfl vsfr e cst vR W b (ix2 j q) = Ideal.tanh (wgate Wt' bt' l'.1 r'.1 j))
include hX'
theorem pay13_spec (d : Fin 64) : k0_pay13 vlc vrc X vsi vsfl vsfr e cst vR W b (ix2 d q) = wsig Wt' bt' l'.1 r'.1 (col 0 d) :=
  gate_spec q Wt' bt' l' r' _ hX' 0 0 rfl slices_S320x2048_o0_0_S64x2048 d
theorem pay14_spec (d : Fin 64) : k0_pay14 vlc vrc X vsi vsfl vsfr e cst vR W b (ix2 d q) = wsig Wt' bt' l'.1 r'.1 (col 1 d) :=
  gate_spec q Wt' bt' l' r' _ hX' 64 1 rfl slices_S320x2048_o64_0_S64x2048 d
theorem pay15_spec (d : Fin 64) : k0_pay15 vlc vrc X vsi vsfl vsfr e cst vR W b (ix2 d q) = wsig Wt' bt' l'.1 r'.1 (col 2 d) :=
  gate_spec q Wt' bt' l' r' _ hX' 128 2 rfl slices_S320x2048_o128_0_S64x2048 d
theorem pay16_spec (d : Fin 64) : k0_pay16 vlc vrc X vsi vsfl vsfr e cst vR W b (ix2 d q) = half * Ideal.tanh (wgate Wt' bt' l'.1 r'.1 (col 3 d)) :=
  hslice_spec q Wt' bt' l' r' _ hX' 192 3 rfl slices_S320x2048_o192_0_S64x2048 d
end
end Part2

/-! ## Part 3: the cell block of cell 2, and cell 3 (left: cell 2's state; right: the next level) -/

section Part3
variable (vlc vrc : FVec Ideal S64x2048 .f32) (X : FVec Ideal S320x2048 .f32) (vsi vsfl vsfr : FVec Ideal S64x2048 .f32)
  (e : FVec Ideal S64x2048 .f32) (vR : Vec Ideal S1x64x2048 .f32) (W : Vec Ideal S320x128 .bf16) (b : Vec Ideal S320x1 .f32)

section
variable (hX : ∀ j, X (ix2 j q) = Ideal.tanh (wgate Wt bt l.1 r.1 j))
  (hlc : ∀ d, vlc (ix2 d q) = l.2 d) (hrc : ∀ d, vrc (ix2 d q) = r.2 d)
  (hsi : ∀ d, vsi (ix2 d q) = wsig Wt bt l.1 r.1 (col 0 d)) (hsfl : ∀ d, vsfl (ix2 d q) = wsig Wt bt l.1 r.1 (col 1 d))
  (hsfr : ∀ d, vsfr (ix2 d q) = wsig Wt bt l.1 r.1 (col 2 d))
include hX hlc hrc hsi hsfl hsfr

/-- Cell 2's new cell block. -/
theorem pay17_spec (d : Fin 64) : k0_pay17 vlc vrc X vsi vsfl vsfr (ix2 d q) = wcellC Wt bt l r d :=
  cellC_spec q Wt bt l r X hX vlc vrc vsi vsfl vsfr _ hlc hrc hsi hsfl hsfr d

/-- Cell 3's tanh block: its left hidden block is cell 2's new hidden block. -/
theorem pay19_spec (hso : ∀ d, e (ix2 d q) = half * Ideal.tanh (wgate Wt bt l.1 r.1 (col 3 d))) (j : Fin 320) :
    k0_pay19 vlc vrc X vsi vsfl vsfr e vR W b (ix2 j q) = Ideal.tanh (wgate (wOf W) (bOf b) (wcellH Wt bt l r) (colv3 vR q) j) :=
  cellT_spec (mulf (addf (broadcast S64x2048 (Scalar.ofBits (F := Ideal) .f32 0x3F000000#32)) e) (tanh (k0_pay17 vlc vrc X vsi vsfl vsfr)) : FVec Ideal S64x2048 .f32)
    (shapeCast S64x2048 vR shapeCasts_S1x64x2048_S64x2048 : FVec Ideal S64x2048 .f32) W b q _ _
    (fun d => cellH_spec q Wt bt l r _ _
      (fun d => by show half + e (ix2 d q) = _; rw [hso]; rfl)
      (pay17_spec q Wt bt l r vlc vrc X vsi vsfl vsfr hX hlc hrc hsi hsfl hsfr) d)
    (fun d => cast3_spec q vR d) j
end

/-! Cell 3's gates, from its tanh block (over any weights and states the block is known for). -/
section
variable (Wt' : Fin 320 → Fin 128 → EReal) (bt' : Fin 320 → EReal) (l' r' : St)
  (hX' : ∀ j, k0_pay19 vlc vrc X vsi vsfl vsfr e vR W b (ix2 j q) = Ideal.tanh (wgate Wt' bt' l'.1 r'.1 j))
include hX'
theorem pay20_spec (d : Fin 64) : k0_pay20 vlc vrc X vsi vsfl vsfr e vR W b (ix2 d q) = wsig Wt' bt' l'.1 r'.1 (col 0 d) :=
  gate_spec q Wt' bt' l' r' _ hX' 0 0 rfl slices_S320x2048_o0_0_S64x2048 d
theorem pay21_spec (d : Fin 64) : k0_pay21 vlc vrc X vsi vsfl vsfr e vR W b (ix2 d q) = wsig Wt' bt' l'.1 r'.1 (col 1 d) :=
  gate_spec q Wt' bt' l' r' _ hX' 64 1 rfl slices_S320x2048_o64_0_S64x2048 d
theorem pay22_spec (d : Fin 64) : k0_pay22 vlc vrc X vsi vsfl vsfr e vR W b (ix2 d q) = wsig Wt' bt' l'.1 r'.1 (col 2 d) :=
  gate_spec q Wt' bt' l' r' _ hX' 128 2 rfl slices_S320x2048_o128_0_S64x2048 d
theorem pay23_spec (d : Fin 64) : k0_pay23 vlc vrc X vsi vsfl vsfr e vR W b (ix2 d q) = Ideal.tanh (wgate Wt' bt' l'.1 r'.1 (col 3 d)) :=
  tslice_spec q Wt' bt' l' r' _ hX' 192 3 rfl slices_S320x2048_o192_0_S64x2048 d
end
end Part3

/-! ## Part 4: the cell block of cell 3, and cell 4 (left: cell 3's state; right: the next level) -/

section Part4
variable (vlc vrc : FVec Ideal S64x2048 .f32) (X : FVec Ideal S320x2048 .f32) (vsi vsfl vsfr : FVec Ideal S64x2048 .f32)
  (e e2 : FVec Ideal S64x2048 .f32) (vR : Vec Ideal S1x64x2048 .f32) (W : Vec Ideal S320x128 .bf16) (b : Vec Ideal S320x1 .f32)

section
variable (hX : ∀ j, X (ix2 j q) = Ideal.tanh (wgate Wt bt l.1 r.1 j))
  (hlc : ∀ d, vlc (ix2 d q) = l.2 d) (hrc : ∀ d, vrc (ix2 d q) = r.2 d)
  (hsi : ∀ d, vsi (ix2 d q) = wsig Wt bt l.1 r.1 (col 0 d)) (hsfl : ∀ d, vsfl (ix2 d q) = wsig Wt bt l.1 r.1 (col 1 d))
  (hsfr : ∀ d, vsfr (ix2 d q) = wsig Wt bt l.1 r.1 (col 2 d))
include hX hlc hrc hsi hsfl hsfr

/-- Cell 3's new cell block. -/
theorem pay25_spec (d : Fin 64) : k0_pay25 vlc vrc X vsi vsfl vsfr (ix2 d q) = wcellC Wt bt l r d :=
  cellC_spec q Wt bt l r X hX vlc vrc vsi vsfl vsfr _ hlc hrc hsi hsfl hsfr d

/-- Cell 4's tanh block: its left hidden block is cell 3's new hidden block. -/
theorem pay27_spec (he2 : ∀ d, e2 (ix2 d q) = half) (hso : ∀ d, e (ix2 d q) = Ideal.tanh (wgate Wt bt l.1 r.1 (col 3 d))) (j : Fin 320) :
    k0_pay27 vlc vrc X vsi vsfl vsfr e e2 vR W b (ix2 j q) = Ideal.tanh (wgate (wOf W) (bOf b) (wcellH Wt bt l r) (colv3 vR q) j) :=
  cellT_spec (mulf (addf (broadcast S64x2048 (Scalar.ofBits (F := Ideal) .f32 0x3F000000#32)) (mulf e2 e)) (tanh (k0_pay25 vlc vrc X vsi vsfl vsfr)) : FVec Ideal S64x2048 .f32)
    (shapeCast S64x2048 vR shapeCasts_S1x64x2048_S64x2048 : FVec Ideal S64x2048 .f32) W b q _ _
    (fun d => cellH_spec q Wt bt l r _ _
      (fun d => by show half + e2 (ix2 d q) * e (ix2 d q) = _; rw [he2, hso]; rfl)
      (pay25_spec q Wt bt l r vlc vrc X vsi vsfl vsfr hX hlc hrc hsi hsfl hsfr) d)
    (fun d => cast3_spec q vR d) j
end

/-! Cell 4's gates, from its tanh block (over any weights and states the block is known for). -/
section
variable (Wt' : Fin 320 → Fin 128 → EReal) (bt' : Fin 320 → EReal) (l' r' : St)
  (hX' : ∀ j, k0_pay27 vlc vrc X vsi vsfl vsfr e e2 vR W b (ix2 j q) = Ideal.tanh (wgate Wt' bt' l'.1 r'.1 j))
include hX'
theorem pay28_spec (d : Fin 64) : k0_pay28 vlc vrc X vsi vsfl vsfr e e2 vR W b (ix2 d q) = wsig Wt' bt' l'.1 r'.1 (col 0 d) :=
  gate_spec q Wt' bt' l' r' _ hX' 0 0 rfl slices_S320x2048_o0_0_S64x2048 d
theorem pay29_spec (d : Fin 64) : k0_pay29 vlc vrc X vsi vsfl vsfr e e2 vR W b (ix2 d q) = wsig Wt' bt' l'.1 r'.1 (col 1 d) :=
  gate_spec q Wt' bt' l' r' _ hX' 64 1 rfl slices_S320x2048_o64_0_S64x2048 d
theorem pay30_spec (d : Fin 64) : k0_pay30 vlc vrc X vsi vsfl vsfr e e2 vR W b (ix2 d q) = wsig Wt' bt' l'.1 r'.1 (col 2 d) :=
  gate_spec q Wt' bt' l' r' _ hX' 128 2 rfl slices_S320x2048_o128_0_S64x2048 d
theorem pay31_spec (d : Fin 64) : k0_pay31 vlc vrc X vsi vsfl vsfr e e2 vR W b (ix2 d q) = Ideal.tanh (wgate Wt' bt' l'.1 r'.1 (col 3 d)) :=
  tslice_spec q Wt' bt' l' r' _ hX' 192 3 rfl slices_S320x2048_o192_0_S64x2048 d
end
end Part4

/-! ## Part 5: the cell block of cell 4, and cell 5 (left: cell 4's state; right: the next level) -/

section Part5
variable (vlc vrc : FVec Ideal S64x2048 .f32) (X : FVec Ideal S320x2048 .f32) (vsi vsfl vsfr : FVec Ideal S64x2048 .f32)
  (e : FVec Ideal S64x2048 .f32) (cst : Ideal .f32) (vR : Vec Ideal S1x64x2048 .f32) (W : Vec Ideal S320x128 .bf16) (b : Vec Ideal S320x1 .f32)

section
variable (hX : ∀ j, X (ix2 j q) = Ideal.tanh (wgate Wt bt l.1 r.1 j))
  (hlc : ∀ d, vlc (ix2 d q) = l.2 d) (hrc : ∀ d, vrc (ix2 d q) = r.2 d)
  (hsi : ∀ d, vsi (ix2 d q) = wsig Wt bt l.1 r.1 (col 0 d)) (hsfl : ∀ d, vsfl (ix2 d q) = wsig Wt bt l.1 r.1 (col 1 d))
  (hsfr : ∀ d, vsfr (ix2 d q) = wsig Wt bt l.1 r.1 (col 2 d))
include hX hlc hrc hsi hsfl hsfr

/-- Cell 4's new cell block. -/
theorem pay32_spec (d : Fin 64) : k0_pay32 vlc vrc X vsi vsfl vsfr (ix2 d q) = wcellC Wt bt l r d :=
  cellC_spec q Wt bt l r X hX vlc vrc vsi vsfl vsfr _ hlc hrc hsi hsfl hsfr d

/-- Cell 5's tanh block: its left hidden block is cell 4's new hidden block. -/
theorem pay34_spec (hcst : cst = half) (hso : ∀ d, e (ix2 d q) = Ideal.tanh (wgate Wt bt l.1 r.1 (col 3 d))) (j : Fin 320) :
    k0_pay34 vlc vrc X vsi vsfl vsfr e cst vR W b (ix2 j q) = Ideal.tanh (wgate (wOf W) (bOf b) (wcellH Wt bt l r) (colv3 vR q) j) :=
  cellT_spec (mulf (addf (broadcast S64x2048 (Scalar.ofBits (F := Ideal) .f32 0x3F000000#32)) (mulf (broadcast S64x2048 cst) e)) (tanh (k0_pay32 vlc vrc X vsi vsfl vsfr)) : FVec Ideal S64x2048 .f32)
    (shapeCast S64x2048 vR shapeCasts_S1x64x2048_S64x2048 : FVec Ideal S64x2048 .f32) W b q _ _
    (fun d => cellH_spec q Wt bt l r _ _
      (fun d => by show half + cst * e (ix2 d q) = _; rw [hcst, hso]; rfl)
      (pay32_spec q Wt bt l r vlc vrc X vsi vsfl vsfr hX hlc hrc hsi hsfl hsfr) d)
    (fun d => cast3_spec q vR d) j
end

/-! Cell 5's gates, from its tanh block (over any weights and states the block is known for). -/
section
variable (Wt' : Fin 320 → Fin 128 → EReal) (bt' : Fin 320 → EReal) (l' r' : St)
  (hX' : ∀ j, k0_pay34 vlc vrc X vsi vsfl vsfr e cst vR W b (ix2 j q) = Ideal.tanh (wgate Wt' bt' l'.1 r'.1 j))
include hX'
theorem pay35_spec (d : Fin 64) : k0_pay35 vlc vrc X vsi vsfl vsfr e cst vR W b (ix2 d q) = wsig Wt' bt' l'.1 r'.1 (col 0 d) :=
  gate_spec q Wt' bt' l' r' _ hX' 0 0 rfl slices_S320x2048_o0_0_S64x2048 d
theorem pay36_spec (d : Fin 64) : k0_pay36 vlc vrc X vsi vsfl vsfr e cst vR W b (ix2 d q) = wsig Wt' bt' l'.1 r'.1 (col 1 d) :=
  gate_spec q Wt' bt' l' r' _ hX' 64 1 rfl slices_S320x2048_o64_0_S64x2048 d
theorem pay37_spec (d : Fin 64) : k0_pay37 vlc vrc X vsi vsfl vsfr e cst vR W b (ix2 d q) = wsig Wt' bt' l'.1 r'.1 (col 2 d) :=
  gate_spec q Wt' bt' l' r' _ hX' 128 2 rfl slices_S320x2048_o128_0_S64x2048 d
theorem pay38_spec (d : Fin 64) : k0_pay38 vlc vrc X vsi vsfl vsfr e cst vR W b (ix2 d q) = Ideal.tanh (wgate Wt' bt' l'.1 r'.1 (col 3 d)) :=
  tslice_spec q Wt' bt' l' r' _ hX' 192 3 rfl slices_S320x2048_o192_0_S64x2048 d
end
end Part5

/-! ## Part 6: the cell block of cell 5, and cell 6 (left: cell 5's state; right: the next level) -/

section Part6
variable (vlc vrc : FVec Ideal S64x2048 .f32) (X : FVec Ideal S320x2048 .f32) (vsi vsfl vsfr : FVec Ideal S64x2048 .f32)
  (e : FVec Ideal S64x2048 .f32) (vR : Vec Ideal S1x64x2048 .f32) (W : Vec Ideal S320x128 .bf16) (b : Vec Ideal S320x1 .f32)

section
variable (hX : ∀ j, X (ix2 j q) = Ideal.tanh (wgate Wt bt l.1 r.1 j))
  (hlc : ∀ d, vlc (ix2 d q) = l.2 d) (hrc : ∀ d, vrc (ix2 d q) = r.2 d)
  (hsi : ∀ d, vsi (ix2 d q) = wsig Wt bt l.1 r.1 (col 0 d)) (hsfl : ∀ d, vsfl (ix2 d q) = wsig Wt bt l.1 r.1 (col 1 d))
  (hsfr : ∀ d, vsfr (ix2 d q) = wsig Wt bt l.1 r.1 (col 2 d))
include hX hlc hrc hsi hsfl hsfr

/-- Cell 5's new cell block. -/
theorem pay39_spec (d : Fin 64) : k0_pay39 vlc vrc X vsi vsfl vsfr (ix2 d q) = wcellC Wt bt l r d :=
  cellC_spec q Wt bt l r X hX vlc vrc vsi vsfl vsfr _ hlc hrc hsi hsfl hsfr d

/-- Cell 6's tanh block: its left hidden block is cell 5's new hidden block. -/
theorem pay41_spec (hso : ∀ d, e (ix2 d q) = Ideal.tanh (wgate Wt bt l.1 r.1 (col 3 d))) (j : Fin 320) :
    k0_pay41 vlc vrc X vsi vsfl vsfr e vR W b (ix2 j q) = Ideal.tanh (wgate (wOf W) (bOf b) (wcellH Wt bt l r) (colv3 vR q) j) :=
  cellT_spec (mulf (addf (broadcast S64x2048 (Scalar.ofBits (F := Ideal) .f32 0x3F000000#32)) (mulf (broadcast S64x2048 (Scalar.ofBits (F := Ideal) .f32 0x3F000000#32)) e)) (tanh (k0_pay39 vlc vrc X vsi vsfl vsfr)) : FVec Ideal S64x2048 .f32)
    (shapeCast S64x2048 vR shapeCasts_S1x64x2048_S64x2048 : FVec Ideal S64x2048 .f32) W b q _ _
    (fun d => cellH_spec q Wt bt l r _ _
      (fun d => by show half + half * e (ix2 d q) = _; rw [hso]; rfl)
      (pay39_spec q Wt bt l r vlc vrc X vsi vsfl vsfr hX hlc hrc hsi hsfl hsfr) d)
    (fun d => cast3_spec q vR d) j
end

/-! Cell 6's gates, from its tanh block (over any weights and states the block is known for). -/
section
variable (Wt' : Fin 320 → Fin 128 → EReal) (bt' : Fin 320 → EReal) (l' r' : St)
  (hX' : ∀ j, k0_pay41 vlc vrc X vsi vsfl vsfr e vR W b (ix2 j q) = Ideal.tanh (wgate Wt' bt' l'.1 r'.1 j))
include hX'
theorem pay42_spec (d : Fin 64) : k0_pay42 vlc vrc X vsi vsfl vsfr e vR W b (ix2 d q) = wsig Wt' bt' l'.1 r'.1 (col 0 d) :=
  gate_spec q Wt' bt' l' r' _ hX' 0 0 rfl slices_S320x2048_o0_0_S64x2048 d
theorem pay43_spec (d : Fin 64) : k0_pay43 vlc vrc X vsi vsfl vsfr e vR W b (ix2 d q) = wsig Wt' bt' l'.1 r'.1 (col 1 d) :=
  gate_spec q Wt' bt' l' r' _ hX' 64 1 rfl slices_S320x2048_o64_0_S64x2048 d
theorem pay44_spec (d : Fin 64) : k0_pay44 vlc vrc X vsi vsfl vsfr e vR W b (ix2 d q) = wsig Wt' bt' l'.1 r'.1 (col 2 d) :=
  gate_spec q Wt' bt' l' r' _ hX' 128 2 rfl slices_S320x2048_o128_0_S64x2048 d

end
end Part6

/-! ## The two stored blocks: cell 6's new cell block and new hidden block -/

section Final
variable (vlc vrc : FVec Ideal S64x2048 .f32) (X : FVec Ideal S320x2048 .f32) (vsi vsfl vsfr : FVec Ideal S64x2048 .f32)
  (hX : ∀ j, X (ix2 j q) = Ideal.tanh (wgate Wt bt l.1 r.1 j))
  (hlc : ∀ d, vlc (ix2 d q) = l.2 d) (hrc : ∀ d, vrc (ix2 d q) = r.2 d)
  (hsi : ∀ d, vsi (ix2 d q) = wsig Wt bt l.1 r.1 (col 0 d)) (hsfl : ∀ d, vsfl (ix2 d q) = wsig Wt bt l.1 r.1 (col 1 d))
  (hsfr : ∀ d, vsfr (ix2 d q) = wsig Wt bt l.1 r.1 (col 2 d))
include hX hlc hrc hsi hsfl hsfr

theorem pay1_spec (d : Fin 64) : k0_pay1 vlc vrc X vsi vsfl vsfr (ix2 d q) = wcellC Wt bt l r d :=
  cellC_spec q Wt bt l r X hX vlc vrc vsi vsfl vsfr _ hlc hrc hsi hsfl hsfr d

theorem pay2_spec (d : Fin 64) : k0_pay2 vlc vrc X vsi vsfl vsfr (ix2 d q) = wcellH Wt bt l r d := by
  refine cellH_spec q Wt bt l r _ (k0_pay1 vlc vrc X vsi vsfl vsfr) (fun d => ?_)
    (pay1_spec q Wt bt l r vlc vrc X vsi vsfl vsfr hX hlc hrc hsi hsfl hsfr) d
  exact gate_spec q Wt bt l r X hX 192 3 rfl slices_S320x2048_o192_0_S64x2048 d
end Final

end Cert.KernelIdeal.BodyValue

end
-- ==== Proof.BodyValue.lean ====
/-
  The two blocks the kernel body stores, read at an index: the chain of six cells, in the kernel's arrangement, of the
  columns of the blocks it loads.

  On lane `q` the new state is the column `q` of the two 64 × 2048 blocks, level `p`'s state the column `q` of the
  hidden and cell blocks of that level (levels 0, 2, 3, 5, 6, 7 are loaded; levels 1 and 4 are not read and stand as
  the zero state). The first cell joins level 0 (left) with the new state (right) under the merge weights; each later
  cell joins the running state (left) with the next level (right) under the summary weights. Walking the body's named
  values in order, each cell's tanh block, gates and new cell block on lane `q` are the kernel-arrangement cell's.
-/
import proofs.«129490_g31301721653836_cont_9to1_2280_18_alg».proof.Proof.BodyParts

noncomputable section

namespace Cert.KernelIdeal.BodyValue

open Idealize.ShloMosaic Idealize.SL.Sem Idealize.ShloMosaic.ValueIdx
open Cert.KernelIdeal.Gen
open Cert.TreeCell (St col half stackV wgate wsig wcellC wcellH wcell wchain)
open scoped BigOperators

/-- The state on lane `q` of a hidden block and a cell block, 64 × 2048 each. -/
def colSt (h c : Vec Ideal S64x2048 .f32) (q : Fin 2048) : St := (fun d => h (ix2 d q), fun d => c (ix2 d q))
/-- The state on lane `q` of a hidden block and a cell block, 1 × 64 × 2048 each. -/
def colSt3 (h c : Vec Ideal S1x64x2048 .f32) (q : Fin 2048) : St :=
  (fun d => h (ix3 (0 : Fin 1) d q), fun d => c (ix3 (0 : Fin 1) d q))
/-- The zero state. -/
def zeroSt : St := (fun _ => 0, fun _ => 0)
/-- The eight levels' states on lane `q`: levels 0, 2, 3, 5, 6, 7 from the six hidden blocks `x3 … x8` and the six cell
    blocks `x9 … x14`; levels 1 and 4, which the chain does not read, the zero state. -/
def levOf (x3 x4 x5 x6 x7 x8 x9 x10 x11 x12 x13 x14 : Vec Ideal S1x64x2048 .f32) (q : Fin 2048) : Fin 8 → St
  | 0 => colSt3 x3 x9 q
  | 1 => zeroSt
  | 2 => colSt3 x4 x10 q
  | 3 => colSt3 x5 x11 q
  | 4 => zeroSt
  | 5 => colSt3 x6 x12 q
  | 6 => colSt3 x7 x13 q
  | 7 => colSt3 x8 x14 q

/-- What the last cell needs of the values the body has named before its two stores, on lane `q`: the tanh block of a
    cell with left state `l` and right state `r`, the two cell columns, and the first three gates. -/
structure TailFacts (q : Fin 2048) (Wt : Fin 320 → Fin 128 → EReal) (bt : Fin 320 → EReal) (l r : St) (T : Tail Ideal) : Prop where
  hX : ∀ j, T.v227 (ix2 j q) = Ideal.tanh (wgate Wt bt l.1 r.1 j)
  hlc : ∀ d, T.v211 (ix2 d q) = l.2 d
  hrc : ∀ d, T.v217 (ix2 d q) = r.2 d
  hsi : ∀ d, T.v232 (ix2 d q) = wsig Wt bt l.1 r.1 (col 0 d)
  hsfl : ∀ d, T.v237 (ix2 d q) = wsig Wt bt l.1 r.1 (col 1 d)
  hsfr : ∀ d, T.v242 (ix2 d q) = wsig Wt bt l.1 r.1 (col 2 d)

/-- The first five cells, and the sixth cell's tanh block and gates, on lane `q`. -/
theorem tail_spec (x1 x2 : Vec Ideal S64x2048 .f32) (x3 x4 x5 x6 x7 x8 x9 x10 x11 x12 x13 x14 : Vec Ideal S1x64x2048 .f32)
    (x15 : Vec Ideal S320x128 .bf16) (x16 : Vec Ideal S320x1 .f32) (x17 : Vec Ideal S320x128 .bf16) (x18 : Vec Ideal S320x1 .f32) (q : Fin 2048) :
    TailFacts q (wOf x17) (bOf x18)
      (wcell (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6))
      (levOf x3 x4 x5 x6 x7 x8 x9 x10 x11 x12 x13 x14 q 7)
      (bodyTail x1 x2 x3 x4 x5 x6 x7 x8 x9 x10 x11 x12 x13 x14 x15 x16 x17 x18) := by
  unfold bodyTail
  extract_lets cst20 v3 v7 v17 v22 v27 v32 v35 v43 v49 v59 v64 v69 v74 v77 v85 v91 v101 v106 v111 v116 v117 v118
    v127 v133 v143 v148 v153 v158 v159 v169 v175 v185 v190 v195 v200 v201
  -- cell 1: level 0 on the left, the new state on the right, merge weights
  have h17 : ∀ j, v17 (ix2 j q) = Ideal.tanh (wgate (wOf x15) (bOf x16) (levOf x3 x4 x5 x6 x7 x8 x9 x10 x11 x12 x13 x14 q 0).1 (colSt x1 x2 q).1 j) := pay5_spec q x3 x1 x15 x16
  have h3 : ∀ d, v3 (ix2 d q) = (levOf x3 x4 x5 x6 x7 x8 x9 x10 x11 x12 x13 x14 q 0).2 d := pay3_spec q x9
  have h7 : ∀ d, v7 (ix2 d q) = (colSt x1 x2 q).2 d := pay4_spec q x2
  have h22 : ∀ d, v22 (ix2 d q) = wsig (wOf x15) (bOf x16) (levOf x3 x4 x5 x6 x7 x8 x9 x10 x11 x12 x13 x14 q 0).1 (colSt x1 x2 q).1 (col 0 d) := pay6_spec q (wOf x15) (bOf x16) (levOf x3 x4 x5 x6 x7 x8 x9 x10 x11 x12 x13 x14 q 0) (colSt x1 x2 q) x3 x1 x15 x16 h17
  have h27 : ∀ d, v27 (ix2 d q) = wsig (wOf x15) (bOf x16) (levOf x3 x4 x5 x6 x7 x8 x9 x10 x11 x12 x13 x14 q 0).1 (colSt x1 x2 q).1 (col 1 d) := pay7_spec q (wOf x15) (bOf x16) (levOf x3 x4 x5 x6 x7 x8 x9 x10 x11 x12 x13 x14 q 0) (colSt x1 x2 q) x3 x1 x15 x16 h17
  have h32 : ∀ d, v32 (ix2 d q) = wsig (wOf x15) (bOf x16) (levOf x3 x4 x5 x6 x7 x8 x9 x10 x11 x12 x13 x14 q 0).1 (colSt x1 x2 q).1 (col 2 d) := pay8_spec q (wOf x15) (bOf x16) (levOf x3 x4 x5 x6 x7 x8 x9 x10 x11 x12 x13 x14 q 0) (colSt x1 x2 q) x3 x1 x15 x16 h17
  have h35 : ∀ d, v35 (ix2 d q) = half * Ideal.tanh (wgate (wOf x15) (bOf x16) (levOf x3 x4 x5 x6 x7 x8 x9 x10 x11 x12 x13 x14 q 0).1 (colSt x1 x2 q).1 (col 3 d)) :=
    pay9_spec q (wOf x15) (bOf x16) (levOf x3 x4 x5 x6 x7 x8 x9 x10 x11 x12 x13 x14 q 0) (colSt x1 x2 q) x3 x1 x15 x16 h17
  -- cell 2: cell 1's state on the left, the next level on the right, summary weights
  have h43 : ∀ d, v43 (ix2 d q) = (wcell (wOf x15) (bOf x16) (levOf x3 x4 x5 x6 x7 x8 x9 x10 x11 x12 x13 x14 q 0) (colSt x1 x2 q)).2 d :=
    pay10_spec q (wOf x15) (bOf x16) (levOf x3 x4 x5 x6 x7 x8 x9 x10 x11 x12 x13 x14 q 0) (colSt x1 x2 q) v3 v7 v17 v22 v27 v32 h17 h3 h7 h22 h27 h32
  have h49 : ∀ d, v49 (ix2 d q) = (levOf x3 x4 x5 x6 x7 x8 x9 x10 x11 x12 x13 x14 q 2).2 d := pay11_spec q x10
  have h59 : ∀ j, v59 (ix2 j q) = Ideal.tanh (wgate (wOf x17) (bOf x18) (wcell (wOf x15) (bOf x16) (levOf x3 x4 x5 x6 x7 x8 x9 x10 x11 x12 x13 x14 q 0) (colSt x1 x2 q)).1 (levOf x3 x4 x5 x6 x7 x8 x9 x10 x11 x12 x13 x14 q 2).1 j) :=
    pay12_spec q (wOf x15) (bOf x16) (levOf x3 x4 x5 x6 x7 x8 x9 x10 x11 x12 x13 x14 q 0) (colSt x1 x2 q) v3 v7 v17 v22 v27 v32 v35 _ x4 x17 x18 h17 h3 h7 h22 h27 h32 rfl h35
  have h64 : ∀ d, v64 (ix2 d q) = wsig (wOf x17) (bOf x18) (wcell (wOf x15) (bOf x16) (levOf x3 x4 x5 x6 x7 x8 x9 x10 x11 x12 x13 x14 q 0) (colSt x1 x2 q)).1 (levOf x3 x4 x5 x6 x7 x8 x9 x10 x11 x12 x13 x14 q 2).1 (col 0 d) :=
    pay13_spec q v3 v7 v17 v22 v27 v32 v35 _ x4 x17 x18 (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2) h59
  have h69 : ∀ d, v69 (ix2 d q) = wsig (wOf x17) (bOf x18) (wcell (wOf x15) (bOf x16) (levOf x3 x4 x5 x6 x7 x8 x9 x10 x11 x12 x13 x14 q 0) (colSt x1 x2 q)).1 (levOf x3 x4 x5 x6 x7 x8 x9 x10 x11 x12 x13 x14 q 2).1 (col 1 d) :=
    pay14_spec q v3 v7 v17 v22 v27 v32 v35 _ x4 x17 x18 (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2) h59
  have h74 : ∀ d, v74 (ix2 d q) = wsig (wOf x17) (bOf x18) (wcell (wOf x15) (bOf x16) (levOf x3 x4 x5 x6 x7 x8 x9 x10 x11 x12 x13 x14 q 0) (colSt x1 x2 q)).1 (levOf x3 x4 x5 x6 x7 x8 x9 x10 x11 x12 x13 x14 q 2).1 (col 2 d) :=
    pay15_spec q v3 v7 v17 v22 v27 v32 v35 _ x4 x17 x18 (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2) h59
  have h77 : ∀ d, v77 (ix2 d q) = half * Ideal.tanh (wgate (wOf x17) (bOf x18) (wcell (wOf x15) (bOf x16) (levOf x3 x4 x5 x6 x7 x8 x9 x10 x11 x12 x13 x14 q 0) (colSt x1 x2 q)).1 (levOf x3 x4 x5 x6 x7 x8 x9 x10 x11 x12 x13 x14 q 2).1 (col 3 d)) :=
    pay16_spec q v3 v7 v17 v22 v27 v32 v35 _ x4 x17 x18 (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2) h59
  -- cell 3: cell 2's state on the left, the next level on the right, summary weights
  have h85 : ∀ d, v85 (ix2 d q) = (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)).2 d :=
    pay17_spec q (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2) v43 v49 v59 v64 v69 v74 h59 h43 h49 h64 h69 h74
  have h91 : ∀ d, v91 (ix2 d q) = (levOf x3 x4 x5 x6 x7 x8 x9 x10 x11 x12 x13 x14 q 3).2 d := pay18_spec q x11
  have h101 : ∀ j, v101 (ix2 j q) = Ideal.tanh (wgate (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)).1 (levOf x3 x4 x5 x6 x7 x8 x9 x10 x11 x12 x13 x14 q 3).1 j) :=
    pay19_spec q (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2) v43 v49 v59 v64 v69 v74 v77 x5 x17 x18 h59 h43 h49 h64 h69 h74 h77
  have h106 : ∀ d, v106 (ix2 d q) = wsig (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)).1 (levOf x3 x4 x5 x6 x7 x8 x9 x10 x11 x12 x13 x14 q 3).1 (col 0 d) :=
    pay20_spec q v43 v49 v59 v64 v69 v74 v77 x5 x17 x18 (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3) h101
  have h111 : ∀ d, v111 (ix2 d q) = wsig (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)).1 (levOf x3 x4 x5 x6 x7 x8 x9 x10 x11 x12 x13 x14 q 3).1 (col 1 d) :=
    pay21_spec q v43 v49 v59 v64 v69 v74 v77 x5 x17 x18 (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3) h101
  have h116 : ∀ d, v116 (ix2 d q) = wsig (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)).1 (levOf x3 x4 x5 x6 x7 x8 x9 x10 x11 x12 x13 x14 q 3).1 (col 2 d) :=
    pay22_spec q v43 v49 v59 v64 v69 v74 v77 x5 x17 x18 (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3) h101
  have h117 : ∀ d, v117 (ix2 d q) = Ideal.tanh (wgate (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)).1 (levOf x3 x4 x5 x6 x7 x8 x9 x10 x11 x12 x13 x14 q 3).1 (col 3 d)) :=
    pay23_spec q v43 v49 v59 v64 v69 v74 v77 x5 x17 x18 (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3) h101
  have h118 : ∀ d, v118 (ix2 d q) = half := pay24_spec q
  -- cell 4: cell 3's state on the left, the next level on the right, summary weights
  have h127 : ∀ d, v127 (ix2 d q) = (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)).2 d :=
    pay25_spec q (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3) v85 v91 v101 v106 v111 v116 h101 h85 h91 h106 h111 h116
  have h133 : ∀ d, v133 (ix2 d q) = (levOf x3 x4 x5 x6 x7 x8 x9 x10 x11 x12 x13 x14 q 5).2 d := pay26_spec q x12
  have h143 : ∀ j, v143 (ix2 j q) = Ideal.tanh (wgate (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)).1 (levOf x3 x4 x5 x6 x7 x8 x9 x10 x11 x12 x13 x14 q 5).1 j) :=
    pay27_spec q (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3) v85 v91 v101 v106 v111 v116 v117 v118 x6 x17 x18 h101 h85 h91 h106 h111 h116 h118 h117
  have h148 : ∀ d, v148 (ix2 d q) = wsig (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)).1 (levOf x3 x4 x5 x6 x7 x8 x9 x10 x11 x12 x13 x14 q 5).1 (col 0 d) :=
    pay28_spec q v85 v91 v101 v106 v111 v116 v117 v118 x6 x17 x18 (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5) h143
  have h153 : ∀ d, v153 (ix2 d q) = wsig (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)).1 (levOf x3 x4 x5 x6 x7 x8 x9 x10 x11 x12 x13 x14 q 5).1 (col 1 d) :=
    pay29_spec q v85 v91 v101 v106 v111 v116 v117 v118 x6 x17 x18 (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5) h143
  have h158 : ∀ d, v158 (ix2 d q) = wsig (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)).1 (levOf x3 x4 x5 x6 x7 x8 x9 x10 x11 x12 x13 x14 q 5).1 (col 2 d) :=
    pay30_spec q v85 v91 v101 v106 v111 v116 v117 v118 x6 x17 x18 (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5) h143
  have h159 : ∀ d, v159 (ix2 d q) = Ideal.tanh (wgate (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)).1 (levOf x3 x4 x5 x6 x7 x8 x9 x10 x11 x12 x13 x14 q 5).1 (col 3 d)) :=
    pay31_spec q v85 v91 v101 v106 v111 v116 v117 v118 x6 x17 x18 (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5) h143
  -- cell 5: cell 4's state on the left, the next level on the right, summary weights
  have h169 : ∀ d, v169 (ix2 d q) = (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)).2 d :=
    pay32_spec q (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5) v127 v133 v143 v148 v153 v158 h143 h127 h133 h148 h153 h158
  have h175 : ∀ d, v175 (ix2 d q) = (levOf x3 x4 x5 x6 x7 x8 x9 x10 x11 x12 x13 x14 q 6).2 d := pay33_spec q x13
  have h185 : ∀ j, v185 (ix2 j q) = Ideal.tanh (wgate (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)).1 (levOf x3 x4 x5 x6 x7 x8 x9 x10 x11 x12 x13 x14 q 6).1 j) :=
    pay34_spec q (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5) v127 v133 v143 v148 v153 v158 v159 _ x7 x17 x18 h143 h127 h133 h148 h153 h158 rfl h159
  have h190 : ∀ d, v190 (ix2 d q) = wsig (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)).1 (levOf x3 x4 x5 x6 x7 x8 x9 x10 x11 x12 x13 x14 q 6).1 (col 0 d) :=
    pay35_spec q v127 v133 v143 v148 v153 v158 v159 _ x7 x17 x18 (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6) h185
  have h195 : ∀ d, v195 (ix2 d q) = wsig (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)).1 (levOf x3 x4 x5 x6 x7 x8 x9 x10 x11 x12 x13 x14 q 6).1 (col 1 d) :=
    pay36_spec q v127 v133 v143 v148 v153 v158 v159 _ x7 x17 x18 (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6) h185
  have h200 : ∀ d, v200 (ix2 d q) = wsig (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)).1 (levOf x3 x4 x5 x6 x7 x8 x9 x10 x11 x12 x13 x14 q 6).1 (col 2 d) :=
    pay37_spec q v127 v133 v143 v148 v153 v158 v159 _ x7 x17 x18 (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6) h185
  have h201 : ∀ d, v201 (ix2 d q) = Ideal.tanh (wgate (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)).1 (levOf x3 x4 x5 x6 x7 x8 x9 x10 x11 x12 x13 x14 q 6).1 (col 3 d)) :=
    pay38_spec q v127 v133 v143 v148 v153 v158 v159 _ x7 x17 x18 (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6) h185
  -- cell 6: cell 5's state on the left, the next level on the right, summary weights
  have h211 : ∀ d, (k0_pay39 v169 v175 v185 v190 v195 v200) (ix2 d q) = (wcell (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6)).2 d :=
    pay39_spec q (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6) v169 v175 v185 v190 v195 v200 h185 h169 h175 h190 h195 h200
  have h217 : ∀ d, (k0_pay40 x14) (ix2 d q) = (levOf x3 x4 x5 x6 x7 x8 x9 x10 x11 x12 x13 x14 q 7).2 d := pay40_spec q x14
  have h227 : ∀ j, (k0_pay41 v169 v175 v185 v190 v195 v200 v201 x8 x17 x18) (ix2 j q) = Ideal.tanh (wgate (wOf x17) (bOf x18) (wcell (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6)).1 (levOf x3 x4 x5 x6 x7 x8 x9 x10 x11 x12 x13 x14 q 7).1 j) :=
    pay41_spec q (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6) v169 v175 v185 v190 v195 v200 v201 x8 x17 x18 h185 h169 h175 h190 h195 h200 h201
  have h232 : ∀ d, (k0_pay42 v169 v175 v185 v190 v195 v200 v201 x8 x17 x18) (ix2 d q) = wsig (wOf x17) (bOf x18) (wcell (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6)).1 (levOf x3 x4 x5 x6 x7 x8 x9 x10 x11 x12 x13 x14 q 7).1 (col 0 d) :=
    pay42_spec q v169 v175 v185 v190 v195 v200 v201 x8 x17 x18 (wOf x17) (bOf x18) (wcell (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6)) (levOf x3 x4 x5 x6 x7 x8 x9 x10 x11 x12 x13 x14 q 7) h227
  have h237 : ∀ d, (k0_pay43 v169 v175 v185 v190 v195 v200 v201 x8 x17 x18) (ix2 d q) = wsig (wOf x17) (bOf x18) (wcell (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6)).1 (levOf x3 x4 x5 x6 x7 x8 x9 x10 x11 x12 x13 x14 q 7).1 (col 1 d) :=
    pay43_spec q v169 v175 v185 v190 v195 v200 v201 x8 x17 x18 (wOf x17) (bOf x18) (wcell (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6)) (levOf x3 x4 x5 x6 x7 x8 x9 x10 x11 x12 x13 x14 q 7) h227
  have h242 : ∀ d, (k0_pay44 v169 v175 v185 v190 v195 v200 v201 x8 x17 x18) (ix2 d q) = wsig (wOf x17) (bOf x18) (wcell (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6)).1 (levOf x3 x4 x5 x6 x7 x8 x9 x10 x11 x12 x13 x14 q 7).1 (col 2 d) :=
    pay44_spec q v169 v175 v185 v190 v195 v200 v201 x8 x17 x18 (wOf x17) (bOf x18) (wcell (wOf x17) (bOf x18) (wcell (wOf x17) (bOf x18) (wcell (wOf x17) (bOf x18) (wcell (wOf x17) (bOf x18) (wcell (wOf x15) (bOf x16) (levOf x3 x4 x5 x6 x7 x8 x9 x10 x11 x12 x13 x14 q 0) (colSt x1 x2 q)) (levOf x3 x4 x5 x6 x7 x8 x9 x10 x11 x12 x13 x14 q 2)) (levOf x3 x4 x5 x6 x7 x8 x9 x10 x11 x12 x13 x14 q 3)) (levOf x3 x4 x5 x6 x7 x8 x9 x10 x11 x12 x13 x14 q 5)) (levOf x3 x4 x5 x6 x7 x8 x9 x10 x11 x12 x13 x14 q 6)) (levOf x3 x4 x5 x6 x7 x8 x9 x10 x11 x12 x13 x14 q 7) h227
  exact ⟨h227, h211, h217, h232, h237, h242⟩

/-- THE HIDDEN BLOCK THE BODY STORES, at row `d` and lane `q`: the chain's hidden state at `d`. -/
theorem bodyH_spec (x1 x2 : Vec Ideal S64x2048 .f32) (x3 x4 x5 x6 x7 x8 x9 x10 x11 x12 x13 x14 : Vec Ideal S1x64x2048 .f32)
    (x15 : Vec Ideal S320x128 .bf16) (x16 : Vec Ideal S320x1 .f32) (x17 : Vec Ideal S320x128 .bf16) (x18 : Vec Ideal S320x1 .f32) (d : Fin 64) (q : Fin 2048) :
    bodyH x1 x2 x3 x4 x5 x6 x7 x8 x9 x10 x11 x12 x13 x14 x15 x16 x17 x18 (ix2 d q)
      = (wchain (wOf x15) (bOf x16) (wOf x17) (bOf x18) (colSt x1 x2 q) (levOf x3 x4 x5 x6 x7 x8 x9 x10 x11 x12 x13 x14 q)).1 d := by
  have F := tail_spec x1 x2 x3 x4 x5 x6 x7 x8 x9 x10 x11 x12 x13 x14 x15 x16 x17 x18 q
  exact pay2_spec q (wOf x17) (bOf x18) _ _ _ _ _ _ _ _ F.hX F.hlc F.hrc F.hsi F.hsfl F.hsfr d

/-- THE CELL BLOCK THE BODY STORES, at row `d` and lane `q`: the chain's cell state at `d`. -/
theorem bodyC_spec (x1 x2 : Vec Ideal S64x2048 .f32) (x3 x4 x5 x6 x7 x8 x9 x10 x11 x12 x13 x14 : Vec Ideal S1x64x2048 .f32)
    (x15 : Vec Ideal S320x128 .bf16) (x16 : Vec Ideal S320x1 .f32) (x17 : Vec Ideal S320x128 .bf16) (x18 : Vec Ideal S320x1 .f32) (d : Fin 64) (q : Fin 2048) :
    bodyC x1 x2 x3 x4 x5 x6 x7 x8 x9 x10 x11 x12 x13 x14 x15 x16 x17 x18 (ix2 d q)
      = (wchain (wOf x15) (bOf x16) (wOf x17) (bOf x18) (colSt x1 x2 q) (levOf x3 x4 x5 x6 x7 x8 x9 x10 x11 x12 x13 x14 q)).2 d := by
  have F := tail_spec x1 x2 x3 x4 x5 x6 x7 x8 x9 x10 x11 x12 x13 x14 x15 x16 x17 x18 q
  exact pay1_spec q (wOf x17) (bOf x18) _ _ _ _ _ _ _ _ F.hX F.hlc F.hrc F.hsi F.hsfl F.hsfr d

/-! ## The levels' states, level by level -/

section Levels
variable (x3 x4 x5 x6 x7 x8 x9 x10 x11 x12 x13 x14 : Vec Ideal S1x64x2048 .f32) (q : Fin 2048)
theorem levOf_0 : levOf x3 x4 x5 x6 x7 x8 x9 x10 x11 x12 x13 x14 q 0 = colSt3 x3 x9 q := rfl
theorem levOf_2 : levOf x3 x4 x5 x6 x7 x8 x9 x10 x11 x12 x13 x14 q 2 = colSt3 x4 x10 q := rfl
theorem levOf_3 : levOf x3 x4 x5 x6 x7 x8 x9 x10 x11 x12 x13 x14 q 3 = colSt3 x5 x11 q := rfl
theorem levOf_5 : levOf x3 x4 x5 x6 x7 x8 x9 x10 x11 x12 x13 x14 q 5 = colSt3 x6 x12 q := rfl
theorem levOf_6 : levOf x3 x4 x5 x6 x7 x8 x9 x10 x11 x12 x13 x14 q 6 = colSt3 x7 x13 q := rfl
theorem levOf_7 : levOf x3 x4 x5 x6 x7 x8 x9 x10 x11 x12 x13 x14 q 7 = colSt3 x8 x14 q := rfl
end Levels

end Cert.KernelIdeal.BodyValue

end
-- ==== Proof.HostTrans.lean ====
/-
  The four transposes that open the host program, read at an index: the two new-state arrays [16384, 64] become
  [64, 16384], the two level stacks [8, 16384, 64] become [8, 64, 16384]. Each result entry is the argument's entry with
  the last two coordinates swapped.
-/
import proofs.«129490_g31301721653836_cont_9to1_2280_18_alg».proof.Proof.Gen.KernelIdeal.Launch
import proofs.«129490_g31301721653836_cont_9to1_2280_18_alg».proof.Proof.ArraySpec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Idealize.ShloMosaic Idealize.ShloMosaic.ValueIdx Idealize.ShloMosaic.StableHlo
open Cert.KernelIdeal Cert.KernelIdeal.Gen

/-- The transposed new hidden state: entry (d, n) is the argument's entry (n, d). -/
theorem v0_eq (V0 : Valuation τ sig (Elt Ideal)) :
    (StableHlo.after (hostOps0 (F := Ideal)) V0 (Proc.devRef .tc main_v0) : S64x16384.Idx → EReal)
      = fun i => (V0 (Proc.devRef .tc main_arg0) : S16384x64.Idx → EReal) (ix2 (i 1) (i 0)) := by
  after_results
  funext i
  rw [eq_ix2 i]
  exact transpose_ix2_apply _ _ _ _

/-- The transposed new cell state: entry (d, n) is the argument's entry (n, d). -/
theorem v1_eq (V0 : Valuation τ sig (Elt Ideal)) :
    (StableHlo.after (hostOps0 (F := Ideal)) V0 (Proc.devRef .tc main_v1) : S64x16384.Idx → EReal)
      = fun i => (V0 (Proc.devRef .tc main_arg1) : S16384x64.Idx → EReal) (ix2 (i 1) (i 0)) := by
  after_results
  funext i
  rw [eq_ix2 i]
  exact transpose_ix2_apply _ _ _ _

/-- The transposed hidden levels: entry (p, d, n) is the argument's entry (p, n, d). -/
theorem v2_eq (V0 : Valuation τ sig (Elt Ideal)) :
    (StableHlo.after (hostOps0 (F := Ideal)) V0 (Proc.devRef .tc main_v2) : S8x64x16384.Idx → EReal)
      = fun i => (V0 (Proc.devRef .tc main_arg2) : S8x16384x64.Idx → EReal) (ix3 (i 0) (i 2) (i 1)) := by
  after_results
  funext i
  rw [eq_ix3 i]
  exact transpose_ix3_021_apply _ _ _ _ _

/-- The transposed cell levels: entry (p, d, n) is the argument's entry (p, n, d). -/
theorem v3_eq (V0 : Valuation τ sig (Elt Ideal)) :
    (StableHlo.after (hostOps0 (F := Ideal)) V0 (Proc.devRef .tc main_v3) : S8x64x16384.Idx → EReal)
      = fun i => (V0 (Proc.devRef .tc main_arg3) : S8x16384x64.Idx → EReal) (ix3 (i 0) (i 2) (i 1)) := by
  after_results
  funext i
  rw [eq_ix3 i]
  exact transpose_ix3_021_apply _ _ _ _ _

end Cert.KernelIdeal.HostValue
end
-- ==== Proof.HostScale.lean ====
/-
  The scale vector the host program builds — 256 entries of one half followed by 64 entries of one — read at an index:
  entry j is the specification's scale of gate column j.
-/
import proofs.«129490_g31301721653836_cont_9to1_2280_18_alg».proof.Proof.Gen.KernelIdeal
import proofs.«129490_g31301721653836_cont_9to1_2280_18_alg».proof.Proof.ArraySpec
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Cert.KernelIdeal.HostValue

open Idealize.ShloMosaic Idealize.ShloMosaic.ValueIdx
open Cert.KernelIdeal Cert.KernelIdeal.Gen Cert.TreeCell

/-- The concatenation of 256 copies of the word of one half and 64 copies of the word of one, at entry j, is the scale
    of column j: one half on the first four gate blocks, one on the last. -/
theorem scaleVec_apply (j : Fin 320) :
    (concatenate S320 0
        [⟨S256, broadcastInDim S256 ![] bcast_S_S256 (constant (F := Ideal) S_ .f32 0x3F000000#32)⟩,
         ⟨S64, broadcastInDim S64 ![] bcast_S_S64 (constant (F := Ideal) S_ .f32 0x3F800000#32)⟩]
        concatenates_S256_S64_S320_d0 : S320.Idx → EReal) (ix1 j) = scale j := by
  unfold scale
  by_cases h : j.val < 256
  · rw [if_pos h,
      concatenate_pair_apply_left (t := S320) (s₁ := S256) (s₂ := S64) (0 : Fin 1) _ _ concatenates_S256_S64_S320_d0
        (ix1 j) rfl (ix1 (⟨j.val, h⟩ : Fin 256)) (fun b => match b with | ⟨0, _⟩ => rfl),
      broadcastInDim_scalar_apply]
    rfl
  · have h2 : j.val - 256 < 64 := by have := j.isLt; omega
    rw [if_neg h,
      concatenate_pair_apply_right (t := S320) (s₁ := S256) (s₂ := S64) (0 : Fin 1) _ _ concatenates_S256_S64_S320_d0
        (ix1 j) rfl rfl (ix1 (⟨j.val - 256, h2⟩ : Fin 64))
        (fun b hb => absurd (Subsingleton.elim _ _) hb)
        (by show (j.val - 256) + 256 = j.val; omega),
      broadcastInDim_scalar_apply]
    rfl

end Cert.KernelIdeal.HostValue
end
-- ==== Proof.HostPrepTerm.lean ====
/-
  The prepared weights and the prepared bias as terms over the layout operations, read at an index. For weight matrices
  A, B (64 × 320 each) the host program stacks them along the rows (128 × 320), multiplies every row entry by entry with
  the scale vector, transposes (320 × 128) and changes the float format (the identity on extended reals): entry (j, k) is
  the stacked weight (k, j) times the scale of column j. For a bias b (320) it multiplies entry by entry with the scale
  vector and views the result as a 320 × 1 column: entry (j, 0) is b j times the scale of j.
-/
import proofs.«129490_g31301721653836_cont_9to1_2280_18_alg».proof.Proof.HostScale
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Cert.KernelIdeal.HostValue

open Idealize.ShloMosaic Idealize.ShloMosaic.ValueIdx
open Cert.KernelIdeal Cert.KernelIdeal.Gen Cert.TreeCell

/-- Two 64 × 320 matrices stacked along the rows, at (k, j): the first at (k, j) for k < 64, else the second at (k - 64, j). -/
theorem stack_apply (A B : S64x320.Idx → EReal) (k : Fin 128) (j : Fin 320) :
    (concatenate S128x320 0 [⟨S64x320, A⟩, ⟨S64x320, B⟩] concatenates_S64x320_S64x320_S128x320_d0 : S128x320.Idx → EReal) (ix2 k j)
      = stackW (mat A) (mat B) k j := by
  unfold stackW mat
  by_cases h : k.val < 64
  · rw [dif_pos h]
    exact concatenate_pair_apply_left (t := S128x320) (s₁ := S64x320) (s₂ := S64x320) (0 : Fin 2) A B
      concatenates_S64x320_S64x320_S128x320_d0 (ix2 k j) rfl (ix2 (⟨k.val, h⟩ : Fin 64) j)
      (fun b => match b with | ⟨0, _⟩ => rfl | ⟨1, _⟩ => rfl)
  · have h2 : k.val - 64 < 64 := by have := k.isLt; omega
    rw [dif_neg h]
    exact concatenate_pair_apply_right (t := S128x320) (s₁ := S64x320) (s₂ := S64x320) (0 : Fin 2) A B
      concatenates_S64x320_S64x320_S128x320_d0 (ix2 k j) rfl rfl (ix2 (⟨k.val - 64, h2⟩ : Fin 64) j)
      (fun b hb => match b, hb with | ⟨0, _⟩, hb => absurd rfl hb | ⟨1, _⟩, _ => rfl)
      (by show (k.val - 64) + 64 = k.val; omega)

/-- A vector of 320 laid out as one row and repeated down 128 rows, at (k, j), is the vector at j. -/
theorem rows_apply (s : S320.Idx → EReal) (k : Fin 128) (j : Fin 320) :
    (broadcastInDim S128x320 ![0, 1] bcast_S1x320_S128x320_0_1
      (broadcastInDim S1x320 ![1] bcast_S320_S1x320_1 s) : S128x320.Idx → EReal) (ix2 k j) = s (ix1 j) := by
  rw [broadcastInDim_oneRow_apply]
  exact broadcastInDim_apply (s := S320) (t := S1x320) ![1] bcast_S320_S1x320_1 s (ix2 (0 : Fin 1) j) (ix1 j)
    (fun a => match a with | ⟨0, _⟩ => by show j.val = if (320 : ℕ) = 1 then 0 else j.val; rw [if_neg (by decide)])

/-- The prepared weights' term at (j, k): the stacked weight (k, j) times the scale of column j. -/
theorem prepW_term_apply (A B : S64x320.Idx → EReal) (s : S320.Idx → EReal) (hs : ∀ j : Fin 320, s (ix1 j) = scale j)
    (j : Fin 320) (k : Fin 128) :
    (truncf .bf16
      (transpose S320x128 [1, 0]
        (mulf (F := Ideal) (φ := .f32)
          (concatenate S128x320 0 [⟨S64x320, A⟩, ⟨S64x320, B⟩] concatenates_S64x320_S64x320_S128x320_d0)
          (broadcastInDim S128x320 ![0, 1] bcast_S1x320_S128x320_0_1 (broadcastInDim S1x320 ![1] bcast_S320_S1x320_1 s)))
        transposes_S128x320_S320x128_1_0)
      bitsLt_bf16_f32 : FVec Ideal S320x128 .bf16) (ix2 j k) = prepW (mat A) (mat B) j k := by
  rw [truncf_apply, transpose_ix2_apply, mulf_apply, stack_apply, rows_apply, hs]
  rfl

/-- The prepared bias's term at (j, 0): the bias at j times the scale of j. -/
theorem prepB_term_apply (b : S320.Idx → EReal) (s : S320.Idx → EReal) (hs : ∀ j : Fin 320, s (ix1 j) = scale j)
    (j : Fin 320) (u : Fin 1) :
    (shapeCast S320x1 (mulf (F := Ideal) (φ := .f32) b s) shapeCasts_S320_S320x1 : S320x1.Idx → EReal) (ix2 j u)
      = prepB (vec b) j := by
  rw [shapeCast_apply (s := S320) (t := S320x1) _ shapeCasts_S320_S320x1 (ix2 j u) (ix1 j)
      (by rw [Shape.rowMajor_val_two, Shape.rowMajor_val_one]
          show j.val = j.val * 1 + u.val
          have := u.isLt; omega),
    mulf_apply, hs]
  rfl

end Cert.KernelIdeal.HostValue
end
-- ==== Proof.HostPrepM.lean ====
/-
  The merge weights and bias as the host operations leave them before the region: the prepared weights (320 × 128) at
  (j, k) are the specification's prepared weight of the two merge matrices, the prepared bias (320 × 1) at (j, 0) the
  specification's prepared bias.
-/
import proofs.«129490_g31301721653836_cont_9to1_2280_18_alg».proof.Proof.HostPrepTerm
import proofs.«129490_g31301721653836_cont_9to1_2280_18_alg».proof.Proof.Gen.KernelIdeal.Launch
import proofs.«129490_g31301721653836_cont_9to1_2280_18_alg».proof.Proof.ArraySpec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Idealize.ShloMosaic Idealize.ShloMosaic.ValueIdx Idealize.ShloMosaic.StableHlo
open Cert.KernelIdeal Cert.KernelIdeal.Gen
open Cert.TreeCell

/-- The prepared merge weights at (j, k). -/
theorem v12_apply (V0 : Valuation τ sig (Elt Ideal)) (j : Fin 320) (k : Fin 128) :
    (StableHlo.after (hostOps0 (F := Ideal)) V0 (Proc.devRef .tc main_v12) : S320x128.Idx → EReal) (ix2 j k)
      = prepW (mat (V0 (Proc.devRef .tc main_arg4))) (mat (V0 (Proc.devRef .tc main_arg5))) j k := by
  after_results
  exact prepW_term_apply _ _ _ scaleVec_apply j k

/-- The prepared merge bias at (j, 0). -/
theorem v14_apply (V0 : Valuation τ sig (Elt Ideal)) (j : Fin 320) (u : Fin 1) :
    (StableHlo.after (hostOps0 (F := Ideal)) V0 (Proc.devRef .tc main_v14) : S320x1.Idx → EReal) (ix2 j u)
      = prepB (vec (V0 (Proc.devRef .tc main_arg6))) j := by
  after_results
  exact prepB_term_apply _ _ scaleVec_apply j u

end Cert.KernelIdeal.HostValue
end
-- ==== Proof.HostPrepS.lean ====
/-
  The summary weights and bias as the host operations leave them before the region: the prepared weights (320 × 128)
  at (j, k) are the specification's prepared weight of the two summary matrices, the prepared bias (320 × 1) at (j, 0)
  the specification's prepared bias.
-/
import proofs.«129490_g31301721653836_cont_9to1_2280_18_alg».proof.Proof.HostPrepTerm
import proofs.«129490_g31301721653836_cont_9to1_2280_18_alg».proof.Proof.Gen.KernelIdeal.Launch
import proofs.«129490_g31301721653836_cont_9to1_2280_18_alg».proof.Proof.ArraySpec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Idealize.ShloMosaic Idealize.ShloMosaic.ValueIdx Idealize.ShloMosaic.StableHlo
open Cert.KernelIdeal Cert.KernelIdeal.Gen
open Cert.TreeCell

/-- The prepared summary weights at (j, k). -/
theorem v23_apply (V0 : Valuation τ sig (Elt Ideal)) (j : Fin 320) (k : Fin 128) :
    (StableHlo.after (hostOps0 (F := Ideal)) V0 (Proc.devRef .tc main_v23) : S320x128.Idx → EReal) (ix2 j k)
      = prepW (mat (V0 (Proc.devRef .tc main_arg7))) (mat (V0 (Proc.devRef .tc main_arg8))) j k := by
  after_results
  exact prepW_term_apply _ _ _ scaleVec_apply j k

/-- The prepared summary bias at (j, 0). -/
theorem v25_apply (V0 : Valuation τ sig (Elt Ideal)) (j : Fin 320) (u : Fin 1) :
    (StableHlo.after (hostOps0 (F := Ideal)) V0 (Proc.devRef .tc main_v25) : S320x1.Idx → EReal) (ix2 j u)
      = prepB (vec (V0 (Proc.devRef .tc main_arg9))) j := by
  after_results
  exact prepB_term_apply _ _ scaleVec_apply j u

end Cert.KernelIdeal.HostValue
end
-- ==== Proof.HostPrep.lean ====
/-
  Everything the host operations before the region leave, gathered: the four transposed state arrays, the two prepared
  weight arrays and the two prepared bias columns read at an index, and the ten argument arrays unchanged.
-/
import proofs.«129490_g31301721653836_cont_9to1_2280_18_alg».proof.Proof.HostTrans
import proofs.«129490_g31301721653836_cont_9to1_2280_18_alg».proof.Proof.HostArgs
import proofs.«129490_g31301721653836_cont_9to1_2280_18_alg».proof.Proof.HostPrepM
import proofs.«129490_g31301721653836_cont_9to1_2280_18_alg».proof.Proof.HostPrepS
-- ==== Proof.KPoint.lean ====
/-
  One entry of the two blocks the body leaves at a grid point, as the specification's chain of six cells on one batch
  row of the ARGUMENT arrays.

  The region is entered on the buffers the host operations before it leave: the two new-state arrays and the two level
  stacks transposed, the merge and summary weights stacked, scaled and transposed, the two biases scaled. At point t
  and lane q the batch row is n = 2048·t + q. The body's hidden (cell) block at (d, q) is the hidden (cell) state at d
  of the chain over the prepared weights the body's weight blocks hold, the new state on lane q of its first two
  blocks, and the levels on lane q of its twelve level blocks. Block by block these are the prepared weights of the
  argument weights, row n of the argument new state, and row n of levels 0, 2, 3, 5, 6, 7 of the argument stacks — the
  only levels the chain reads —, so the entry is the chain in the kernel's arrangement on row n of the arguments.
-/
import proofs.«129490_g31301721653836_cont_9to1_2280_18_alg».proof.Proof.KBlocks
import proofs.«129490_g31301721653836_cont_9to1_2280_18_alg».proof.Proof.BodyValue
import proofs.«129490_g31301721653836_cont_9to1_2280_18_alg».proof.Proof.HostPrep

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen
open Idealize.ShloMosaic.StableHlo
open Cert.TreeCell
open Cert.KernelIdeal.BodyValue Cert.KernelIdeal.HostValue

/-- The chain reads the levels 0, 2, 3, 5, 6, 7 only: two chains agree when their weights, their new states and those
    six levels do. -/
theorem wchain_congr {mWt mWt' : Fin 320 → Fin 128 → EReal} {mbt mbt' : Fin 320 → EReal}
    {sWt sWt' : Fin 320 → Fin 128 → EReal} {sbt sbt' : Fin 320 → EReal} {new new' : St} {lev lev' : Fin 8 → St}
    (hmW : mWt = mWt') (hmb : mbt = mbt') (hsW : sWt = sWt') (hsb : sbt = sbt') (hnew : new = new')
    (h0 : lev 0 = lev' 0) (h2 : lev 2 = lev' 2) (h3 : lev 3 = lev' 3) (h5 : lev 5 = lev' 5) (h6 : lev 6 = lev' 6)
    (h7 : lev 7 = lev' 7) :
    wchain mWt mbt sWt sbt new lev = wchain mWt' mbt' sWt' sbt' new' lev' := by
  subst hmW hmb hsW hsb hnew
  unfold wchain
  rw [h0, h2, h3, h5, h6, h7]

/-- The TensorCore's buffers when the region is entered: the host operations before it, run on the contents V0. -/
abbrev Vh (V0 : Dev nD → Valuation τ sig (Elt Ideal)) :
    (c : Dev nD) → (b : Ref sig .tc) → Buf (Elt Ideal) ((c : Thread nD τ).loc b) :=
  fun c b => StableHlo.after (hostOps0 (F := Ideal)) (V0 c) (Proc.devRef .tc b)

section Point
variable (V0 : Dev nD → Valuation τ sig (Elt Ideal)) (c : Dev nD) (t : Fin cfg0.N)

/-! ## The weight and bias blocks are the prepared weights and biases of the arguments -/

theorem mergeW_eq : wOf (iblk0 (Vh V0) c 14 t) = prepW (mat (V0 c (Proc.devRef .tc main_arg4))) (mat (V0 c (Proc.devRef .tc main_arg5))) := by
  funext j k
  exact (blk14_apply (Vh V0) c t j k).trans (v12_apply (V0 c) j k)

theorem mergeB_eq : bOf (iblk0 (Vh V0) c 15 t) = prepB (vec (V0 c (Proc.devRef .tc main_arg6))) := by
  funext j
  exact (blk15_apply (Vh V0) c t j 0).trans (v14_apply (V0 c) j 0)

theorem sumW_eq : wOf (iblk0 (Vh V0) c 16 t) = prepW (mat (V0 c (Proc.devRef .tc main_arg7))) (mat (V0 c (Proc.devRef .tc main_arg8))) := by
  funext j k
  exact (blk16_apply (Vh V0) c t j k).trans (v23_apply (V0 c) j k)

theorem sumB_eq : bOf (iblk0 (Vh V0) c 17 t) = prepB (vec (V0 c (Proc.devRef .tc main_arg9))) := by
  funext j
  exact (blk17_apply (Vh V0) c t j 0).trans (v25_apply (V0 c) j 0)

/-! ## Lane q of the state blocks at point t is batch row 2048·t + q of the argument states -/

theorem new_eq (q : Fin 2048) (n : Fin 16384) (hn : n.val = t.val * 2048 + q.val) :
    colSt (iblk0 (Vh V0) c 0 t) (iblk0 (Vh V0) c 1 t) q = newSt (V0 c (Proc.devRef .tc main_arg0)) (V0 c (Proc.devRef .tc main_arg1)) n := by
  refine Prod.ext (funext fun d => ?_) (funext fun d => ?_)
  · exact (blk0_apply (Vh V0) c t d q n hn).trans (congrFun (v0_eq (V0 c)) (ix2 d n))
  · exact (blk1_apply (Vh V0) c t d q n hn).trans (congrFun (v1_eq (V0 c)) (ix2 d n))

theorem lev0_eq (q : Fin 2048) (n : Fin 16384) (hn : n.val = t.val * 2048 + q.val) :
    levOf (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) q 0 = levSt (V0 c (Proc.devRef .tc main_arg2)) (V0 c (Proc.devRef .tc main_arg3)) n 0 := by
  show colSt3 (iblk0 (Vh V0) c 2 t) (iblk0 (Vh V0) c 8 t) q = _
  refine Prod.ext (funext fun d => ?_) (funext fun d => ?_)
  · exact (blk2_apply (Vh V0) c t d q n hn).trans (congrFun (v2_eq (V0 c)) (ix3 (0 : Fin 8) d n))
  · exact (blk8_apply (Vh V0) c t d q n hn).trans (congrFun (v3_eq (V0 c)) (ix3 (0 : Fin 8) d n))

theorem lev2_eq (q : Fin 2048) (n : Fin 16384) (hn : n.val = t.val * 2048 + q.val) :
    levOf (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) q 2 = levSt (V0 c (Proc.devRef .tc main_arg2)) (V0 c (Proc.devRef .tc main_arg3)) n 2 := by
  show colSt3 (iblk0 (Vh V0) c 3 t) (iblk0 (Vh V0) c 9 t) q = _
  refine Prod.ext (funext fun d => ?_) (funext fun d => ?_)
  · exact (blk3_apply (Vh V0) c t d q n hn).trans (congrFun (v2_eq (V0 c)) (ix3 (2 : Fin 8) d n))
  · exact (blk9_apply (Vh V0) c t d q n hn).trans (congrFun (v3_eq (V0 c)) (ix3 (2 : Fin 8) d n))

theorem lev3_eq (q : Fin 2048) (n : Fin 16384) (hn : n.val = t.val * 2048 + q.val) :
    levOf (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) q 3 = levSt (V0 c (Proc.devRef .tc main_arg2)) (V0 c (Proc.devRef .tc main_arg3)) n 3 := by
  show colSt3 (iblk0 (Vh V0) c 4 t) (iblk0 (Vh V0) c 10 t) q = _
  refine Prod.ext (funext fun d => ?_) (funext fun d => ?_)
  · exact (blk4_apply (Vh V0) c t d q n hn).trans (congrFun (v2_eq (V0 c)) (ix3 (3 : Fin 8) d n))
  · exact (blk10_apply (Vh V0) c t d q n hn).trans (congrFun (v3_eq (V0 c)) (ix3 (3 : Fin 8) d n))

theorem lev5_eq (q : Fin 2048) (n : Fin 16384) (hn : n.val = t.val * 2048 + q.val) :
    levOf (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) q 5 = levSt (V0 c (Proc.devRef .tc main_arg2)) (V0 c (Proc.devRef .tc main_arg3)) n 5 := by
  show colSt3 (iblk0 (Vh V0) c 5 t) (iblk0 (Vh V0) c 11 t) q = _
  refine Prod.ext (funext fun d => ?_) (funext fun d => ?_)
  · exact (blk5_apply (Vh V0) c t d q n hn).trans (congrFun (v2_eq (V0 c)) (ix3 (5 : Fin 8) d n))
  · exact (blk11_apply (Vh V0) c t d q n hn).trans (congrFun (v3_eq (V0 c)) (ix3 (5 : Fin 8) d n))

theorem lev6_eq (q : Fin 2048) (n : Fin 16384) (hn : n.val = t.val * 2048 + q.val) :
    levOf (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) q 6 = levSt (V0 c (Proc.devRef .tc main_arg2)) (V0 c (Proc.devRef .tc main_arg3)) n 6 := by
  show colSt3 (iblk0 (Vh V0) c 6 t) (iblk0 (Vh V0) c 12 t) q = _
  refine Prod.ext (funext fun d => ?_) (funext fun d => ?_)
  · exact (blk6_apply (Vh V0) c t d q n hn).trans (congrFun (v2_eq (V0 c)) (ix3 (6 : Fin 8) d n))
  · exact (blk12_apply (Vh V0) c t d q n hn).trans (congrFun (v3_eq (V0 c)) (ix3 (6 : Fin 8) d n))

theorem lev7_eq (q : Fin 2048) (n : Fin 16384) (hn : n.val = t.val * 2048 + q.val) :
    levOf (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) q 7 = levSt (V0 c (Proc.devRef .tc main_arg2)) (V0 c (Proc.devRef .tc main_arg3)) n 7 := by
  show colSt3 (iblk0 (Vh V0) c 7 t) (iblk0 (Vh V0) c 13 t) q = _
  refine Prod.ext (funext fun d => ?_) (funext fun d => ?_)
  · exact (blk7_apply (Vh V0) c t d q n hn).trans (congrFun (v2_eq (V0 c)) (ix3 (7 : Fin 8) d n))
  · exact (blk13_apply (Vh V0) c t d q n hn).trans (congrFun (v3_eq (V0 c)) (ix3 (7 : Fin 8) d n))

/-- THE HIDDEN BLOCK'S ENTRY (d, q) AT POINT t is the hidden state at d of the chain, in the kernel's arrangement, on batch
    row 2048·t + q of the argument arrays. -/
theorem pointH (d : Fin 64) (q : Fin 2048) (n : Fin 16384) (hn : n.val = t.val * 2048 + q.val) :
    bodyH (iblk0 (Vh V0) c 0 t) (iblk0 (Vh V0) c 1 t) (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) (iblk0 (Vh V0) c 14 t) (iblk0 (Vh V0) c 15 t) (iblk0 (Vh V0) c 16 t) (iblk0 (Vh V0) c 17 t) (ix2 d q)
      = (krowSt (V0 c (Proc.devRef .tc main_arg0)) (V0 c (Proc.devRef .tc main_arg1)) (V0 c (Proc.devRef .tc main_arg2)) (V0 c (Proc.devRef .tc main_arg3)) (V0 c (Proc.devRef .tc main_arg4)) (V0 c (Proc.devRef .tc main_arg5)) (V0 c (Proc.devRef .tc main_arg6)) (V0 c (Proc.devRef .tc main_arg7)) (V0 c (Proc.devRef .tc main_arg8)) (V0 c (Proc.devRef .tc main_arg9)) n).1 d :=
  (bodyH_spec _ _ _ _ _ _ _ _ _ _ _ _ _ _ _ _ _ _ d q).trans
    (congrArg (fun s : St => s.1 d)
      (wchain_congr (mergeW_eq V0 c t) (mergeB_eq V0 c t) (sumW_eq V0 c t) (sumB_eq V0 c t) (new_eq V0 c t q n hn)
        (lev0_eq V0 c t q n hn) (lev2_eq V0 c t q n hn) (lev3_eq V0 c t q n hn) (lev5_eq V0 c t q n hn) (lev6_eq V0 c t q n hn) (lev7_eq V0 c t q n hn)))

/-- The same at any index y of the block: row y 0, lane y 1. -/
theorem pointH_idx (y : S64x2048.Idx) (n : Fin 16384) (hn : n.val = t.val * 2048 + (y 1).val) :
    bodyH (iblk0 (Vh V0) c 0 t) (iblk0 (Vh V0) c 1 t) (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) (iblk0 (Vh V0) c 14 t) (iblk0 (Vh V0) c 15 t) (iblk0 (Vh V0) c 16 t) (iblk0 (Vh V0) c 17 t) y
      = (krowSt (V0 c (Proc.devRef .tc main_arg0)) (V0 c (Proc.devRef .tc main_arg1)) (V0 c (Proc.devRef .tc main_arg2)) (V0 c (Proc.devRef .tc main_arg3)) (V0 c (Proc.devRef .tc main_arg4)) (V0 c (Proc.devRef .tc main_arg5)) (V0 c (Proc.devRef .tc main_arg6)) (V0 c (Proc.devRef .tc main_arg7)) (V0 c (Proc.devRef .tc main_arg8)) (V0 c (Proc.devRef .tc main_arg9)) n).1 (y 0) := by
  exact (congrArg (bodyH (iblk0 (Vh V0) c 0 t) (iblk0 (Vh V0) c 1 t) (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) (iblk0 (Vh V0) c 14 t) (iblk0 (Vh V0) c 15 t) (iblk0 (Vh V0) c 16 t) (iblk0 (Vh V0) c 17 t)) (eq_ix2 y)).trans (pointH V0 c t (y 0) (y 1) n hn)

/-- THE CELL BLOCK'S ENTRY (d, q) AT POINT t is the cell state at d of the chain, in the kernel's arrangement, on batch
    row 2048·t + q of the argument arrays. -/
theorem pointC (d : Fin 64) (q : Fin 2048) (n : Fin 16384) (hn : n.val = t.val * 2048 + q.val) :
    bodyC (iblk0 (Vh V0) c 0 t) (iblk0 (Vh V0) c 1 t) (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) (iblk0 (Vh V0) c 14 t) (iblk0 (Vh V0) c 15 t) (iblk0 (Vh V0) c 16 t) (iblk0 (Vh V0) c 17 t) (ix2 d q)
      = (krowSt (V0 c (Proc.devRef .tc main_arg0)) (V0 c (Proc.devRef .tc main_arg1)) (V0 c (Proc.devRef .tc main_arg2)) (V0 c (Proc.devRef .tc main_arg3)) (V0 c (Proc.devRef .tc main_arg4)) (V0 c (Proc.devRef .tc main_arg5)) (V0 c (Proc.devRef .tc main_arg6)) (V0 c (Proc.devRef .tc main_arg7)) (V0 c (Proc.devRef .tc main_arg8)) (V0 c (Proc.devRef .tc main_arg9)) n).2 d :=
  (bodyC_spec _ _ _ _ _ _ _ _ _ _ _ _ _ _ _ _ _ _ d q).trans
    (congrArg (fun s : St => s.2 d)
      (wchain_congr (mergeW_eq V0 c t) (mergeB_eq V0 c t) (sumW_eq V0 c t) (sumB_eq V0 c t) (new_eq V0 c t q n hn)
        (lev0_eq V0 c t q n hn) (lev2_eq V0 c t q n hn) (lev3_eq V0 c t q n hn) (lev5_eq V0 c t q n hn) (lev6_eq V0 c t q n hn) (lev7_eq V0 c t q n hn)))

/-- The same at any index y of the block: row y 0, lane y 1. -/
theorem pointC_idx (y : S64x2048.Idx) (n : Fin 16384) (hn : n.val = t.val * 2048 + (y 1).val) :
    bodyC (iblk0 (Vh V0) c 0 t) (iblk0 (Vh V0) c 1 t) (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) (iblk0 (Vh V0) c 14 t) (iblk0 (Vh V0) c 15 t) (iblk0 (Vh V0) c 16 t) (iblk0 (Vh V0) c 17 t) y
      = (krowSt (V0 c (Proc.devRef .tc main_arg0)) (V0 c (Proc.devRef .tc main_arg1)) (V0 c (Proc.devRef .tc main_arg2)) (V0 c (Proc.devRef .tc main_arg3)) (V0 c (Proc.devRef .tc main_arg4)) (V0 c (Proc.devRef .tc main_arg5)) (V0 c (Proc.devRef .tc main_arg6)) (V0 c (Proc.devRef .tc main_arg7)) (V0 c (Proc.devRef .tc main_arg8)) (V0 c (Proc.devRef .tc main_arg9)) n).2 (y 0) := by
  exact (congrArg (bodyC (iblk0 (Vh V0) c 0 t) (iblk0 (Vh V0) c 1 t) (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) (iblk0 (Vh V0) c 14 t) (iblk0 (Vh V0) c 15 t) (iblk0 (Vh V0) c 16 t) (iblk0 (Vh V0) c 17 t)) (eq_ix2 y)).trans (pointC V0 c t (y 0) (y 1) n hn)

end Point

end Cert.KernelIdeal.KValue

end
-- ==== Proof.KFinal.lean ====
/-
  The two result arrays after the pipelined region, index by index, as functions of the ARGUMENT arrays.

  Each of the eight grid points writes back its 64 × 2048 block of the hidden result and of the cell result. By the
  per-point value, what point t writes is block (0, t) of ONE function of the whole array's index: at (d, n) the hidden
  (cell) state at d of the chain of six cells, in the kernel's arrangement, on batch row n of the arguments. Column n of
  the array lies in block n / 2048, every point writes back, so the eight blocks cover the array and the array ends
  holding that function.
-/
import proofs.«129490_g31301721653836_cont_9to1_2280_18_alg».proof.Proof.KPoint

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen
open Idealize.ShloMosaic.StableHlo
open Cert.TreeCell
open Cert.KernelIdeal.BodyValue Cert.KernelIdeal.HostValue

section Final
variable (V0 : Dev nD → Valuation τ sig (Elt Ideal)) (c : Dev nD)

/-- The hidden result array [64, 16384]: at (d, n) the chain's hidden state at d on batch row n of the arguments. -/
abbrev GH : S64x16384.Idx → EReal := fun i => (krowSt (V0 c (Proc.devRef .tc main_arg0)) (V0 c (Proc.devRef .tc main_arg1)) (V0 c (Proc.devRef .tc main_arg2)) (V0 c (Proc.devRef .tc main_arg3)) (V0 c (Proc.devRef .tc main_arg4)) (V0 c (Proc.devRef .tc main_arg5)) (V0 c (Proc.devRef .tc main_arg6)) (V0 c (Proc.devRef .tc main_arg7)) (V0 c (Proc.devRef .tc main_arg8)) (V0 c (Proc.devRef .tc main_arg9)) (i 1)).1 (i 0)
/-- The cell result array [64, 16384]: at (d, n) the chain's cell state at d on batch row n of the arguments. -/
abbrev GC : S64x16384.Idx → EReal := fun i => (krowSt (V0 c (Proc.devRef .tc main_arg0)) (V0 c (Proc.devRef .tc main_arg1)) (V0 c (Proc.devRef .tc main_arg2)) (V0 c (Proc.devRef .tc main_arg3)) (V0 c (Proc.devRef .tc main_arg4)) (V0 c (Proc.devRef .tc main_arg5)) (V0 c (Proc.devRef .tc main_arg6)) (V0 c (Proc.devRef .tc main_arg7)) (V0 c (Proc.devRef .tc main_arg8)) (V0 c (Proc.devRef .tc main_arg9)) (i 1)).2 (i 0)

/-! ## Output window 18: the hidden result -/

/-- WHAT POINT t WRITES BACK is block (0, t) of the hidden result as a function of the arguments. -/
theorem flushed18_eq (t : Fin cfg0.N) :
    (dat0 (Vh V0) c).flushed 18 t = ((cfg0.win 18).blk t).view.read (Elt Ideal) (GH V0 c) := by
  show (cfg0.win 18).cut (grid0.coords t) ((dat0 (Vh V0) c).after 18 t) = _
  rw [after0_18]
  obtain ⟨e0, e1⟩ := idx18 t
  funext j
  rw [View.read_apply]
  show bodyH (iblk0 (Vh V0) c 0 t) (iblk0 (Vh V0) c 1 t) (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) (iblk0 (Vh V0) c 14 t) (iblk0 (Vh V0) c 15 t) (iblk0 (Vh V0) c 16 t) (iblk0 (Vh V0) c 17 t) ((cfg0.win 18).xinj (grid0.coords t) j)
    = GH V0 c (((cfg0.win 18).blk t).view.emb j)
  have hn : ((((cfg0.win 18).blk t).view.emb j) 1).val = t.val * 2048 + (j 1).val := by
    show win0_18.index t (1 : Fin 2) * 2048 + 1 * (j 1).val = _
    omega
  have h0 : ((cfg0.win 18).xinj (grid0.coords t) j) 0 = (((cfg0.win 18).blk t).view.emb j) 0 := by
    apply Fin.ext
    show (j 0).val = win0_18.index t (0 : Fin 2) * 64 + 1 * (j 0).val
    omega
  exact (pointH_idx V0 c t _ _ hn).trans
    (congrArg (krowSt (V0 c (Proc.devRef .tc main_arg0)) (V0 c (Proc.devRef .tc main_arg1)) (V0 c (Proc.devRef .tc main_arg2)) (V0 c (Proc.devRef .tc main_arg3)) (V0 c (Proc.devRef .tc main_arg4)) (V0 c (Proc.devRef .tc main_arg5)) (V0 c (Proc.devRef .tc main_arg6)) (V0 c (Proc.devRef .tc main_arg7)) (V0 c (Proc.devRef .tc main_arg8)) (V0 c (Proc.devRef .tc main_arg9)) ((((cfg0.win 18).blk t).view.emb j) 1)).1 h0)

/-- An index of the array is in point t's block iff each coordinate is in the block's range on its axis. -/
theorem mem_blk18 (t : Fin cfg0.N) (i : S64x16384.Idx) :
    i ∈ ((cfg0.win 18).blk t).view.set ↔ ∀ a : Fin 2, win0_18.index t a * S64x2048.size a ≤ (i a).val ∧ (i a).val < win0_18.index t a * S64x2048.size a + S64x2048.size a := by
  show i ∈ ((View.whole main_v26_0).slice (win0_18.rect t)).set ↔ _
  rw [View.set_slice_whole, Rect.mem_set_unit]
  exact Iff.rfl

/-- Every index of the array is in the block of a point that writes back: column n is in block n / 2048. -/
theorem cover18 (i : S64x16384.Idx) :
    ∃ t : Fin cfg0.N, (cfg0.win 18).flush t = true ∧ i ∈ ((cfg0.win 18).blk t).view.set := by
  have hi0 : (i 0).val < 64 := (i 0).isLt
  have hi1 : (i 1).val < 16384 := (i 1).isLt
  obtain ⟨t, ht⟩ : ∃ t : Fin cfg0.N, t.val = (i 1).val / 2048 :=
    ⟨⟨(i 1).val / 2048, Nat.lt_of_lt_of_eq (by omega : (i 1).val / 2048 < 8) N_0.symm⟩, rfl⟩
  obtain ⟨e0, e1⟩ := idx18 t
  refine ⟨t, flush0_18 t, ?_⟩
  rw [mem_blk18]
  intro a
  match a with
  | ⟨0, _⟩ => show win0_18.index t (0 : Fin 2) * 64 ≤ (i 0).val ∧ (i 0).val < win0_18.index t (0 : Fin 2) * 64 + 64; omega
  | ⟨1, _⟩ => show win0_18.index t (1 : Fin 2) * 2048 ≤ (i 1).val ∧ (i 1).val < win0_18.index t (1 : Fin 2) * 2048 + 2048; omega

/-- THE HIDDEN RESULT ARRAY after the region: at (d, n) the chain's hidden state at d on batch row n of the arguments. -/
theorem final18 : (dat0 (Vh V0) c).arrAt 18 cfg0.N
    = fun i : S64x16384.Idx => (krowSt (V0 c (Proc.devRef .tc main_arg0)) (V0 c (Proc.devRef .tc main_arg1)) (V0 c (Proc.devRef .tc main_arg2)) (V0 c (Proc.devRef .tc main_arg3)) (V0 c (Proc.devRef .tc main_arg4)) (V0 c (Proc.devRef .tc main_arg5)) (V0 c (Proc.devRef .tc main_arg6)) (V0 c (Proc.devRef .tc main_arg7)) (V0 c (Proc.devRef .tc main_arg8)) (V0 c (Proc.devRef .tc main_arg9)) (i 1)).1 (i 0) :=
  (dat0 (Vh V0) c).arrAt_eq_of_cover 18 (GH V0 c) (fun t _ => flushed18_eq V0 c t) (cover18)

/-! ## Output window 19: the cell result -/

/-- WHAT POINT t WRITES BACK is block (0, t) of the cell result as a function of the arguments. -/
theorem flushed19_eq (t : Fin cfg0.N) :
    (dat0 (Vh V0) c).flushed 19 t = ((cfg0.win 19).blk t).view.read (Elt Ideal) (GC V0 c) := by
  show (cfg0.win 19).cut (grid0.coords t) ((dat0 (Vh V0) c).after 19 t) = _
  rw [after0_19]
  obtain ⟨e0, e1⟩ := idx19 t
  funext j
  rw [View.read_apply]
  show bodyC (iblk0 (Vh V0) c 0 t) (iblk0 (Vh V0) c 1 t) (iblk0 (Vh V0) c 2 t) (iblk0 (Vh V0) c 3 t) (iblk0 (Vh V0) c 4 t) (iblk0 (Vh V0) c 5 t) (iblk0 (Vh V0) c 6 t) (iblk0 (Vh V0) c 7 t) (iblk0 (Vh V0) c 8 t) (iblk0 (Vh V0) c 9 t) (iblk0 (Vh V0) c 10 t) (iblk0 (Vh V0) c 11 t) (iblk0 (Vh V0) c 12 t) (iblk0 (Vh V0) c 13 t) (iblk0 (Vh V0) c 14 t) (iblk0 (Vh V0) c 15 t) (iblk0 (Vh V0) c 16 t) (iblk0 (Vh V0) c 17 t) ((cfg0.win 19).xinj (grid0.coords t) j)
    = GC V0 c (((cfg0.win 19).blk t).view.emb j)
  have hn : ((((cfg0.win 19).blk t).view.emb j) 1).val = t.val * 2048 + (j 1).val := by
    show win0_19.index t (1 : Fin 2) * 2048 + 1 * (j 1).val = _
    omega
  have h0 : ((cfg0.win 19).xinj (grid0.coords t) j) 0 = (((cfg0.win 19).blk t).view.emb j) 0 := by
    apply Fin.ext
    show (j 0).val = win0_19.index t (0 : Fin 2) * 64 + 1 * (j 0).val
    omega
  exact (pointC_idx V0 c t _ _ hn).trans
    (congrArg (krowSt (V0 c (Proc.devRef .tc main_arg0)) (V0 c (Proc.devRef .tc main_arg1)) (V0 c (Proc.devRef .tc main_arg2)) (V0 c (Proc.devRef .tc main_arg3)) (V0 c (Proc.devRef .tc main_arg4)) (V0 c (Proc.devRef .tc main_arg5)) (V0 c (Proc.devRef .tc main_arg6)) (V0 c (Proc.devRef .tc main_arg7)) (V0 c (Proc.devRef .tc main_arg8)) (V0 c (Proc.devRef .tc main_arg9)) ((((cfg0.win 19).blk t).view.emb j) 1)).2 h0)

/-- An index of the array is in point t's block iff each coordinate is in the block's range on its axis. -/
theorem mem_blk19 (t : Fin cfg0.N) (i : S64x16384.Idx) :
    i ∈ ((cfg0.win 19).blk t).view.set ↔ ∀ a : Fin 2, win0_19.index t a * S64x2048.size a ≤ (i a).val ∧ (i a).val < win0_19.index t a * S64x2048.size a + S64x2048.size a := by
  show i ∈ ((View.whole main_v26_1).slice (win0_19.rect t)).set ↔ _
  rw [View.set_slice_whole, Rect.mem_set_unit]
  exact Iff.rfl

/-- Every index of the array is in the block of a point that writes back: column n is in block n / 2048. -/
theorem cover19 (i : S64x16384.Idx) :
    ∃ t : Fin cfg0.N, (cfg0.win 19).flush t = true ∧ i ∈ ((cfg0.win 19).blk t).view.set := by
  have hi0 : (i 0).val < 64 := (i 0).isLt
  have hi1 : (i 1).val < 16384 := (i 1).isLt
  obtain ⟨t, ht⟩ : ∃ t : Fin cfg0.N, t.val = (i 1).val / 2048 :=
    ⟨⟨(i 1).val / 2048, Nat.lt_of_lt_of_eq (by omega : (i 1).val / 2048 < 8) N_0.symm⟩, rfl⟩
  obtain ⟨e0, e1⟩ := idx19 t
  refine ⟨t, flush0_19 t, ?_⟩
  rw [mem_blk19]
  intro a
  match a with
  | ⟨0, _⟩ => show win0_19.index t (0 : Fin 2) * 64 ≤ (i 0).val ∧ (i 0).val < win0_19.index t (0 : Fin 2) * 64 + 64; omega
  | ⟨1, _⟩ => show win0_19.index t (1 : Fin 2) * 2048 ≤ (i 1).val ∧ (i 1).val < win0_19.index t (1 : Fin 2) * 2048 + 2048; omega

/-- THE CELL RESULT ARRAY after the region: at (d, n) the chain's cell state at d on batch row n of the arguments. -/
theorem final19 : (dat0 (Vh V0) c).arrAt 19 cfg0.N
    = fun i : S64x16384.Idx => (krowSt (V0 c (Proc.devRef .tc main_arg0)) (V0 c (Proc.devRef .tc main_arg1)) (V0 c (Proc.devRef .tc main_arg2)) (V0 c (Proc.devRef .tc main_arg3)) (V0 c (Proc.devRef .tc main_arg4)) (V0 c (Proc.devRef .tc main_arg5)) (V0 c (Proc.devRef .tc main_arg6)) (V0 c (Proc.devRef .tc main_arg7)) (V0 c (Proc.devRef .tc main_arg8)) (V0 c (Proc.devRef .tc main_arg9)) (i 1)).2 (i 0) :=
  (dat0 (Vh V0) c).arrAt_eq_of_cover 19 (GC V0 c) (fun t _ => flushed19_eq V0 c t) (cover19)

end Final

end Cert.KernelIdeal.KValue

end
-- ==== Proof.HostTail.lean ====
/-
  The two transposes that close the host program, read at an index: each of the region's two results [64, 16384] becomes
  a result array [16384, 64] whose entry (n, d) is the region result's entry (d, n).
-/
import proofs.«129490_g31301721653836_cont_9to1_2280_18_alg».proof.Proof.Gen.KernelIdeal.Launch
import proofs.«129490_g31301721653836_cont_9to1_2280_18_alg».proof.Proof.ArraySpec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Idealize.ShloMosaic Idealize.ShloMosaic.ValueIdx Idealize.ShloMosaic.StableHlo
open Cert.KernelIdeal Cert.KernelIdeal.Gen

/-- The hidden result array: entry (n, d) is the region's first result at (d, n). -/
theorem v27_eq (V2 : Valuation τ sig (Elt Ideal)) :
    (StableHlo.after (hostOps1 (F := Ideal)) V2 (Proc.devRef .tc main_v27) : S16384x64.Idx → EReal)
      = fun i => (V2 (Proc.devRef .tc main_v26_0) : S64x16384.Idx → EReal) (ix2 (i 1) (i 0)) := by
  after_results
  funext i
  rw [eq_ix2 i]
  exact transpose_ix2_apply _ _ _ _

/-- The cell result array: entry (n, d) is the region's second result at (d, n). -/
theorem v28_eq (V2 : Valuation τ sig (Elt Ideal)) :
    (StableHlo.after (hostOps1 (F := Ideal)) V2 (Proc.devRef .tc main_v28) : S16384x64.Idx → EReal)
      = fun i => (V2 (Proc.devRef .tc main_v26_1) : S64x16384.Idx → EReal) (ix2 (i 1) (i 0)) := by
  after_results
  funext i
  rw [eq_ix2 i]
  exact transpose_ix2_apply _ _ _ _

end Cert.KernelIdeal.HostValue
end
-- ==== Proof.KernelValue.lean ====
/-
  The idealized kernel's run, read at its two results. After the region the two result arrays [64, 16384] hold, at
  (d, n), entry d of row n's final state in the kernel's arrangement; the two transposes after the region turn them
  into [16384, 64] arrays holding it at (n, d) — the whole-array functions of the ten arguments. The arguments end
  as launched.
-/
import proofs.«129490_g31301721653836_cont_9to1_2280_18_alg».proof.Proof.Frames
import proofs.«129490_g31301721653836_cont_9to1_2280_18_alg».proof.Proof.KFinal
import proofs.«129490_g31301721653836_cont_9to1_2280_18_alg».proof.Proof.HostTail

set_option maxRecDepth 16384

noncomputable section

namespace Cert.KernelIdeal.KRun

open Idealize.ShloMosaic Idealize.ShloMosaic.TcCoe Idealize.ShloMosaic.ValueIdx
open Idealize.SL Idealize.SL.Sem
open Cert.KernelIdeal Cert.KernelIdeal.Gen Cert.TreeCell

variable (m : (ℓ : Loc nD τ sig) → Buf (Elt Ideal) ℓ) (ρ : Dev nD → PrngReg)

/-- The first result array at the last boundary: the hidden result as a function of the arguments. -/
theorem W3_v27 (c : Dev nD) :
    (W3 (F := Ideal) m ρ c (Proc.devRef .tc main_v27) : S16384x64.Idx → EReal) = koutH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (Cert.KernelIdeal.HostValue.v27_eq (W2 (F := Ideal) m ρ c)).trans ?_
  funext i
  show (W2 (F := Ideal) m ρ c (Proc.devRef .tc main_v26_0) : S64x16384.Idx → EReal) (ix2 (i 1) (i 0)) = _
  rw [W2_out0]
  exact congrFun (Cert.KernelIdeal.KValue.final18 (W0 (F := Ideal) m ρ) c) (ix2 (i 1) (i 0))

/-- The second result array at the last boundary: the cell result as a function of the arguments. -/
theorem W3_v28 (c : Dev nD) :
    (W3 (F := Ideal) m ρ c (Proc.devRef .tc main_v28) : S16384x64.Idx → EReal) = koutC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (Cert.KernelIdeal.HostValue.v28_eq (W2 (F := Ideal) m ρ c)).trans ?_
  funext i
  show (W2 (F := Ideal) m ρ c (Proc.devRef .tc main_v26_1) : S64x16384.Idx → EReal) (ix2 (i 1) (i 0)) = _
  rw [W2_out1]
  exact congrFun (Cert.KernelIdeal.KValue.final19 (W0 (F := Ideal) m ρ) c) (ix2 (i 1) (i 0))

/-- The run: both results named, the arguments unchanged. -/
theorem run_value : θ_run (defs (F := Ideal)) (onTc (τ := τ) (main (F := Ideal))) ⟨m, fun _ => 0, ρ⟩ (fun r => ∀ c : Dev nD,
      r.2.mem ((c.tc : Thread nD τ).loc main_v27) = koutH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v28) = koutC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v27 (by decide))).trans (W3_v27 m ρ c),
      (h c _ (mem_uc main_v28 (by decide))).trans (W3_v28 m ρ c),
      (h c _ (mem_uc main_arg0 (by decide))).trans (W3_keep m ρ c main_arg0 (by decide) (by decide) (by decide) (by decide)),
      (h c _ (mem_uc main_arg1 (by decide))).trans (W3_keep m ρ c main_arg1 (by decide) (by decide) (by decide) (by decide)),
      (h c _ (mem_uc main_arg2 (by decide))).trans (W3_keep m ρ c main_arg2 (by decide) (by decide) (by decide) (by decide)),
      (h c _ (mem_uc main_arg3 (by decide))).trans (W3_keep m ρ c main_arg3 (by decide) (by decide) (by decide) (by decide)),
      (h c _ (mem_uc main_arg4 (by decide))).trans (W3_keep m ρ c main_arg4 (by decide) (by decide) (by decide) (by decide)),
      (h c _ (mem_uc main_arg5 (by decide))).trans (W3_keep m ρ c main_arg5 (by decide) (by decide) (by decide) (by decide)),
      (h c _ (mem_uc main_arg6 (by decide))).trans (W3_keep m ρ c main_arg6 (by decide) (by decide) (by decide) (by decide)),
      (h c _ (mem_uc main_arg7 (by decide))).trans (W3_keep m ρ c main_arg7 (by decide) (by decide) (by decide) (by decide)),
      (h c _ (mem_uc main_arg8 (by decide))).trans (W3_keep m ρ c main_arg8 (by decide) (by decide) (by decide) (by decide)),
      (h c _ (mem_uc main_arg9 (by decide))).trans (W3_keep m ρ c main_arg9 (by decide) (by decide) (by decide) (by decide))⟩) (run_all (F := Ideal) m ρ)

end Cert.KernelIdeal.KRun

end
-- ==== Proof.LibLogisticTanh.lean ====
/-
  Scalar facts on the extended reals behind the LSTM cell: the two float literals the programs spell (one half in the
  kernel, one in the reference), and the identity
      1/2 · tanh (z / 2) + 1/2 = 1 / (1 + e^(-z)),
  the logistic function written through tanh. It holds at EVERY extended real: on the reals it is the usual identity
  (with a = e^(z/2): (a - 1/a)/(a + 1/a) + 1 = 2a/(a + 1/a) = 2/(1 + 1/a²)), at +∞ both sides are 1 and at -∞ both are 0.
-/
import Idealize.ShloMosaic.PureOps.Ideal

noncomputable section

namespace Cert.LstmCell

open Idealize.ShloMosaic

/-- The word 0x3F000000 is the real 1/2. -/
theorem ofBits_half : Ideal.ofBits .f32 0x3F000000#32 = ((1 / 2 : ℝ) : EReal) := by
  simp [Ideal.ofBits, Ideal.ieee, -EReal.coe_mul]; norm_num

/-- The word 0x3F800000 is 1. -/
theorem ofBits_one : Ideal.ofBits .f32 0x3F800000#32 = 1 := by
  simp [Ideal.ofBits, Ideal.ieee, -EReal.coe_mul]; norm_num

/-- On the reals: 1/2 · tanh (r/2) + 1/2 = 1 / (1 + e^(-r)). -/
theorem real_logistic_eq_tanh (r : ℝ) :
    (1 / 2 : ℝ) * Real.tanh (1 / 2 * r) + 1 / 2 = (1 + Real.exp (-r))⁻¹ := by
  have ha : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  rw [Real.tanh_eq_sinh_div_cosh, Real.sinh_eq, Real.cosh_eq, h1, h2]
  field_simp
  ring

/-- The same on the extended reals, the infinities included: tanh is ±1 there, and the logistic function 1 and 0. -/
theorem logistic_eq_tanh (z : EReal) :
    ((1 / 2 : ℝ) : EReal) * Ideal.tanh (((1 / 2 : ℝ) : EReal) * z) + ((1 / 2 : ℝ) : EReal) = Ideal.logistic z := by
  induction z using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | coe r =>
    rw [← EReal.coe_mul, Ideal.tanh_coe, ← EReal.coe_mul, ← EReal.coe_add, Ideal.logistic_coe, real_logistic_eq_tanh]
  | top =>
    rw [EReal.coe_mul_top_of_pos (by norm_num), Ideal.tanh_top, Ideal.logistic_top, mul_one, ← EReal.coe_add]
    norm_num

/-- jax's expansion of the logistic function, one divided by one plus the exponential of the negation, is the
    logistic function. -/
theorem div_one_add_exp_neg (z : EReal) : Ideal.div 1 (1 + Ideal.exp (-z)) = Ideal.logistic z := rfl

end Cert.LstmCell

end
-- ==== Proof.RefOps.lean ====
/-
  One tree cell of the reference, as operations on whole arrays, and what each of them holds at one index.

  The reference computes a cell on all 16384 batch rows at once: the two hidden arrays [16384, 64] are multiplied by
  their weight matrices [64, 320], the products added, the bias [320] laid along every row and added (`gates`); the
  320 columns are cut into five blocks of 64; the logistic function is spelt 1 / (1 + exp (-x)) (`lgst`); then
      c = (σ(g_i) · tanh(g_u) + σ(g_fl) · c_left) + σ(g_fr) · c_right   (`newC`),      h = σ(g_o) · tanh(c)   (`newH`).
  A level of a stack [8, 16384, 64] is a slice of one member, reshaped to [16384, 64] (`lev`).

  Read at row n and entry d these are the scalar cell of the specification on row n of each array: every operation
  is either pointwise or moves one index to one index, except the matrix product, a sum over the 64 contracted
  coordinates.
-/
import proofs.«129490_g31301721653836_cont_9to1_2280_18_alg».proof.Proof.Gen.ReferenceIdeal
import proofs.«129490_g31301721653836_cont_9to1_2280_18_alg».proof.Proof.ArraySpec
import proofs.«129490_g31301721653836_cont_9to1_2280_18_alg».proof.Proof.LibLogisticTanh
import Idealize.ShloMosaic.Lib.StackMember
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx Cert.TreeCell

/-- The array types of the program at the extended reals. -/
abbrev VBD : Type := FVec Ideal S16384x64 .f32
abbrev VLBD : Type := FVec Ideal S8x16384x64 .f32
abbrev VW : Type := FVec Ideal S64x320 .f32
abbrev VG : Type := FVec Ideal S320 .f32
abbrev VBG : Type := FVec Ideal S16384x320 .f32

/-! ## The operations of one cell -/

/-- The array of ones: the scalar word of 1 laid over [16384, 64]. -/
def ones : VBD := broadcastInDim S16384x64 ![] bcast_S_S16384x64 (constant (F := Ideal) S_ .f32 0x3F800000#32)

/-- The logistic function as the reference spells it: one divided by one plus the exponential of the negation. -/
def lgst (x : VBD) : VBD := Host.divf (F := Ideal) ones (addf ones (Host.exp (F := Ideal) (Host.negf (F := Ideal) x)))

/-- The 320 gate pre-activations of every row: two products added, then the bias along every row. -/
def gates (hl hr : VBD) (Ul Ur : VW) (b : VG) : VBG :=
  addf (addf (Host.dotGeneral (F := Ideal) dot_S16384x64_S64x320_S16384x320_1_0_0_1_n_n none hl Ul)
      (Host.dotGeneral (F := Ideal) dot_S16384x64_S64x320_S16384x320_1_0_0_1_n_n none hr Ur))
    (broadcastInDim S16384x320 ![0, 1] bcast_S1x320_S16384x320_0_1 (broadcastInDim S1x320 ![1] bcast_S320_S1x320_1 b))

/-- The five blocks of 64 columns. -/
def blk0 (P : VBG) : VBD := extractStridedSlice S16384x64 ![0, 0] P slices_S16384x320_S16384x64_0_0
def blk1 (P : VBG) : VBD := extractStridedSlice S16384x64 ![0, 64] P slices_S16384x320_S16384x64_0_64
def blk2 (P : VBG) : VBD := extractStridedSlice S16384x64 ![0, 128] P slices_S16384x320_S16384x64_0_128
def blk3 (P : VBG) : VBD := extractStridedSlice S16384x64 ![0, 192] P slices_S16384x320_S16384x64_0_192
def blk4 (P : VBG) : VBD := extractStridedSlice S16384x64 ![0, 256] P slices_S16384x320_S16384x64_0_256

/-- The new cell array from the pre-activations `P` and the two old cell arrays. -/
def newC (P : VBG) (cl cr : VBD) : VBD :=
  addf (addf (mulf (lgst (blk0 P)) (Host.tanh (F := Ideal) (blk4 P))) (mulf (lgst (blk1 P)) cl)) (mulf (lgst (blk2 P)) cr)

/-- The new hidden array from the pre-activations and the new cell array. -/
def newH (P : VBG) (C : VBD) : VBD := mulf (lgst (blk3 P)) (Host.tanh (F := Ideal) C)

/-- One member of a stack of eight, as an array [16384, 64]: the slice at `off`, its unit axis dropped. -/
def lev (off : Fin 3 → Nat) (h : S8x16384x64.Slices off S1x16384x64) (A : VLBD) : VBD :=
  shapeCast S16384x64 (extractStridedSlice S1x16384x64 off A h) shapeCasts_S1x16384x64_S16384x64

/-! ## Each operation at an index -/

/-- Row `n` of an array [16384, 64]. -/
def row (X : VBD) (n : Fin 16384) : Fin 64 → EReal := fun d => X (ix2 n d)

theorem ones_apply (i : S16384x64.Idx) : ones i = 1 := Cert.LstmCell.ofBits_one

theorem lgst_apply (x : VBD) (i : S16384x64.Idx) : lgst x i = Ideal.logistic (x i) := by
  show Ideal.div (ones i) (ones i + Ideal.exp (-(x i))) = _
  rw [ones_apply]
  rfl

/-- Block `g` of the columns at (n, d) is column 64·g + d. -/
theorem blk_apply (off : Fin 2 → Nat) (h : S16384x320.Slices off S16384x64) (g : Fin 5) (h0 : off 0 = 0)
    (h1 : off 1 = 64 * g.val) (P : VBG) (n : Fin 16384) (d : Fin 64) :
    extractStridedSlice S16384x64 off P h (ix2 n d) = P (ix2 n (col g d)) := by
  refine extractStridedSlice_apply off P h (ix2 n d) (ix2 n (col g d)) fun a => ?_
  match a with
  | ⟨0, _⟩ => show n.val = off 0 + n.val; omega
  | ⟨1, _⟩ => show 64 * g.val + d.val = off 1 + d.val; omega

theorem blk0_apply (P : VBG) (n : Fin 16384) (d : Fin 64) : blk0 P (ix2 n d) = P (ix2 n (col 0 d)) :=
  blk_apply _ _ 0 rfl rfl P n d
theorem blk1_apply (P : VBG) (n : Fin 16384) (d : Fin 64) : blk1 P (ix2 n d) = P (ix2 n (col 1 d)) :=
  blk_apply _ _ 1 rfl rfl P n d
theorem blk2_apply (P : VBG) (n : Fin 16384) (d : Fin 64) : blk2 P (ix2 n d) = P (ix2 n (col 2 d)) :=
  blk_apply _ _ 2 rfl rfl P n d
theorem blk3_apply (P : VBG) (n : Fin 16384) (d : Fin 64) : blk3 P (ix2 n d) = P (ix2 n (col 3 d)) :=
  blk_apply _ _ 3 rfl rfl P n d
theorem blk4_apply (P : VBG) (n : Fin 16384) (d : Fin 64) : blk4 P (ix2 n d) = P (ix2 n (col 4 d)) :=
  blk_apply _ _ 4 rfl rfl P n d

/-- The bias laid along every row, at (n, j), is entry j of the bias. -/
theorem bias_apply (b : VG) (n : Fin 16384) (j : Fin 320) :
    broadcastInDim S16384x320 ![0, 1] bcast_S1x320_S16384x320_0_1 (broadcastInDim S1x320 ![1] bcast_S320_S1x320_1 b) (ix2 n j)
      = b (ix1 j) := by
  refine (broadcastInDim_apply _ _ _ (ix2 n j) (ix2 (0 : Fin 1) j) fun a => ?_).trans ?_
  · match a with
    | ⟨0, _⟩ => rfl
    | ⟨1, _⟩ => rfl
  · refine broadcastInDim_apply _ _ b (ix2 (0 : Fin 1) j) (ix1 j) fun a => ?_
    match a with
    | ⟨0, _⟩ => rfl

/-- The matrix product at (n, j) is the sum over the 64 contracted coordinates. -/
theorem dot_apply (A : VBD) (B : VW) (n : Fin 16384) (j : Fin 320) :
    Host.dotGeneral (F := Ideal) dot_S16384x64_S64x320_S16384x320_1_0_0_1_n_n none A B (ix2 n j)
      = ∑ k : Fin 64, A (ix2 n k) * B (ix2 k j) :=
  Idealize.ShloMosaic.StackMember.dotGeneral_plain_apply (m := 16384) (n := 320) (k := 64) none A B n j

/-- The pre-activations at (n, j) are the specification's gate `j` on row `n` of the two hidden arrays. -/
theorem gates_apply (hl hr : VBD) (Ul Ur : VW) (b : VG) (n : Fin 16384) (j : Fin 320) :
    gates hl hr Ul Ur b (ix2 n j) = gate (row hl n) (row hr n) (mat Ul) (mat Ur) (vec b) j := by
  show (Host.dotGeneral (F := Ideal) dot_S16384x64_S64x320_S16384x320_1_0_0_1_n_n none hl Ul (ix2 n j)
      + Host.dotGeneral (F := Ideal) dot_S16384x64_S64x320_S16384x320_1_0_0_1_n_n none hr Ur (ix2 n j))
    + broadcastInDim S16384x320 ![0, 1] bcast_S1x320_S16384x320_0_1 (broadcastInDim S1x320 ![1] bcast_S320_S1x320_1 b) (ix2 n j) = _
  rw [dot_apply, dot_apply, bias_apply]
  rfl

/-- Member `p` of a stack at (n, d) is the stack at (p, n, d). -/
theorem lev_apply (p : Fin 8) (off : Fin 3 → Nat) (h : S8x16384x64.Slices off S1x16384x64) (h0 : off 0 = p.val)
    (h1 : off 1 = 0) (h2 : off 2 = 0) (A : VLBD) (n : Fin 16384) (d : Fin 64) :
    lev off h A (ix2 n d) = A (ix3 p n d) := by
  unfold lev
  refine (shapeCast_apply _ _ (ix2 n d) (ix3 (0 : Fin 1) n d) ?_).trans ?_
  · rw [Shape.rowMajor_val_three, Shape.rowMajor_val_two]
    show ((0 : ℕ) * 16384 + n.val) * 64 + d.val = n.val * 64 + d.val
    omega
  · refine extractStridedSlice_apply off A h (ix3 (0 : Fin 1) n d) (ix3 p n d) fun a => ?_
    match a with
    | ⟨0, _⟩ => show p.val = off 0 + 0; omega
    | ⟨1, _⟩ => show n.val = off 1 + n.val; omega
    | ⟨2, _⟩ => show d.val = off 2 + d.val; omega

/-! ## The cell at an index -/

/-- The new cell array at (n, d) is the specification's `cellC` on row `n`. -/
theorem newC_apply (hl cl hr cr : VBD) (Ul Ur : VW) (b : VG) (n : Fin 16384) (d : Fin 64) :
    newC (gates hl hr Ul Ur b) cl cr (ix2 n d)
      = cellC (row hl n, row cl n) (row hr n, row cr n) (mat Ul) (mat Ur) (vec b) d := by
  show (lgst (blk0 (gates hl hr Ul Ur b)) (ix2 n d) * Ideal.tanh (blk4 (gates hl hr Ul Ur b) (ix2 n d))
      + lgst (blk1 (gates hl hr Ul Ur b)) (ix2 n d) * cl (ix2 n d))
    + lgst (blk2 (gates hl hr Ul Ur b)) (ix2 n d) * cr (ix2 n d) = _
  rw [lgst_apply, lgst_apply, lgst_apply, blk0_apply, blk1_apply, blk2_apply, blk4_apply, gates_apply, gates_apply,
    gates_apply, gates_apply]
  rfl

/-- The new hidden array at (n, d) is the specification's `cellH` on row `n`. -/
theorem newH_apply (hl cl hr cr : VBD) (Ul Ur : VW) (b : VG) (n : Fin 16384) (d : Fin 64) :
    newH (gates hl hr Ul Ur b) (newC (gates hl hr Ul Ur b) cl cr) (ix2 n d)
      = cellH (row hl n, row cl n) (row hr n, row cr n) (mat Ul) (mat Ur) (vec b) d := by
  show lgst (blk3 (gates hl hr Ul Ur b)) (ix2 n d) * Ideal.tanh (newC (gates hl hr Ul Ur b) cl cr (ix2 n d)) = _
  rw [lgst_apply, blk3_apply, gates_apply, newC_apply]
  rfl

/-- Row `n` of the pair of arrays a cell produces is the specification's cell on row `n` of the four it joins. -/
theorem cell_row (hl cl hr cr : VBD) (Ul Ur : VW) (b : VG) (n : Fin 16384) :
    (row (newH (gates hl hr Ul Ur b) (newC (gates hl hr Ul Ur b) cl cr)) n, row (newC (gates hl hr Ul Ur b) cl cr) n)
      = cell (row hl n, row cl n) (row hr n, row cr n) (mat Ul) (mat Ur) (vec b) :=
  Prod.ext (funext fun d => newH_apply hl cl hr cr Ul Ur b n d) (funext fun d => newC_apply hl cl hr cr Ul Ur b n d)

end Cert.ReferenceIdeal.RefValue

end
-- ==== Proof.RefChain.lean ====
/-
  The six cells in a chain, on whole arrays, and the chain read at one row.

  The reference joins level 0 of the stack (left) with the new state (right) under the merge weights, then joins the
  running pair of arrays (left) with levels 2, 3, 5, 6, 7 (right) under the summary weights. Each cell acts on every
  batch row separately, so row n of the final pair of arrays is the specification's chain of six scalar cells on row n
  of the inputs; the two result arrays are therefore the specification's `outH` and `outC`.
-/
import proofs.«129490_g31301721653836_cont_9to1_2280_18_alg».proof.Proof.RefOps

noncomputable section

namespace Cert.ReferenceIdeal.RefValue

open Cert.ReferenceIdeal Cert.ReferenceIdeal.Gen Idealize.ShloMosaic Idealize.ShloMosaic.ValueIdx Cert.TreeCell

/-- One cell on whole arrays: the pair (hidden, cell) it produces from the left pair (H, C) and the right pair (hr, cr). -/
def stepA (H C hr cr : VBD) (Ul Ur : VW) (b : VG) : VBD × VBD :=
  (newH (gates H hr Ul Ur b) (newC (gates H hr Ul Ur b) C cr), newC (gates H hr Ul Ur b) C cr)

/-- Row `n` of what a cell produces is the scalar cell on row `n` of what it joins. -/
theorem stepA_row (H C hr cr : VBD) (Ul Ur : VW) (b : VG) (n : Fin 16384) :
    (row (stepA H C hr cr Ul Ur b).1 n, row (stepA H C hr cr Ul Ur b).2 n)
      = cell (row H n, row C n) (row hr n, row cr n) (mat Ul) (mat Ur) (vec b) :=
  cell_row H C hr cr Ul Ur b n

/-- The six levels the chain reads, as arrays [16384, 64]. -/
def lev0 (A : VLBD) : VBD := lev ![0, 0, 0] slices_S8x16384x64_S1x16384x64_0_0_0 A
def lev2 (A : VLBD) : VBD := lev ![2, 0, 0] slices_S8x16384x64_S1x16384x64_2_0_0 A
def lev3 (A : VLBD) : VBD := lev ![3, 0, 0] slices_S8x16384x64_S1x16384x64_3_0_0 A
def lev5 (A : VLBD) : VBD := lev ![5, 0, 0] slices_S8x16384x64_S1x16384x64_5_0_0 A
def lev6 (A : VLBD) : VBD := lev ![6, 0, 0] slices_S8x16384x64_S1x16384x64_6_0_0 A
def lev7 (A : VLBD) : VBD := lev ![7, 0, 0] slices_S8x16384x64_S1x16384x64_7_0_0 A

/-- Row `n` of level `p` of the two stacks is the specification's level state. -/
theorem lev_row (p : Fin 8) (off : Fin 3 → Nat) (h : S8x16384x64.Slices off S1x16384x64) (h0 : off 0 = p.val)
    (h1 : off 1 = 0) (h2 : off 2 = 0) (hL cL : VLBD) (n : Fin 16384) :
    (row (lev off h hL) n, row (lev off h cL) n) = levSt hL cL n p :=
  Prod.ext (funext fun d => lev_apply p off h h0 h1 h2 hL n d) (funext fun d => lev_apply p off h h0 h1 h2 cL n d)

theorem lev0_row (hL cL : VLBD) (n : Fin 16384) : (row (lev0 hL) n, row (lev0 cL) n) = levSt hL cL n 0 :=
  lev_row 0 _ _ rfl rfl rfl hL cL n
theorem lev2_row (hL cL : VLBD) (n : Fin 16384) : (row (lev2 hL) n, row (lev2 cL) n) = levSt hL cL n 2 :=
  lev_row 2 _ _ rfl rfl rfl hL cL n
theorem lev3_row (hL cL : VLBD) (n : Fin 16384) : (row (lev3 hL) n, row (lev3 cL) n) = levSt hL cL n 3 :=
  lev_row 3 _ _ rfl rfl rfl hL cL n
theorem lev5_row (hL cL : VLBD) (n : Fin 16384) : (row (lev5 hL) n, row (lev5 cL) n) = levSt hL cL n 5 :=
  lev_row 5 _ _ rfl rfl rfl hL cL n
theorem lev6_row (hL cL : VLBD) (n : Fin 16384) : (row (lev6 hL) n, row (lev6 cL) n) = levSt hL cL n 6 :=
  lev_row 6 _ _ rfl rfl rfl hL cL n
theorem lev7_row (hL cL : VLBD) (n : Fin 16384) : (row (lev7 hL) n, row (lev7 cL) n) = levSt hL cL n 7 :=
  lev_row 7 _ _ rfl rfl rfl hL cL n

section Chain
variable (a0 a1 : VBD) (a2 a3 : VLBD) (a4 a5 : VW) (a6 : VG) (a7 a8 : VW) (a9 : VG)

/-- The pair of arrays after the first cell (level 0 joined with the new state), … after the sixth. -/
def ch1 : VBD × VBD := stepA (lev0 a2) (lev0 a3) a0 a1 a4 a5 a6
def ch2 : VBD × VBD := stepA (ch1 a0 a1 a2 a3 a4 a5 a6).1 (ch1 a0 a1 a2 a3 a4 a5 a6).2 (lev2 a2) (lev2 a3) a7 a8 a9
def ch3 : VBD × VBD :=
  stepA (ch2 a0 a1 a2 a3 a4 a5 a6 a7 a8 a9).1 (ch2 a0 a1 a2 a3 a4 a5 a6 a7 a8 a9).2 (lev3 a2) (lev3 a3) a7 a8 a9
def ch4 : VBD × VBD :=
  stepA (ch3 a0 a1 a2 a3 a4 a5 a6 a7 a8 a9).1 (ch3 a0 a1 a2 a3 a4 a5 a6 a7 a8 a9).2 (lev5 a2) (lev5 a3) a7 a8 a9
def ch5 : VBD × VBD :=
  stepA (ch4 a0 a1 a2 a3 a4 a5 a6 a7 a8 a9).1 (ch4 a0 a1 a2 a3 a4 a5 a6 a7 a8 a9).2 (lev6 a2) (lev6 a3) a7 a8 a9
def ch6 : VBD × VBD :=
  stepA (ch5 a0 a1 a2 a3 a4 a5 a6 a7 a8 a9).1 (ch5 a0 a1 a2 a3 a4 a5 a6 a7 a8 a9).2 (lev7 a2) (lev7 a3) a7 a8 a9

/-- Row `n` of the final pair is the specification's state of row `n`. -/
theorem ch6_row (n : Fin 16384) :
    (row (ch6 a0 a1 a2 a3 a4 a5 a6 a7 a8 a9).1 n, row (ch6 a0 a1 a2 a3 a4 a5 a6 a7 a8 a9).2 n)
      = rowSt a0 a1 a2 a3 a4 a5 a6 a7 a8 a9 n := by
  unfold ch6 ch5 ch4 ch3 ch2 ch1
  rw [stepA_row, stepA_row, stepA_row, stepA_row, stepA_row, stepA_row, lev0_row, lev2_row, lev3_row, lev5_row, lev6_row,
    lev7_row]
  rfl

/-- The final hidden array is the specification's. -/
theorem ch6_fst : (ch6 a0 a1 a2 a3 a4 a5 a6 a7 a8 a9).1 = outH a0 a1 a2 a3 a4 a5 a6 a7 a8 a9 := by
  funext i
  obtain ⟨n, d, rfl⟩ : ∃ (n : Fin 16384) (d : Fin 64), i = ix2 n d := ⟨i 0, i 1, eq_ix2 i⟩
  exact congrFun (congrArg Prod.fst (ch6_row a0 a1 a2 a3 a4 a5 a6 a7 a8 a9 n)) d

/-- The final cell array is the specification's. -/
theorem ch6_snd : (ch6 a0 a1 a2 a3 a4 a5 a6 a7 a8 a9).2 = outC a0 a1 a2 a3 a4 a5 a6 a7 a8 a9 := by
  funext i
  obtain ⟨n, d, rfl⟩ : ∃ (n : Fin 16384) (d : Fin 64), i = ix2 n d := ⟨i 0, i 1, eq_ix2 i⟩
  exact congrFun (congrArg Prod.snd (ch6_row a0 a1 a2 a3 a4 a5 a6 a7 a8 a9 n)) d

end Chain

end Cert.ReferenceIdeal.RefValue

end
-- ==== Proof.RefRun.lean ====
/-
  The reference's run ends with the specification's two arrays.

  The run of the reference's 330 operations leaves each result as the composed term of the argument arrays, built
  from named intermediate terms: the pre-activations of each of the six cells and the cell array each produces. Each
  named term is, by unfolding one definition, one whole-array cell applied to the terms before it; so the pair of
  results is the six-cell chain on whole arrays, which is the specification's pair of arrays.
-/
import proofs.«129490_g31301721653836_cont_9to1_2280_18_alg».proof.Proof.Gen.ReferenceIdeal.Run
import proofs.«129490_g31301721653836_cont_9to1_2280_18_alg».proof.Proof.RefChain

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.TreeCell

section Link
variable (V0 : Valuation τ sig (Elt Ideal))

/-- The ten argument arrays as the device holds them. -/
abbrev g0 : VBD := V0 (Proc.devRef .tc main_arg0)
abbrev g1 : VBD := V0 (Proc.devRef .tc main_arg1)
abbrev g2 : VLBD := V0 (Proc.devRef .tc main_arg2)
abbrev g3 : VLBD := V0 (Proc.devRef .tc main_arg3)
abbrev g4 : VW := V0 (Proc.devRef .tc main_arg4)
abbrev g5 : VW := V0 (Proc.devRef .tc main_arg5)
abbrev g6 : VG := V0 (Proc.devRef .tc main_arg6)
abbrev g7 : VW := V0 (Proc.devRef .tc main_arg7)
abbrev g8 : VW := V0 (Proc.devRef .tc main_arg8)
abbrev g9 : VG := V0 (Proc.devRef .tc main_arg9)

/-- The named terms of the first cell are the first whole-array cell. -/
theorem link1 : ((newH (Value.res_main_v29 (F := Ideal) V0) (Value.res_main_v58 (F := Ideal) V0), Value.res_main_v58 (F := Ideal) V0) : VBD × VBD) = ch1 (g0 V0) (g1 V0) (g2 V0) (g3 V0) (g4 V0) (g5 V0) (g6 V0) := rfl

/-- Each later cell's named terms are one whole-array cell applied to the cell before. -/
theorem link2 : ((newH (Value.res_main_v72 (F := Ideal) V0) (Value.res_main_v101 (F := Ideal) V0), Value.res_main_v101 (F := Ideal) V0) : VBD × VBD) = ch2 (g0 V0) (g1 V0) (g2 V0) (g3 V0) (g4 V0) (g5 V0) (g6 V0) (g7 V0) (g8 V0) (g9 V0) := by
  unfold ch2; rw [← link1]; rfl

theorem link3 : ((newH (Value.res_main_v115 (F := Ideal) V0) (Value.res_main_v144 (F := Ideal) V0), Value.res_main_v144 (F := Ideal) V0) : VBD × VBD) = ch3 (g0 V0) (g1 V0) (g2 V0) (g3 V0) (g4 V0) (g5 V0) (g6 V0) (g7 V0) (g8 V0) (g9 V0) := by
  unfold ch3; rw [← link2]; rfl

theorem link4 : ((newH (Value.res_main_v158 (F := Ideal) V0) (Value.res_main_v187 (F := Ideal) V0), Value.res_main_v187 (F := Ideal) V0) : VBD × VBD) = ch4 (g0 V0) (g1 V0) (g2 V0) (g3 V0) (g4 V0) (g5 V0) (g6 V0) (g7 V0) (g8 V0) (g9 V0) := by
  unfold ch4; rw [← link3]; rfl

theorem link5 : ((newH (Value.res_main_v201 (F := Ideal) V0) (Value.res_main_v230 (F := Ideal) V0), Value.res_main_v230 (F := Ideal) V0) : VBD × VBD) = ch5 (g0 V0) (g1 V0) (g2 V0) (g3 V0) (g4 V0) (g5 V0) (g6 V0) (g7 V0) (g8 V0) (g9 V0) := by
  unfold ch5; rw [← link4]; rfl

theorem link6 : ((newH (Value.res_main_v244 (F := Ideal) V0) (newC (Value.res_main_v244 (F := Ideal) V0) (Value.res_main_v230 (F := Ideal) V0) (lev7 (g3 V0))), (newC (Value.res_main_v244 (F := Ideal) V0) (Value.res_main_v230 (F := Ideal) V0) (lev7 (g3 V0)))) : VBD × VBD) = ch6 (g0 V0) (g1 V0) (g2 V0) (g3 V0) (g4 V0) (g5 V0) (g6 V0) (g7 V0) (g8 V0) (g9 V0) := by
  unfold ch6; rw [← link5]; rfl

/-- The hidden result's term is the specification's hidden array. -/
theorem finalH : newH (Value.res_main_v244 (F := Ideal) V0) (newC (Value.res_main_v244 (F := Ideal) V0) (Value.res_main_v230 (F := Ideal) V0) (lev7 (g3 V0))) = outH (g0 V0) (g1 V0) (g2 V0) (g3 V0) (g4 V0) (g5 V0) (g6 V0) (g7 V0) (g8 V0) (g9 V0) :=
  (congrArg Prod.fst (link6 V0)).trans (ch6_fst _ _ _ _ _ _ _ _ _ _)

/-- The cell result's term is the specification's cell array. -/
theorem finalC : (newC (Value.res_main_v244 (F := Ideal) V0) (Value.res_main_v230 (F := Ideal) V0) (lev7 (g3 V0))) = outC (g0 V0) (g1 V0) (g2 V0) (g3 V0) (g4 V0) (g5 V0) (g6 V0) (g7 V0) (g8 V0) (g9 V0) :=
  (congrArg Prod.snd (link6 V0)).trans (ch6_snd _ _ _ _ _ _ _ _ _ _)

end Link

/-- Every weakly fair execution of the reference terminates with the hidden result at `outH` and the cell result at
    `outC` of the ten argument arrays, and the argument arrays unchanged. -/
theorem run_spec (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev nD,
      r.2.mem ((c.tc : Thread nD τ).loc main_v281) = outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v273) = outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (finalH (launchContents m c)),
      (h c).2.1.trans (finalC (launchContents m c)), (h c).2.2⟩)
    (Value.run (F := Ideal) m ρ)

end Cert.ReferenceIdeal.RefValue

end
-- ==== Proof.RefFrame.lean ====
/-
  The reference runs and leaves its ten argument arrays as they were: its run, with the two result arrays forgotten.
-/
import proofs.«129490_g31301721653836_cont_9to1_2280_18_alg».proof.Proof.Gen.ReferenceIdeal.Run
import proofs.«129490_g31301721653836_cont_9to1_2280_18_alg».proof.Proof.Gen.Pre_finite_inputs
import proofs.«129490_g31301721653836_cont_9to1_2280_18_alg».proof.Defs

noncomputable section

namespace Cert.ReferenceIdeal.RefValue

open Idealize.ShloMosaic Idealize.SL.Sem

/-- Every weakly fair execution of the reference terminates with the argument arrays unchanged. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

end Cert.ReferenceIdeal.RefValue

end
-- ==== Proof.RefValue.lean ====
/-
  The reference's value: its run ends with the specification's hidden and cell arrays (`run_spec`), and leaves its
  argument arrays unchanged (`frame_ri`). The parts: the operations of one cell at an index (RefOps), the chain of six
  on whole arrays read at a row (RefChain), the run's composed terms as that chain (RefRun), the frame (RefFrame).
-/
import proofs.«129490_g31301721653836_cont_9to1_2280_18_alg».proof.Proof.RefRun
import proofs.«129490_g31301721653836_cont_9to1_2280_18_alg».proof.Proof.RefFrame
-- ==== Proof.CellLaw.lean ====
/-
  The algebraic law for one cell: on real-valued inputs the kernel's arrangement and the reference's arrangement of a
  tree cell agree.

  The kernel contracts once over 128 against stacked weights whose column j was multiplied by a scale s_j beforehand
  (s_j = 1/2 on the four logistic blocks, 1 on the update block), the bias likewise. On the reals
      Σ_{k<128} (W k j · s_j) · v k + b j · s_j = s_j · ((Σ_{k<64} hl k · Ul k j + Σ_{k<64} hr k · Ur k j) + b j),
  by splitting the sum into its two halves and pulling the scalar out. Distributivity fails at the infinities of the
  extended reals, so every input is assumed real-valued and the identity is proved in ℝ, then transported along the
  coercion. With s_j = 1/2 the rebuilt gate 1/2 + 1/2 · tanh (g/2) is the logistic function of g; with s_j = 1 the
  pre-activation is unchanged.
-/
import proofs.«129490_g31301721653836_cont_9to1_2280_18_alg».proof.Proof.CellSpec
import proofs.«129490_g31301721653836_cont_9to1_2280_18_alg».proof.Proof.LibLogisticTanh

noncomputable section

namespace Cert.TreeCell

open Idealize.ShloMosaic

/-- A family of extended reals all of whose members are real numbers. -/
def IsReal {α : Type} (f : α → EReal) : Prop := ∀ a, ∃ x : ℝ, f a = (x : EReal)

/-- A real-valued family is the coercion of a family of reals. -/
theorem IsReal.exists_fun {α : Type} {f : α → EReal} (h : IsReal f) :
    ∃ g : α → ℝ, f = fun a => (g a : EReal) := by
  choose g hg using h
  exact ⟨g, funext hg⟩

/-- The coercion ℝ → EReal commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 128 indices is the sum over the first 64 plus the sum over the last 64. -/
theorem sum_128_split (F : Fin 128 → EReal) :
    ∑ k : Fin 128, F k
      = (∑ k : Fin 64, F ⟨k.val, by omega⟩) + ∑ k : Fin 64, F ⟨64 + k.val, by omega⟩ :=
  Fin.sum_univ_add (a := 64) (b := 64) (M := EReal) F

theorem stackW_lo (Ul Ur : Fin 64 → Fin 320 → EReal) (k : Fin 64) (j : Fin 320) :
    stackW Ul Ur ⟨k.val, by omega⟩ j = Ul k j := by
  simp [stackW]

theorem stackW_hi (Ul Ur : Fin 64 → Fin 320 → EReal) (k : Fin 64) (j : Fin 320) :
    stackW Ul Ur ⟨64 + k.val, by omega⟩ j = Ur k j := by
  simp [stackW]

theorem stackV_lo (hl hr : Fin 64 → EReal) (k : Fin 64) :
    stackV hl hr ⟨k.val, by omega⟩ = hl k := by
  simp [stackV]

theorem stackV_hi (hl hr : Fin 64 → EReal) (k : Fin 64) :
    stackV hl hr ⟨64 + k.val, by omega⟩ = hr k := by
  simp [stackV]

/-- The scale of a column is a real number. -/
theorem scale_real (j : Fin 320) : ∃ s : ℝ, scale j = (s : EReal) := by
  unfold scale half unit
  split_ifs
  · exact ⟨1 / 2, Cert.LstmCell.ofBits_half⟩
  · exact ⟨1, by rw [Cert.LstmCell.ofBits_one, EReal.coe_one]⟩

/-- The kernel's contraction without any realness: the 128-sum split into its two 64-sums. -/
theorem wgate_prep_split (hl hr : Fin 64 → EReal) (Ul Ur : Fin 64 → Fin 320 → EReal) (b : Fin 320 → EReal)
    (j : Fin 320) :
    wgate (prepW Ul Ur) (prepB b) hl hr j
      = ((∑ k : Fin 64, (Ul k j * scale j) * hl k) + ∑ k : Fin 64, (Ur k j * scale j) * hr k)
          + b j * scale j := by
  unfold wgate prepW prepB
  rw [sum_128_split]
  simp only [stackW_lo, stackW_hi, stackV_lo, stackV_hi]

/-- On real-valued inputs the kernel's pre-activation is the scale times the reference's pre-activation. -/
theorem wgate_prep (hl hr : Fin 64 → EReal) (Ul Ur : Fin 64 → Fin 320 → EReal) (b : Fin 320 → EReal)
    (hhl : IsReal hl) (hhr : IsReal hr)
    (hUl : ∀ k j, ∃ x : ℝ, Ul k j = (x : EReal)) (hUr : ∀ k j, ∃ x : ℝ, Ur k j = (x : EReal))
    (hb : IsReal b) (j : Fin 320) :
    wgate (prepW Ul Ur) (prepB b) hl hr j = scale j * gate hl hr Ul Ur b j := by
  obtain ⟨s, hs⟩ := scale_real j
  obtain ⟨hl', rfl⟩ := hhl.exists_fun
  obtain ⟨hr', rfl⟩ := hhr.exists_fun
  obtain ⟨b', rfl⟩ := hb.exists_fun
  choose Ul' hUl' using hUl
  choose Ur' hUr' using hUr
  rw [wgate_prep_split]
  unfold gate
  simp only [hUl', hUr', hs]
  simp only [← EReal.coe_mul, ← coe_finset_sum, ← EReal.coe_add]
  congr 1
  rw [mul_add, mul_add, Finset.mul_sum, Finset.mul_sum]
  congr 1
  · congr 1 <;> exact Finset.sum_congr rfl (fun k _ => by ring)
  · ring

/-- The reference's pre-activation of real-valued inputs is a real number. -/
theorem gate_real (hl hr : Fin 64 → EReal) (Ul Ur : Fin 64 → Fin 320 → EReal) (b : Fin 320 → EReal)
    (hhl : IsReal hl) (hhr : IsReal hr)
    (hUl : ∀ k j, ∃ x : ℝ, Ul k j = (x : EReal)) (hUr : ∀ k j, ∃ x : ℝ, Ur k j = (x : EReal))
    (hb : IsReal b) (j : Fin 320) :
    ∃ x : ℝ, gate hl hr Ul Ur b j = (x : EReal) := by
  obtain ⟨hl', rfl⟩ := hhl.exists_fun
  obtain ⟨hr', rfl⟩ := hhr.exists_fun
  obtain ⟨b', rfl⟩ := hb.exists_fun
  choose Ul' hUl' using hUl
  choose Ur' hUr' using hUr
  unfold gate
  simp only [hUl', hUr']
  simp only [← EReal.coe_mul, ← coe_finset_sum, ← EReal.coe_add]
  exact ⟨_, rfl⟩

/-! ## The gates -/

theorem col_lt_of_le (g : Fin 5) (d : Fin 64) (hg : g.val ≤ 3) : (col g d).val < 256 := by
  have := d.isLt
  show 64 * g.val + d.val < 256
  omega

theorem col_four_not_lt (d : Fin 64) : ¬ (col 4 d).val < 256 := by
  show ¬ (64 * 4 + d.val < 256)
  omega

/-- On a logistic block (scale 1/2) the rebuilt gate 1/2 + 1/2 · tanh is the logistic function of the reference's
    pre-activation. -/
theorem wsig_prep (hl hr : Fin 64 → EReal) (Ul Ur : Fin 64 → Fin 320 → EReal) (b : Fin 320 → EReal)
    (hhl : IsReal hl) (hhr : IsReal hr)
    (hUl : ∀ k j, ∃ x : ℝ, Ul k j = (x : EReal)) (hUr : ∀ k j, ∃ x : ℝ, Ur k j = (x : EReal))
    (hb : IsReal b) (j : Fin 320) (hj : j.val < 256) :
    wsig (prepW Ul Ur) (prepB b) hl hr j = Ideal.logistic (gate hl hr Ul Ur b j) := by
  unfold wsig
  rw [wgate_prep hl hr Ul Ur b hhl hhr hUl hUr hb j]
  have hs : scale j = half := by unfold scale; exact if_pos hj
  have hh : half = ((1 / 2 : ℝ) : EReal) := Cert.LstmCell.ofBits_half
  rw [hs, hh, add_comm]
  exact Cert.LstmCell.logistic_eq_tanh _

/-- On the update block (scale 1) the kernel's pre-activation is the reference's. -/
theorem wgate_prep_unit (hl hr : Fin 64 → EReal) (Ul Ur : Fin 64 → Fin 320 → EReal) (b : Fin 320 → EReal)
    (hhl : IsReal hl) (hhr : IsReal hr)
    (hUl : ∀ k j, ∃ x : ℝ, Ul k j = (x : EReal)) (hUr : ∀ k j, ∃ x : ℝ, Ur k j = (x : EReal))
    (hb : IsReal b) (j : Fin 320) (hj : ¬ j.val < 256) :
    wgate (prepW Ul Ur) (prepB b) hl hr j = gate hl hr Ul Ur b j := by
  rw [wgate_prep hl hr Ul Ur b hhl hhr hUl hUr hb j]
  have hs : scale j = unit := by unfold scale; exact if_neg hj
  have hu : unit = (1 : EReal) := Cert.LstmCell.ofBits_one
  rw [hs, hu, one_mul]

/-! ## One cell -/

/-- On real-valued inputs the kernel's cell is the reference's cell. -/
theorem kcell_eq_cell (l r : St) (Ul Ur : Fin 64 → Fin 320 → EReal) (b : Fin 320 → EReal)
    (hl1 : IsReal l.1) (hl2 : IsReal l.2) (hr1 : IsReal r.1) (hr2 : IsReal r.2)
    (hUl : ∀ k j, ∃ x : ℝ, Ul k j = (x : EReal)) (hUr : ∀ k j, ∃ x : ℝ, Ur k j = (x : EReal))
    (hb : IsReal b) :
    kcell l r Ul Ur b = cell l r Ul Ur b := by
  have _ := hl2
  have _ := hr2
  have hs : ∀ (g : Fin 5) (d : Fin 64), g.val ≤ 3 →
      wsig (prepW Ul Ur) (prepB b) l.1 r.1 (col g d) = Ideal.logistic (gate l.1 r.1 Ul Ur b (col g d)) :=
    fun g d hg => wsig_prep l.1 r.1 Ul Ur b hl1 hr1 hUl hUr hb (col g d) (col_lt_of_le g d hg)
  have h4 : ∀ d : Fin 64,
      wgate (prepW Ul Ur) (prepB b) l.1 r.1 (col 4 d) = gate l.1 r.1 Ul Ur b (col 4 d) :=
    fun d => wgate_prep_unit l.1 r.1 Ul Ur b hl1 hr1 hUl hUr hb (col 4 d) (col_four_not_lt d)
  have hC : ∀ d : Fin 64, wcellC (prepW Ul Ur) (prepB b) l r d = cellC l r Ul Ur b d := by
    intro d
    unfold wcellC cellC
    rw [hs 0 d (by decide), hs 1 d (by decide), hs 2 d (by decide), h4 d]
  have hH : ∀ d : Fin 64, wcellH (prepW Ul Ur) (prepB b) l r d = cellH l r Ul Ur b d := by
    intro d
    unfold wcellH cellH
    rw [hs 3 d (by decide), hC d]
  unfold kcell wcell cell
  exact Prod.ext (funext hH) (funext hC)

/-- The new cell state of real-valued inputs is real-valued. -/
theorem cellC_real (l r : St) (Ul Ur : Fin 64 → Fin 320 → EReal) (b : Fin 320 → EReal)
    (hl1 : IsReal l.1) (hl2 : IsReal l.2) (hr1 : IsReal r.1) (hr2 : IsReal r.2)
    (hUl : ∀ k j, ∃ x : ℝ, Ul k j = (x : EReal)) (hUr : ∀ k j, ∃ x : ℝ, Ur k j = (x : EReal))
    (hb : IsReal b) (d : Fin 64) :
    ∃ x : ℝ, cellC l r Ul Ur b d = (x : EReal) := by
  obtain ⟨g0, h0⟩ := gate_real l.1 r.1 Ul Ur b hl1 hr1 hUl hUr hb (col 0 d)
  obtain ⟨g1, h1⟩ := gate_real l.1 r.1 Ul Ur b hl1 hr1 hUl hUr hb (col 1 d)
  obtain ⟨g2, h2⟩ := gate_real l.1 r.1 Ul Ur b hl1 hr1 hUl hUr hb (col 2 d)
  obtain ⟨g4, h4⟩ := gate_real l.1 r.1 Ul Ur b hl1 hr1 hUl hUr hb (col 4 d)
  obtain ⟨cl, hcl⟩ := hl2 d
  obtain ⟨cr, hcr⟩ := hr2 d
  unfold cellC
  rw [h0, h1, h2, h4, hcl, hcr]
  simp only [Ideal.logistic_coe, Ideal.tanh_coe, ← EReal.coe_mul, ← EReal.coe_add]
  exact ⟨_, rfl⟩

/-- The new hidden state of real-valued inputs is real-valued. -/
theorem cellH_real (l r : St) (Ul Ur : Fin 64 → Fin 320 → EReal) (b : Fin 320 → EReal)
    (hl1 : IsReal l.1) (hl2 : IsReal l.2) (hr1 : IsReal r.1) (hr2 : IsReal r.2)
    (hUl : ∀ k j, ∃ x : ℝ, Ul k j = (x : EReal)) (hUr : ∀ k j, ∃ x : ℝ, Ur k j = (x : EReal))
    (hb : IsReal b) (d : Fin 64) :
    ∃ x : ℝ, cellH l r Ul Ur b d = (x : EReal) := by
  obtain ⟨g3, h3⟩ := gate_real l.1 r.1 Ul Ur b hl1 hr1 hUl hUr hb (col 3 d)
  obtain ⟨c, hc⟩ := cellC_real l r Ul Ur b hl1 hl2 hr1 hr2 hUl hUr hb d
  unfold cellH
  rw [h3, hc]
  simp only [Ideal.logistic_coe, Ideal.tanh_coe, ← EReal.coe_mul]
  exact ⟨_, rfl⟩

/-- Both components of the reference's cell on real-valued inputs are real-valued. -/
theorem cell_isReal (l r : St) (Ul Ur : Fin 64 → Fin 320 → EReal) (b : Fin 320 → EReal)
    (hl1 : IsReal l.1) (hl2 : IsReal l.2) (hr1 : IsReal r.1) (hr2 : IsReal r.2)
    (hUl : ∀ k j, ∃ x : ℝ, Ul k j = (x : EReal)) (hUr : ∀ k j, ∃ x : ℝ, Ur k j = (x : EReal))
    (hb : IsReal b) :
    IsReal (cell l r Ul Ur b).1 ∧ IsReal (cell l r Ul Ur b).2 :=
  ⟨fun d => cellH_real l r Ul Ur b hl1 hl2 hr1 hr2 hUl hUr hb d,
   fun d => cellC_real l r Ul Ur b hl1 hl2 hr1 hr2 hUl hUr hb d⟩

/-- The cell law in the form that chains: equality, and realness of the result. -/
theorem kcell_eq_cell_and_real (l r : St) (Ul Ur : Fin 64 → Fin 320 → EReal) (b : Fin 320 → EReal)
    (hl1 : IsReal l.1) (hl2 : IsReal l.2) (hr1 : IsReal r.1) (hr2 : IsReal r.2)
    (hUl : ∀ k j, ∃ x : ℝ, Ul k j = (x : EReal)) (hUr : ∀ k j, ∃ x : ℝ, Ur k j = (x : EReal))
    (hb : IsReal b) :
    kcell l r Ul Ur b = cell l r Ul Ur b ∧ IsReal (cell l r Ul Ur b).1 ∧ IsReal (cell l r Ul Ur b).2 :=
  ⟨kcell_eq_cell l r Ul Ur b hl1 hl2 hr1 hr2 hUl hUr hb,
   cell_isReal l r Ul Ur b hl1 hl2 hr1 hr2 hUl hUr hb⟩

end Cert.TreeCell

end
-- ==== Proof.ChainLaw.lean ====
/-
  The algebraic law for the chain of six cells and for the result arrays: on real-valued inputs the kernel's
  arrangement computes what the reference's arrangement computes.

  Each cell of the chain takes the previous cell's result as its left state. The cell law needs real-valued states, and
  gives back a real-valued state, so it applies six times in a row: first to level 0 and the new state under the merge
  weights, then to the running state and levels 2, 3, 5, 6, 7 under the summary weights. The result arrays are the
  chain read row by row, so they agree as soon as the ten argument arrays are real-valued.
-/
import proofs.«129490_g31301721653836_cont_9to1_2280_18_alg».proof.Proof.CellLaw
import proofs.«129490_g31301721653836_cont_9to1_2280_18_alg».proof.Proof.ArraySpec

noncomputable section

namespace Cert.TreeCell

open Idealize.ShloMosaic Idealize.ShloMosaic.ValueIdx

/-- The chain law in the form that carries realness: equality, and realness of the final state. -/
theorem kchain_eq_chain_and_real (new : St) (lev : Fin 8 → St)
    (mUl mUr : Fin 64 → Fin 320 → EReal) (mb : Fin 320 → EReal)
    (sUl sUr : Fin 64 → Fin 320 → EReal) (sb : Fin 320 → EReal)
    (hn1 : IsReal new.1) (hn2 : IsReal new.2)
    (hL1 : ∀ p, IsReal (lev p).1) (hL2 : ∀ p, IsReal (lev p).2)
    (hmUl : ∀ k j, ∃ x : ℝ, mUl k j = (x : EReal)) (hmUr : ∀ k j, ∃ x : ℝ, mUr k j = (x : EReal))
    (hmb : IsReal mb)
    (hsUl : ∀ k j, ∃ x : ℝ, sUl k j = (x : EReal)) (hsUr : ∀ k j, ∃ x : ℝ, sUr k j = (x : EReal))
    (hsb : IsReal sb) :
    kchain new lev mUl mUr mb sUl sUr sb = chain new lev mUl mUr mb sUl sUr sb
      ∧ IsReal (chain new lev mUl mUr mb sUl sUr sb).1
      ∧ IsReal (chain new lev mUl mUr mb sUl sUr sb).2 := by
  obtain ⟨e1, a1, c1⟩ :=
    kcell_eq_cell_and_real (lev 0) new mUl mUr mb (hL1 0) (hL2 0) hn1 hn2 hmUl hmUr hmb
  obtain ⟨e2, a2, c2⟩ :=
    kcell_eq_cell_and_real _ (lev 2) sUl sUr sb a1 c1 (hL1 2) (hL2 2) hsUl hsUr hsb
  obtain ⟨e3, a3, c3⟩ :=
    kcell_eq_cell_and_real _ (lev 3) sUl sUr sb a2 c2 (hL1 3) (hL2 3) hsUl hsUr hsb
  obtain ⟨e4, a4, c4⟩ :=
    kcell_eq_cell_and_real _ (lev 5) sUl sUr sb a3 c3 (hL1 5) (hL2 5) hsUl hsUr hsb
  obtain ⟨e5, a5, c5⟩ :=
    kcell_eq_cell_and_real _ (lev 6) sUl sUr sb a4 c4 (hL1 6) (hL2 6) hsUl hsUr hsb
  obtain ⟨e6, a6, c6⟩ :=
    kcell_eq_cell_and_real _ (lev 7) sUl sUr sb a5 c5 (hL1 7) (hL2 7) hsUl hsUr hsb
  refine ⟨?_, a6, c6⟩
  unfold kcell at e1 e2 e3 e4 e5 e6
  unfold kchain wchain chain
  rw [e1, e2, e3, e4, e5, e6]

/-- On real-valued inputs the kernel's chain of six cells is the reference's chain. -/
theorem kchain_eq_chain (new : St) (lev : Fin 8 → St)
    (mUl mUr : Fin 64 → Fin 320 → EReal) (mb : Fin 320 → EReal)
    (sUl sUr : Fin 64 → Fin 320 → EReal) (sb : Fin 320 → EReal)
    (hn1 : IsReal new.1) (hn2 : IsReal new.2)
    (hL1 : ∀ p, IsReal (lev p).1) (hL2 : ∀ p, IsReal (lev p).2)
    (hmUl : ∀ k j, ∃ x : ℝ, mUl k j = (x : EReal)) (hmUr : ∀ k j, ∃ x : ℝ, mUr k j = (x : EReal))
    (hmb : IsReal mb)
    (hsUl : ∀ k j, ∃ x : ℝ, sUl k j = (x : EReal)) (hsUr : ∀ k j, ∃ x : ℝ, sUr k j = (x : EReal))
    (hsb : IsReal sb) :
    kchain new lev mUl mUr mb sUl sUr sb = chain new lev mUl mUr mb sUl sUr sb :=
  (kchain_eq_chain_and_real new lev mUl mUr mb sUl sUr sb hn1 hn2 hL1 hL2 hmUl hmUr hmb hsUl hsUr hsb).1

/-- Row by row: on real-valued arrays the kernel's final state of row n is the reference's. -/
theorem krowSt_eq_rowSt (hn cn : ArrBD) (hL cL : ArrLBD) (mUl mUr : ArrW) (mb : ArrG) (sUl sUr : ArrW) (sb : ArrG)
    (hhn : IsReal hn) (hcn : IsReal cn) (hhL : IsReal hL) (hcL : IsReal cL)
    (hmUl : IsReal mUl) (hmUr : IsReal mUr) (hmb : IsReal mb)
    (hsUl : IsReal sUl) (hsUr : IsReal sUr) (hsb : IsReal sb) (n : Fin 16384) :
    krowSt hn cn hL cL mUl mUr mb sUl sUr sb n = rowSt hn cn hL cL mUl mUr mb sUl sUr sb n := by
  unfold krowSt rowSt
  exact kchain_eq_chain (newSt hn cn n) (levSt hL cL n) (mat mUl) (mat mUr) (vec mb) (mat sUl) (mat sUr) (vec sb)
    (fun d => hhn (ix2 n d)) (fun d => hcn (ix2 n d))
    (fun p d => hhL (ix3 p n d)) (fun p d => hcL (ix3 p n d))
    (fun k j => hmUl (ix2 k j)) (fun k j => hmUr (ix2 k j)) (fun j => hmb (ix1 j))
    (fun k j => hsUl (ix2 k j)) (fun k j => hsUr (ix2 k j)) (fun j => hsb (ix1 j))

/-- Row n's final state in the reference's arrangement is real-valued when the arrays are. -/
theorem rowSt_isReal (hn cn : ArrBD) (hL cL : ArrLBD) (mUl mUr : ArrW) (mb : ArrG) (sUl sUr : ArrW) (sb : ArrG)
    (hhn : IsReal hn) (hcn : IsReal cn) (hhL : IsReal hL) (hcL : IsReal cL)
    (hmUl : IsReal mUl) (hmUr : IsReal mUr) (hmb : IsReal mb)
    (hsUl : IsReal sUl) (hsUr : IsReal sUr) (hsb : IsReal sb) (n : Fin 16384) :
    IsReal (rowSt hn cn hL cL mUl mUr mb sUl sUr sb n).1 ∧ IsReal (rowSt hn cn hL cL mUl mUr mb sUl sUr sb n).2 := by
  unfold rowSt
  exact (kchain_eq_chain_and_real (newSt hn cn n) (levSt hL cL n) (mat mUl) (mat mUr) (vec mb) (mat sUl) (mat sUr)
    (vec sb)
    (fun d => hhn (ix2 n d)) (fun d => hcn (ix2 n d))
    (fun p d => hhL (ix3 p n d)) (fun p d => hcL (ix3 p n d))
    (fun k j => hmUl (ix2 k j)) (fun k j => hmUr (ix2 k j)) (fun j => hmb (ix1 j))
    (fun k j => hsUl (ix2 k j)) (fun k j => hsUr (ix2 k j)) (fun j => hsb (ix1 j))).2

/-- On real-valued arrays the kernel's hidden result array is the reference's. -/
theorem koutH_eq_outH (hn cn : ArrBD) (hL cL : ArrLBD) (mUl mUr : ArrW) (mb : ArrG) (sUl sUr : ArrW) (sb : ArrG)
    (hhn : IsReal hn) (hcn : IsReal cn) (hhL : IsReal hL) (hcL : IsReal cL)
    (hmUl : IsReal mUl) (hmUr : IsReal mUr) (hmb : IsReal mb)
    (hsUl : IsReal sUl) (hsUr : IsReal sUr) (hsb : IsReal sb) :
    koutH hn cn hL cL mUl mUr mb sUl sUr sb = outH hn cn hL cL mUl mUr mb sUl sUr sb := by
  funext i
  unfold koutH outH
  exact congrArg (fun s : St => s.1 (i 1))
    (krowSt_eq_rowSt hn cn hL cL mUl mUr mb sUl sUr sb hhn hcn hhL hcL hmUl hmUr hmb hsUl hsUr hsb (i 0))

/-- On real-valued arrays the kernel's cell result array is the reference's. -/
theorem koutC_eq_outC (hn cn : ArrBD) (hL cL : ArrLBD) (mUl mUr : ArrW) (mb : ArrG) (sUl sUr : ArrW) (sb : ArrG)
    (hhn : IsReal hn) (hcn : IsReal cn) (hhL : IsReal hL) (hcL : IsReal cL)
    (hmUl : IsReal mUl) (hmUr : IsReal mUr) (hmb : IsReal mb)
    (hsUl : IsReal sUl) (hsUr : IsReal sUr) (hsb : IsReal sb) :
    koutC hn cn hL cL mUl mUr mb sUl sUr sb = outC hn cn hL cL mUl mUr mb sUl sUr sb := by
  funext i
  unfold koutC outC
  exact congrArg (fun s : St => s.2 (i 1))
    (krowSt_eq_rowSt hn cn hL cL mUl mUr mb sUl sUr sb hhn hcn hhL hcL hmUl hmUr hmb hsUl hsUr hsb (i 0))

end Cert.TreeCell

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.PreReal.lean ====
/-
  The finiteness precondition, opened: under it every entry of each of the ten argument arrays is a real number.

  The precondition is a conjunction of ten tests, one per argument array x, each of the form
      all (|x| < +∞),
  an `and`-reduction over every axis of the elementwise comparison of |x| with the broadcast word of +∞. A conjunction
  of one-bit words that is 1 has every conjunct 1; an `and`-reduction into a single result that is 1 had a 1 at every
  index; and an extended real a with max a (−a) < ⊤ is neither ⊤ nor ⊥, hence the coercion of a real.
-/
import proofs.«129490_g31301721653836_cont_9to1_2280_18_alg».proof.Defs
import proofs.«129490_g31301721653836_cont_9to1_2280_18_alg».proof.Proof.Gen.Pre_finite_inputs
import proofs.«129490_g31301721653836_cont_9to1_2280_18_alg».proof.Proof.LibFiniteEntry
import proofs.«129490_g31301721653836_cont_9to1_2280_18_alg».proof.Proof.CellLaw
import Idealize.ShloMosaic.Lib.ReduceAll
import Idealize.ShloMosaic.Lib.IdealHost

noncomputable section

namespace Cert.PreReal

open Idealize.ShloMosaic Idealize.SL.Sem Cert.TreeCell

/-- One conjunct of the precondition, over a float array of any shape: if the `and`-reduction over all axes of
    `|x| < +∞` (the bound broadcast from a rank-0 constant) is 1, every entry of `x` is a real number. -/
theorem isReal_of_all_abs_lt_top {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (h : Host.reduce IntOp.andi
        (cmpf .olt (Host.absf x)
          (broadcastInDim s ![] hb (constant (F := Ideal) (⟨0, ![]⟩ : Shape) .f32 0x7F800000#32)))
        init hr hu j = 1#1) :
    IsReal x := by
  intro i
  have hi := Host.reduce_andi_all _ init hr hu j h i
  exact Cert.FiniteEntry.real_of_abs_lt_top (x i) hi

/-- Under the finiteness precondition every entry of each of the ten argument arrays is a real number. -/
theorem args_real
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal ((m ((c.tc : Thread Cert.KernelIdeal.nD Cert.KernelIdeal.τ).loc Cert.KernelIdeal.main_arg0)) : FVec Ideal Cert.Pre_finite_inputs.S16384x64 .f32) ∧
    IsReal ((m ((c.tc : Thread Cert.KernelIdeal.nD Cert.KernelIdeal.τ).loc Cert.KernelIdeal.main_arg1)) : FVec Ideal Cert.Pre_finite_inputs.S16384x64 .f32) ∧
    IsReal ((m ((c.tc : Thread Cert.KernelIdeal.nD Cert.KernelIdeal.τ).loc Cert.KernelIdeal.main_arg2)) : FVec Ideal Cert.Pre_finite_inputs.S8x16384x64 .f32) ∧
    IsReal ((m ((c.tc : Thread Cert.KernelIdeal.nD Cert.KernelIdeal.τ).loc Cert.KernelIdeal.main_arg3)) : FVec Ideal Cert.Pre_finite_inputs.S8x16384x64 .f32) ∧
    IsReal ((m ((c.tc : Thread Cert.KernelIdeal.nD Cert.KernelIdeal.τ).loc Cert.KernelIdeal.main_arg4)) : FVec Ideal Cert.Pre_finite_inputs.S64x320 .f32) ∧
    IsReal ((m ((c.tc : Thread Cert.KernelIdeal.nD Cert.KernelIdeal.τ).loc Cert.KernelIdeal.main_arg5)) : FVec Ideal Cert.Pre_finite_inputs.S64x320 .f32) ∧
    IsReal ((m ((c.tc : Thread Cert.KernelIdeal.nD Cert.KernelIdeal.τ).loc Cert.KernelIdeal.main_arg6)) : FVec Ideal Cert.Pre_finite_inputs.S320 .f32) ∧
    IsReal ((m ((c.tc : Thread Cert.KernelIdeal.nD Cert.KernelIdeal.τ).loc Cert.KernelIdeal.main_arg7)) : FVec Ideal Cert.Pre_finite_inputs.S64x320 .f32) ∧
    IsReal ((m ((c.tc : Thread Cert.KernelIdeal.nD Cert.KernelIdeal.τ).loc Cert.KernelIdeal.main_arg8)) : FVec Ideal Cert.Pre_finite_inputs.S64x320 .f32) ∧
    IsReal ((m ((c.tc : Thread Cert.KernelIdeal.nD Cert.KernelIdeal.τ).loc Cert.KernelIdeal.main_arg9)) : FVec Ideal Cert.Pre_finite_inputs.S320 .f32) := by
  have h0 := congrFun (h c) ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨isReal_of_all_abs_lt_top _ _ _ _ _ _ e0, isReal_of_all_abs_lt_top _ _ _ _ _ _ e1,
    isReal_of_all_abs_lt_top _ _ _ _ _ _ e2, isReal_of_all_abs_lt_top _ _ _ _ _ _ e3,
    isReal_of_all_abs_lt_top _ _ _ _ _ _ e4, isReal_of_all_abs_lt_top _ _ _ _ _ _ e5,
    isReal_of_all_abs_lt_top _ _ _ _ _ _ e6, isReal_of_all_abs_lt_top _ _ _ _ _ _ e7,
    isReal_of_all_abs_lt_top _ _ _ _ _ _ e8, isReal_of_all_abs_lt_top _ _ _ _ _ _ e9⟩

end Cert.PreReal

end
-- ==== Proof.lean ====
/-
  A batch of 16384 rows, each carrying a state (h, c) of two 64-vectors, is folded through six tree-LSTM cells: the
  first joins level 0 of a stack of eight states with the new state under the merge weights, the next five join the
  running state with levels 2, 3, 5, 6, 7 under the summary weights. The reference computes each cell as written:
  two 64-term contractions added, the bias added, five gate blocks, the logistic function on four of them, tanh on the
  fifth. The kernel works in transposed space on 2048 rows at a time; it stacks the two hidden vectors and contracts
  once over 128 against weights whose four logistic gate blocks were halved beforehand (the bias likewise), takes one
  tanh over all 320 pre-activations, and rebuilds each logistic gate as 1/2 + 1/2 · tanh(g/2).

  On the extended reals the two are the same function of finite inputs: the 128-term sum splits into the two 64-term
  sums; the halving commutes with the sums because every term is a real number — this is where the finiteness of the
  inputs is used, and it is carried from cell to cell because a cell of real inputs has real outputs —; and
  1/2 + 1/2 · tanh(z/2) is the logistic function of z. Changes of float format are the identity on the extended reals.

  Both kernel programs (the printed one at the word level, its idealization on the extended reals) run to the end
  without a fault and leave their arguments unchanged: the body only reads its eighteen input windows and overwrites
  its two output windows whole; the two stacked-level arrays are each read through six windows, so each is held in six
  shares while the region runs and whole again afterwards. The reference is a straight line of host operations.
-/
import proofs.«129490_g31301721653836_cont_9to1_2280_18_alg».proof.Defs
import proofs.«129490_g31301721653836_cont_9to1_2280_18_alg».proof.Proof.Gen.Kernel
import proofs.«129490_g31301721653836_cont_9to1_2280_18_alg».proof.Proof.Gen.KernelIdeal
import proofs.«129490_g31301721653836_cont_9to1_2280_18_alg».proof.Proof.Gen.ReferenceIdeal
import proofs.«129490_g31301721653836_cont_9to1_2280_18_alg».proof.Proof.Gen.Pre_finite_inputs
import proofs.«129490_g31301721653836_cont_9to1_2280_18_alg».proof.Proof.FramesK
import proofs.«129490_g31301721653836_cont_9to1_2280_18_alg».proof.Proof.Frames
import proofs.«129490_g31301721653836_cont_9to1_2280_18_alg».proof.Proof.KernelValue
import proofs.«129490_g31301721653836_cont_9to1_2280_18_alg».proof.Proof.RefValue
import proofs.«129490_g31301721653836_cont_9to1_2280_18_alg».proof.Proof.ChainLaw
import proofs.«129490_g31301721653836_cont_9to1_2280_18_alg».proof.Proof.PreReal
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Gen.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame (F := Ideal) m ρ

/-- On finite inputs the idealized kernel and the idealized reference end with the same two result arrays: the
    kernel's are the six-cell chain in its own arrangement, the reference's the chain as written, and the two
    arrangements agree on real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.TreeCell.outH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.TreeCell.outC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.KRun.run_value m ρ)
    obtain ⟨r0, r1, r2, r3, r4, r5, r6, r7, r8, r9⟩ := Cert.PreReal.args_real m hpre c
    exact ⟨(h c).1.trans (Cert.TreeCell.koutH_eq_outH _ _ _ _ _ _ _ _ _ _ r0 r1 r2 r3 r4 r5 r6 r7 r8 r9),
      (h c).2.1.trans (Cert.TreeCell.koutC_eq_outC _ _ _ _ _ _ _ _ _ _ r0 r1 r2 r3 r4 r5 r6 r7 r8 r9), (h c).2.2⟩
  · refine (θ_run Cert.ReferenceIdeal.defs _ _).mono (fun r h c => ?_) (Cert.ReferenceIdeal.RefValue.run_spec m' ρ')
    obtain ⟨e0, e1, e2, e3, e4, e5, e6, e7, e8, e9⟩ := hagree c
    refine ⟨(h c).1.trans ?_, (h c).2.1.trans ?_, (h c).2.2⟩
    · rw [e0, e1, e2, e3, e4, e5, e6, e7, e8, e9]
    · rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
